-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x8192 : Shape := ⟨2, ![4, 8192]⟩
abbrev S1000000x128 : Shape := ⟨2, ![1000000, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : IVec S4x8192 32) (main_arg1 : FVec F S1000000x128 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_c_0 : IVec S_ 32 := constantI S_ 32 0#32
  let main_v4 : IVec S4x8192 32 := broadcastInDim S4x8192 ![] bcast_S_S4x8192 main_c_0
  let main_v5 : IVec S4x8192 1 := cmpi .sge main_arg0 main_v4
  let main_c_1 : IVec S_ 32 := constantI S_ 32 999999#32
  let main_v6 : IVec S4x8192 32 := broadcastInDim S4x8192 ![] bcast_S_S4x8192 main_c_1
  let main_v7 : IVec S4x8192 1 := cmpi .sle main_arg0 main_v6
  let main_v8 : IVec S4x8192 1 := andi main_v5 main_v7
  let main_c_2 : IVec S_ 1 := constantI S_ 1 1#1
  let main_v9 : IVec S_ 1 := (fun x v => Host.reduce IntOp.andi x v reducesTo_S4x8192_S_d0_1 h_S_) main_v8 main_c_2
  let main_v10 : IVec S_ 1 := andi main_v3 main_v9
  main_v10
-- ==== Kernel.lean ====
abbrev S4x8192 : Shape := ⟨2, ![4, 8192]⟩
abbrev S1000000x128 : Shape := ⟨2, ![1000000, 128]⟩
abbrev S4x8192x128 : Shape := ⟨3, ![4, 8192, 128]⟩
abbrev S1024 : Shape := ⟨1, ![1024]⟩
abbrev S128x128 : Shape := ⟨2, ![128, 128]⟩
abbrev S_ : Shape := ⟨0, ![]⟩
abbrev S1x1024 : Shape := ⟨2, ![1, 1024]⟩
abbrev S128 : Shape := ⟨1, ![128]⟩
abbrev S16 : Shape := ⟨1, ![16]⟩
abbrev S1x128x128 : Shape := ⟨3, ![1, 128, 128]⟩

abbrev nBuf : Table → Nat
  | .hbm => 4
  | .local .scVector .vmem => 8
  | _ => 0

abbrev bufTy : (tb : Table) → Fin (nBuf tb) → BufTy
  | .hbm, ⟨0, _⟩ => ⟨S4x8192, .i32⟩
  | .hbm, ⟨1, _⟩ => ⟨S1000000x128, .f32⟩
  | .hbm, ⟨2, _⟩ => ⟨S4x8192x128, .f32⟩
  | .hbm, ⟨3, _⟩ => ⟨S4x8192, .i32⟩
  | .local .scVector .vmem, ⟨0, _⟩ => ⟨S1024, .i32⟩
  | .local .scVector .vmem, ⟨1, _⟩ => ⟨S1024, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg1_scv : Ref sig .scVector := ⟨.hbm, 1, rfl⟩
abbrev main_arg0_scv : Ref sig .scVector := ⟨.hbm, 0, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8192_i32 : BitVec 32 := 8192#32
  let c0_i32_1 : BitVec 32 := 0#32
  let v9 : BitVec 1 := Scalar.cmpi .sgt c8192_i32 c0_i32_1
  let v10 : BitVec 32 := Scalar.extui v9
  let c0_i32_2 : BitVec 32 := 0#32
  let v11 : BitVec 1 := Scalar.cmpi .slt c8192_i32 c0_i32_2
  let v12 : BitVec 32 := Scalar.extui v11
  let v13 : BitVec 32 := Scalar.subi v10 v12
  let v14 : BitVec 1 := Scalar.cmpi .ne v8 v13
  let v15 : BitVec 32 := Scalar.remsi v2 c8192_i32
  let c0_i32_3 : BitVec 32 := 0#32
  let v16 : BitVec 1 := Scalar.cmpi .ne v15 c0_i32_3
  let v17 : BitVec 1 := Scalar.andi v14 v16
  let v3 : BitVec 32 := Scalar.divsi v2 c8192_i32
  let c1_i32 : BitVec 32 := 1#32
  let v18 : BitVec 32 := Scalar.subi v3 c1_i32
  let v19 : BitVec 32 := Scalar.select v17 v18 v3
  let c8192_i32_4 : BitVec 32 := 8192#32
  let c0_i32_5 : BitVec 32 := 0#32
  let v20 : BitVec 1 := Scalar.cmpi .eq c8192_i32_4 c0_i32_5
  let c1_i32_6 : BitVec 32 := 1#32
  let v21 : BitVec 32 := Scalar.select v20 c1_i32_6 c8192_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  ![v19.toNat, v29.toNat]
def k0_off2 (i : grid0.Coords) (c0_i32_32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8192_i32 : BitVec 32 := 8192#32
  let c0_i32_1 : BitVec 32 := 0#32
  let v9 : BitVec 1 := Scalar.cmpi .sgt c8192_i32 c0_i32_1
  let v10 : BitVec 32 := Scalar.extui v9
  let c0_i32_2 : BitVec 32 := 0#32
  let v11 : BitVec 1 := Scalar.cmpi .slt c8192_i32 c0_i32_2
  let v12 : BitVec 32 := Scalar.extui v11
  let v13 : BitVec 32 := Scalar.subi v10 v12
  let v14 : BitVec 1 := Scalar.cmpi .ne v8 v13
  let v15 : BitVec 32 := Scalar.remsi v2 c8192_i32
  let c0_i32_3 : BitVec 32 := 0#32
  let v16 : BitVec 1 := Scalar.cmpi .ne v15 c0_i32_3
  let v17 : BitVec 1 := Scalar.andi v14 v16
  let v3 : BitVec 32 := Scalar.divsi v2 c8192_i32
  let c1_i32 : BitVec 32 := 1#32
  let v18 : BitVec 32 := Scalar.subi v3 c1_i32
  let v19 : BitVec 32 := Scalar.select v17 v18 v3
  let c8192_i32_4 : BitVec 32 := 8192#32
  let c0_i32_5 : BitVec 32 := 0#32
  let v20 : BitVec 1 := Scalar.cmpi .eq c8192_i32_4 c0_i32_5
  let c1_i32_6 : BitVec 32 := 1#32
  let v21 : BitVec 32 := Scalar.select v20 c1_i32_6 c8192_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let v500 : BitVec 32 := Scalar.addi v29 c0_i32_32
  let c0_i32_33 : BitVec 32 := 0#32
  ![v19.toNat, v500.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x1024_S1024 : S1x1024.Squeezes S1024
  inb_S1024_S128_0 : ∀ a, (![0] : Fin 1 → Nat) a + S128.size a ≤ S1024.size a
  inb_S1000000x128_S1000000x128_0_0 : ∀ a, (![0, 0] : Fin 2 → Nat) a + S1000000x128.size a ≤ S1000000x128.size a
  gathers_S1000000x128_S128x128 : S1000000x128.Gathers 0 S128x128
  inb_S1024_S128_128 : ∀ a, (![128] : Fin 1 → Nat) a + S128.size a ≤ S1024.size a
  inb_S1024_S128_256 : ∀ a, (![256] : Fin 1 → Nat) a + S128.size a ≤ S1024.size a
  inb_S1024_S128_384 : ∀ a, (![384] : Fin 1 → Nat) a + S128.size a ≤ S1024.size a
  inb_S1024_S128_512 : ∀ a, (![512] : Fin 1 → Nat) a + S128.size a ≤ S1024.size a
  inb_S1024_S128_640 : ∀ a, (![640] : Fin 1 → Nat) a + S128.size a ≤ S1024.size a
  iota_S16_d0_w32_scVector : S16.Iotas .scVector 32 [0]
  inb_S1024_S16_0 : ∀ a, (![0] : Fin 1 → Nat) a + S16.size a ≤ S1024.size a
  h_S16 : 0 < S16.numel
  shapeCasts_S16_S16 : S16.ShapeCasts S16
  inb_S1024_S16_16 : ∀ a, (![16] : Fin 1 → Nat) a + S16.size a ≤ S1024.size a
  inb_S1024_S16_32 : ∀ a, (![32] : Fin 1 → Nat) a + S16.size a ≤ S1024.size a
  inb_S1024_S16_48 : ∀ a, (![48] : Fin 1 → Nat) a + S16.size a ≤ S1024.size a
  inb_S1024_S16_64 : ∀ a, (![64] : Fin 1 → Nat) a + S16.size a ≤ S1024.size a
  inb_S1024_S16_80 : ∀ a, (![80] : Fin 1 → Nat) a + S16.size a ≤ S1024.size a
  inb_S1024_S16_96 : ∀ a, (![96] : Fin 1 → Nat) a + S16.size a ≤ S1024.size a
  inb_S1024_S16_112 : ∀ a, (![112] : Fin 1 → Nat) a + S16.size a ≤ S1024.size a
  inb_S1024_S16_128 : ∀ a, (![128] : Fin 1 → Nat) a + S16.size a ≤ S1024.size a
  inb_S1024_S16_144 : ∀ a, (![144] : Fin 1 → Nat) a + S16.size a ≤ S1024.size a
  inb_S1024_S16_160 : ∀ a, (![160] : Fin 1 → Nat) a + S16.size a ≤ S1024.size a
  inb_S1024_S16_176 : ∀ a, (![176] : Fin 1 → Nat) a + S16.size a ≤ S1024.size a
  inb_S1024_S16_192 : ∀ a, (![192] : Fin 1 → Nat) a + S16.size a ≤ S1024.size a
  inb_S1024_S16_208 : ∀ a, (![208] : Fin 1 → Nat) a + S16.size a ≤ S1024.size a
  inb_S1024_S16_224 : ∀ a, (![224] : Fin 1 → Nat) a + S16.size a ≤ S1024.size a
  inb_S1024_S16_240 : ∀ a, (![240] : Fin 1 → Nat) a + S16.size a ≤ S1024.size a
  inb_S1024_S16_256 : ∀ a, (![256] : Fin 1 → Nat) a + S16.size a ≤ S1024.size a
  inb_S1024_S16_272 : ∀ a, (![272] : Fin 1 → Nat) a + S16.size a ≤ S1024.size a
  inb_S1024_S16_288 : ∀ a, (![288] : Fin 1 → Nat) a + S16.size a ≤ S1024.size a
  inb_S1024_S16_304 : ∀ a, (![304] : Fin 1 → Nat) a + S16.size a ≤ S1024.size a
  inb_S1024_S16_320 : ∀ a, (![320] : Fin 1 → Nat) a + S16.size a ≤ S1024.size a
  inb_S1024_S16_336 : ∀ a, (![336] : Fin 1 → Nat) a + S16.size a ≤ S1024.size a
  inb_S1024_S16_352 : ∀ a, (![352] : Fin 1 → Nat) a + S16.size a ≤ S1024.size a
  inb_S1024_S16_368 : ∀ a, (![368] : Fin 1 → Nat) a + S16.size a ≤ S1024.size a
  inb_S1024_S16_384 : ∀ a, (![384] : Fin 1 → Nat) a + S16.size a ≤ S1024.size a
  inb_S1024_S16_400 : ∀ a, (![400] : Fin 1 → Nat) a + S16.size a ≤ S1024.size a
  inb_S1024_S16_416 : ∀ a, (![416] : Fin 1 → Nat) a + S16.size a ≤ S1024.size a
  inb_S1024_S16_432 : ∀ a, (![432] : Fin 1 → Nat) a + S16.size a ≤ S1024.size a
  inb_S1024_S16_448 : ∀ a, (![448] : Fin 1 → Nat) a + S16.size a ≤ S1024.size a
  inb_S1024_S16_464 : ∀ a, (![464] : Fin 1 → Nat) a + S16.size a ≤ S1024.size a
  inb_S1024_S16_480 : ∀ a, (![480] : Fin 1 → Nat) a + S16.size a ≤ S1024.size a
  inb_S1024_S16_496 : ∀ a, (![496] : Fin 1 → Nat) a + S16.size a ≤ S1024.size a
  inb_S1024_S16_512 : ∀ a, (![512] : Fin 1 → Nat) a + S16.size a ≤ S1024.size a
  inb_S1024_S16_528 : ∀ a, (![528] : Fin 1 → Nat) a + S16.size a ≤ S1024.size a
  inb_S1024_S16_544 : ∀ a, (![544] : Fin 1 → Nat) a + S16.size a ≤ S1024.size a
  inb_S1024_S16_560 : ∀ a, (![560] : Fin 1 → Nat) a + S16.size a ≤ S1024.size a
  inb_S1024_S16_576 : ∀ a, (![576] : Fin 1 → Nat) a + S16.size a ≤ S1024.size a
  inb_S1024_S16_592 : ∀ a, (![592] : Fin 1 → Nat) a + S16.size a ≤ S1024.size a
  inb_S1024_S16_608 : ∀ a, (![608] : Fin 1 → Nat) a + S16.size a ≤ S1024.size a
  inb_S1024_S16_624 : ∀ a, (![624] : Fin 1 → Nat) a + S16.size a ≤ S1024.size a
  inb_S1024_S16_640 : ∀ a, (![640] : Fin 1 → Nat) a + S16.size a ≤ S1024.size a
  inb_S1024_S16_656 : ∀ a, (![656] : Fin 1 → Nat) a + S16.size a ≤ S1024.size a
  inb_S1024_S16_672 : ∀ a, (![672] : Fin 1 → Nat) a + S16.size a ≤ S1024.size a
  inb_S1024_S16_688 : ∀ a, (![688] : Fin 1 → Nat) a + S16.size a ≤ S1024.size a
  inb_S1024_S16_704 : ∀ a, (![704] : Fin 1 → Nat) a + S16.size a ≤ S1024.size a
  inb_S1024_S16_720 : ∀ a, (![720] : Fin 1 → Nat) a + S16.size a ≤ S1024.size a
  inb_S1024_S16_736 : ∀ a, (![736] : Fin 1 → Nat) a + S16.size a ≤ S1024.size a
  inb_S1024_S16_752 : ∀ a, (![752] : Fin 1 → Nat) a + S16.size a ≤ S1024.size a
  inb_S1024_S16_768 : ∀ a, (![768] : Fin 1 → Nat) a + S16.size a ≤ S1024.size a
  inb_S1024_S16_784 : ∀ a, (![784] : Fin 1 → Nat) a + S16.size a ≤ S1024.size a
  inb_S1024_S16_800 : ∀ a, (![800] : Fin 1 → Nat) a + S16.size a ≤ S1024.size a
  inb_S1024_S16_816 : ∀ a, (![816] : Fin 1 → Nat) a + S16.size a ≤ S1024.size a
  inb_S1024_S16_832 : ∀ a, (![832] : Fin 1 → Nat) a + S16.size a ≤ S1024.size a
  inb_S1024_S16_848 : ∀ a, (![848] : Fin 1 → Nat) a + S16.size a ≤ S1024.size a
  inb_S1024_S16_864 : ∀ a, (![864] : Fin 1 → Nat) a + S16.size a ≤ S1024.size a
  inb_S1024_S16_880 : ∀ a, (![880] : Fin 1 → Nat) a + S16.size a ≤ S1024.size a
  inb_S1024_S16_896 : ∀ a, (![896] : Fin 1 → Nat) a + S16.size a ≤ S1024.size a
  inb_S1024_S16_912 : ∀ a, (![912] : Fin 1 → Nat) a + S16.size a ≤ S1024.size a
  inb_S1024_S16_928 : ∀ a, (![928] : Fin 1 → Nat) a + S16.size a ≤ S1024.size a
  inb_S1024_S16_944 : ∀ a, (![944] : Fin 1 → Nat) a + S16.size a ≤ S1024.size a
  inb_S1024_S16_960 : ∀ a, (![960] : Fin 1 → Nat) a + S16.size a ≤ S1024.size a
  inb_S1024_S16_976 : ∀ a, (![976] : Fin 1 → Nat) a + S16.size a ≤ S1024.size a
  inb_S1024_S16_992 : ∀ a, (![992] : Fin 1 → Nat) a + S16.size a ≤ S1024.size a
  inb_S1024_S16_1008 : ∀ a, (![1008] : Fin 1 → Nat) a + S16.size a ≤ S1024.size a
  squeezes_S1x128x128_S128x128 : S1x128x128.Squeezes S128x128
  inb_S1024_S128_768 : ∀ a, (![768] : Fin 1 → Nat) a + S128.size a ≤ S1024.size a
  inb_S1024_S128_896 : ∀ a, (![896] : Fin 1 → Nat) a + S128.size a ≤ S1024.size a
  hcc0_scratch8 : 0 + S_.numel ≤ 14
  hcc0_scratch9 : 1 + S_.numel ≤ 14
  hcc0_scratch10 : 2 + S_.numel ≤ 14
  hcc0_scratch11 : 3 + S_.numel ≤ 14
  hcc0_scratch12 : 4 + S_.numel ≤ 14
  hcc0_scratch13 : 5 + S_.numel ≤ 14
  hcc0_scratch14 : 6 + S_.numel ≤ 14
  hcc0_scratch15 : 7 + S_.numel ≤ 14
  hcc0_scratch16 : 8 + S_.numel ≤ 14
  hcc0_scratch17 : 9 + S_.numel ≤ 14
  hcc0_scratch18 : 10 + S_.numel ≤ 14
  hcc0_scratch19 : 11 + S_.numel ≤ 14
  hcc0_scratch20 : 12 + S_.numel ≤ 14
  hcc0_scoped0 : 13 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x1024.size a ≤ S4x8192.size a
  k0_off2_inb : ∀ i : grid0.Coords, ∀ (r : Fin 8), ∀ a, (k0_off2 i (BitVec.ofNat 32 (128 * r.val))) a + S1x128x128.size a ≤ S4x8192x128.size a

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scratch12 : DmaSems sig S_ := SemArray.consecutive 4 S_ hcc0_scratch12
abbrev cc0_scratch13 : DmaSems sig S_ := SemArray.consecutive 5 S_ hcc0_scratch13
abbrev cc0_scratch14 : DmaSems sig S_ := SemArray.consecutive 6 S_ hcc0_scratch14
abbrev cc0_scratch15 : DmaSems sig S_ := SemArray.consecutive 7 S_ hcc0_scratch15
abbrev cc0_scratch16 : DmaSems sig S_ := SemArray.consecutive 8 S_ hcc0_scratch16
abbrev cc0_scratch17 : DmaSems sig S_ := SemArray.consecutive 9 S_ hcc0_scratch17
abbrev cc0_scratch18 : DmaSems sig S_ := SemArray.consecutive 10 S_ hcc0_scratch18
abbrev cc0_scratch19 : DmaSems sig S_ := SemArray.consecutive 11 S_ hcc0_scratch19
abbrev cc0_scratch20 : DmaSems sig S_ := SemArray.consecutive 12 S_ hcc0_scratch20
abbrev cc0_scoped0 : DmaSems sig S_ := SemArray.consecutive 13 S_ hcc0_scoped0

class Facts : Prop extends Facts₀ where

variable [Facts]
-- ==== ReferenceIdeal.lean ====
abbrev S4x8192 : Shape := ⟨2, ![4, 8192]⟩
abbrev S1000000x128 : Shape := ⟨2, ![1000000, 128]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x128 : Shape := ⟨3, ![4, 8192, 128]⟩
abbrev S8192 : Shape := ⟨1, ![8192]⟩
abbrev S1x8192 : Shape := ⟨2, ![1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S1000000x128, .f32⟩
  | .hbm, ⟨2, _⟩ => ⟨S_, .i32⟩
  | .hbm, ⟨3, _⟩ => ⟨S4x8192, .i32⟩
  | .hbm, ⟨4, _⟩ => ⟨S4x8192, .i1⟩
  | .hbm, ⟨5, _⟩ => ⟨S_, .i32⟩
  | .hbm, ⟨6, _⟩ => ⟨S4x8192, .i32⟩
  | .hbm, ⟨7, _⟩ => ⟨S4x8192, .i32⟩
  | .hbm, ⟨8, _⟩ => ⟨S4x8192, .i32⟩
  | .hbm, ⟨9, _⟩ => ⟨S4x8192x1, .i32⟩
  | .hbm, ⟨10, _⟩ => ⟨S1, .i32⟩
  | .hbm, ⟨11, _⟩ => ⟨S_, .i32⟩
  | .hbm, ⟨12, _⟩ => ⟨S4x8192x1, .i32⟩
  | .hbm, ⟨13, _⟩ => ⟨S4x8192x1, .i1⟩
  | .hbm, ⟨14, _⟩ => ⟨S1x1x1, .i32⟩
  | .hbm, ⟨15, _⟩ => ⟨S4x8192x1, .i32⟩
  | .hbm, ⟨16, _⟩ => ⟨S4x8192x1, .i1⟩
  | .hbm, ⟨17, _⟩ => ⟨S4x8192x1, .i1⟩
  | .hbm, ⟨18, _⟩ => ⟨S_, .i1⟩
  | .hbm, ⟨19, _⟩ => ⟨S4x8192, .i1⟩
  | .hbm, ⟨20, _⟩ => ⟨S4x8192x128, .f32⟩
  | .hbm, ⟨21, _⟩ => ⟨S4x8192x128, .i1⟩
  | .hbm, ⟨22, _⟩ => ⟨S_, .f32⟩
  | .hbm, ⟨23, _⟩ => ⟨S4x8192x128, .f32⟩
  | .hbm, ⟨24, _⟩ => ⟨S4x8192x128, .f32⟩
  | .hbm, ⟨25, _⟩ => ⟨S8192, .i32⟩
  | .hbm, ⟨26, _⟩ => ⟨S1x8192, .i32⟩
  | .hbm, ⟨27, _⟩ => ⟨S4x8192, .i32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]

class Facts₀ : Prop where
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x128_0_1 : S4x8192.BroadcastsInDim S4x8192x128 (![0, 1] : Fin 2 → Fin S4x8192x128.rank)
  bcast_S_S4x8192x128 : S_.BroadcastsInDim S4x8192x128 (![] : Fin 0 → Fin S4x8192x128.rank)
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  gather_S1000000x128_S4x8192x1_S4x8192x128_2_0_n_n_0_2_1128_wf : GatherDims.WF S1000000x128 S4x8192x1 S4x8192x128 [2] [0] [] [0] [] 2 ![1, 128]

variable [Facts₀]

def gather_S1000000x128_S4x8192x1_S4x8192x128_2_0_n_n_0_2_1128 : GatherDims S1000000x128 S4x8192x1 S4x8192x128 where
  offsetDims := [2]
  collapsedSliceDims := [0]
  operandBatchingDims := []
  startIndicesBatchingDims := []
  startIndexMap := [0]
  indexVectorDim := 2
  sliceSizes := ![1, 128]
  wf := gather_S1000000x128_S4x8192x1_S4x8192x128_2_0_n_n_0_2_1128_wf

class Facts : Prop extends Facts₀ where

variable [Facts]
-- ==== Proof.Spec.lean ====
/-
  The specification both programs meet, stated once over literal shapes and importing neither program.

  The first result is a table lookup: entry (b, s, e) of the result is entry (r, e) of the table, where r is the word at
  (b, s) of the index array read as a row number. Both programs are only compared where every index names a row of the
  table (0 ≤ index < 1000000), so the row number is stated with a clamp to the last row: on such indices the clamp is
  the identity, and the function is total. The second result does not depend on the data: entry (b, s) is the
  position s itself, as a 32-bit word.
-/
import Idealize.ShloMosaic.Lib.ValueIdx
import Idealize.ShloMosaic.PureOps

noncomputable section

namespace Cert.Lookup

open Idealize.ShloMosaic Idealize.ShloMosaic.ValueIdx

/-- The index array: 4 sequences of 8192 positions. -/
abbrev SIds : Shape := ⟨2, ![4, 8192]⟩
/-- The table: 1000000 rows of 128 entries. -/
abbrev STab : Shape := ⟨2, ![1000000, 128]⟩
/-- The looked-up rows: one row of 128 entries per position. -/
abbrev SOut : Shape := ⟨3, ![4, 8192, 128]⟩

/-- Every index names a row of the table. -/
def IdsOK (ids : IVec SIds 32) : Prop := ∀ j, (ids j).toNat < 1000000

/-- A word read as a row number of the table, clamped to the last row. -/
def rowOf (w : BitVec 32) : Fin 1000000 := ⟨min w.toNat 999999, by omega⟩

theorem rowOf_val {w : BitVec 32} (h : w.toNat < 1000000) : (rowOf w).val = w.toNat := by
  show min w.toNat 999999 = w.toNat; omega

/-- The lookup: entry (b, s, e) is the table's entry (ids (b, s), e). -/
def rows {F : FTy → Type} (ids : IVec SIds 32) (tab : FVec F STab .f32) : FVec F SOut .f32 :=
  fun j => tab (ix2 (rowOf (ids (ix2 (j 0) (j 1)))) (j 2))

/-- The positions: entry (b, s) is s. -/
def positions : IVec SIds 32 := fun j => BitVec.ofNat 32 (j 1).val

end Cert.Lookup

end
-- ==== Proof.IdealSetup.lean ====
/-
  The lookup kernel as its launch sees it: one call that runs the same task on the thirty-two vector subcores of the
  device's two SparseCores. Task w = 2·(subcore) + (SparseCore) owns positions [1024·(w mod 8), 1024·(w mod 8) + 1024)
  of sequence w / 8: it reads that stretch of the index array, looks the 1024 rows up in the table eight chunks of 128
  rows at a time, writes each chunk to its place in the first result, and writes the stretch of positions to the second.
  Stated here: the arrays as locations, each task's pieces of them exactly as the task's own slices name them, what a
  task is handed and what it hands back (the two results' pieces at the specification), and the call's payloads.
-/
import proofs.«206247_g21887153341054_retrytranche2_883_16_alg».proof.KernelIdeal
import proofs.«206247_g21887153341054_retrytranche2_883_16_alg».proof.Proof.Gen.KernelIdeal
import proofs.«206247_g21887153341054_retrytranche2_883_16_alg».proof.Proof.Gen.KernelIdeal.Skeleton
import proofs.«206247_g21887153341054_retrytranche2_883_16_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.LookupIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array, the table, the looked-up rows, the positions: as locations of device `d`. -/
abbrev iLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0_0
abbrev pLoc (d : Dev nD) : Loc nD τ sig := (SparseCore.T d).loc main_v0_1

/-- The index array's contents at launch, and the table's. -/
abbrev idsOf (d : Dev nD) : IVec Cert.Lookup.SIds 32 := m (iLoc d)
abbrev tabOf (d : Dev nD) : FVec F Cert.Lookup.STab .f32 := m (tLoc d)

/-- What the proof asks of the launch memory: every index names a row of the table. -/
def PreOK : Prop := ∀ d : Dev nD, Cert.Lookup.IdsOK (idsOf m d)

/-- The two results as the specification gives them from the launch memory. -/
def rowsAt (d : Dev nD) : Buf (Elt F) (oLoc d) := Cert.Lookup.rows (idsOf m d) (tabOf m d)
def posAt (d : Dev nD) : Buf (Elt F) (pLoc d) := Cert.Lookup.positions

local notation "tV" => (Memref.whole Cert.KernelIdeal.main_arg1_scv : Memref Cert.KernelIdeal.sig Kind.scVector Space.hbm Cert.KernelIdeal.S1000000x128 EltTy.f32)
local notation "iV" => (Memref.whole Cert.KernelIdeal.main_arg0_scv : Memref Cert.KernelIdeal.sig Kind.scVector Space.hbm Cert.KernelIdeal.S4x8192 EltTy.i32)
local notation "oV" => (Memref.whole Cert.KernelIdeal.main_v0_0_scv : Memref Cert.KernelIdeal.sig Kind.scVector Space.hbm Cert.KernelIdeal.S4x8192x128 EltTy.f32)
local notation "pV" => (Memref.whole Cert.KernelIdeal.main_v0_1_scv : Memref Cert.KernelIdeal.sig Kind.scVector Space.hbm Cert.KernelIdeal.S4x8192 EltTy.i32)

/-! ## A task's pieces, as its own slices name them -/

/-- The task's stretch of the index array, and of the positions (the same rectangle of the other array). -/
abbrev strip (L : grid0.Coords) : Rect S4x8192 := Rect.unit (s := S4x8192) (k0_off1 L) S1x1024.size (k0_off1_inb L)
abbrev iRowK (L : grid0.Coords) : Memref sig .scVector .hbm S1024 .i32 := ((iV).slice (strip L) (fun _ => rfl)).squeeze S1024 squeezes_S1x1024_S1024
abbrev pRowK (L : grid0.Coords) : Memref sig .scVector .hbm S1024 .i32 := ((pV).slice (strip L) (fun _ => rfl)).squeeze S1024 squeezes_S1x1024_S1024
/-- Chunk `r` of the task's block of the looked-up rows: 128 rows of 128 entries. -/
abbrev chunk (L : grid0.Coords) (r : Fin 8) : Rect S4x8192x128 :=
  Rect.unit (s := S4x8192x128) (k0_off2 L (BitVec.ofNat 32 (128 * r.val))) S1x128x128.size (k0_off2_inb L r)
abbrev oBlkK (L : grid0.Coords) (r : Fin 8) : Memref sig .scVector .hbm S128x128 .f32 :=
  ((oV).slice (chunk L r) (fun _ => rfl)).squeeze S128x128 squeezes_S1x128x128_S128x128

abbrev stripSet (L : grid0.Coords) : Finset S4x8192.Idx := (iRowK L).view.set
abbrev chunkSet (L : grid0.Coords) (r : Fin 8) : Finset S4x8192x128.Idx := (oBlkK L r).view.set

/-- The share of the table task `w` reads through: one of thirty-two read tokens of the whole. -/
abbrev wOf (L : grid0.Coords) : ℕ := 2 * (L 1).val + (L 0).val
abbrev tq (L : grid0.Coords) : PosShare TreeShare := Transfers.shareTokN fullShare (wOf L)

variable [FloatOps F]

/-- What a task is handed: its stretch of the indices, its token of the table, its eight chunks of the first result and
    its stretch of the second, the results' at their launch contents. -/
def tileGo (d : Dev nD) (L : grid0.Coords) : sProp 𝕄 :=
  iprop((iLoc d ↦[stripSet L]{fullShare} m (iLoc d)) ∗ (tLoc d ↦{tq L} m (tLoc d))
    ∗ (bigSep Finset.univ fun r : Fin 8 => oLoc d ↦[chunkSet L r]{fullShare} m (oLoc d))
    ∗ (pLoc d ↦[stripSet L]{fullShare} m (pLoc d)))

/-- What it hands back: the same, the results' pieces at the specification. -/
def tileTd (d : Dev nD) (L : grid0.Coords) : sProp 𝕄 :=
  iprop((iLoc d ↦[stripSet L]{fullShare} m (iLoc d)) ∗ (tLoc d ↦{tq L} m (tLoc d))
    ∗ (bigSep Finset.univ fun r : Fin 8 => oLoc d ↦[chunkSet L r]{fullShare} rowsAt m d)
    ∗ (pLoc d ↦[stripSet L]{fullShare} posAt (F := F) d))

def coordsV (c : Fin (grid0.bound 0)) (s : Fin (grid0.bound 1)) : grid0.Coords :=
  fun | 0 => c | 1 => s | ⟨_ + 2, h⟩ => absurd h (Nat.not_lt.2 (Nat.le_add_left _ _))

/-- The call hands each SparseCore its sixteen tasks' pieces, each task its own, and takes them back. -/
def P : (K (F := F)).Pay (nD := nD) (Val := Elt F) (Name := ℕ) (U := UU) where
  st := fun q d c => match q with
    | 0 => bigSep Finset.univ fun i : Fin 16 => tileGo m d (coordsV (Fin.cast nCore_zero c) i)
  dn := fun q d c => match q with
    | 0 => bigSep Finset.univ fun i : Fin 16 => tileTd m d (coordsV (Fin.cast nCore_zero c) i)
  go := fun q d c i => match q with
    | 0 => tileGo m d (coordsV (Fin.cast nCore_zero c) (Fin.cast nSub_zero i))
  td := fun q d c i => match q with
    | 0 => tileTd m d (coordsV (Fin.cast nCore_zero c) (Fin.cast nSub_zero i))
  x := fun _ _ => iprop(emp)

instance tileGo_storable (d : Dev nD) (L : grid0.Coords) : BI.Storable (upEmb : UEmb _ 𝕄) (tileGo m d L) := by
  unfold tileGo; infer_instance
instance tileTd_storable (d : Dev nD) (L : grid0.Coords) : BI.Storable (upEmb : UEmb _ 𝕄) (tileTd m d L) := by
  unfold tileTd; infer_instance

instance P_storable : (P (F := F) m).IsStorable where
  st q d c := match q with
    | 0 => by
      haveI : ∀ i : Fin 16, BI.Storable (upEmb : UEmb _ 𝕄) (tileGo m d (coordsV (Fin.cast nCore_zero c) i)) := fun i => tileGo_storable m d _
      exact (inferInstance : BI.Storable (upEmb : UEmb _ 𝕄) (bigSep Finset.univ fun i : Fin 16 => tileGo m d (coordsV (Fin.cast nCore_zero c) i)))
  dn q d c := match q with
    | 0 => by
      haveI : ∀ i : Fin 16, BI.Storable (upEmb : UEmb _ 𝕄) (tileTd m d (coordsV (Fin.cast nCore_zero c) i)) := fun i => tileTd_storable m d _
      exact (inferInstance : BI.Storable (upEmb : UEmb _ 𝕄) (bigSep Finset.univ fun i : Fin 16 => tileTd m d (coordsV (Fin.cast nCore_zero c) i)))
  go q d c i := match q with
    | 0 => (inferInstance : BI.Storable (upEmb : UEmb _ 𝕄) (tileGo m d (coordsV (Fin.cast nCore_zero c) (Fin.cast nSub_zero i))))
  td q d c i := match q with
    | 0 => (inferInstance : BI.Storable (upEmb : UEmb _ 𝕄) (tileTd m d (coordsV (Fin.cast nCore_zero c) (Fin.cast nSub_zero i))))

end Cert.LookupIdeal

end
-- ==== Proof.IdealValue.lean ====
/-
  The two value facts of the lookup kernel's task, as index reasoning over the task's own slices.

  The looked-up chunk. After its fetch the index scratch holds the task's stretch of the index array: entry j is the
  index at (row, col + j). Window r of it, entries [128 r, 128 r + 128), names as rows of the table the indices at
  (row, col + 128 r + k); the gather delivers, at entry (k, e) of its destination, the table at (that row, e); and entry
  (k, e) of chunk r of the task's block of the first result is the result at (row, col + 128 r + k, e), because the chunk's
  printed offsets are the stretch's, moved 128 r along the sequence. Where every index names a row of the table the
  specification's clamp is the identity, so the two agree.

  The positions. Sixty-four stores of sixteen lanes each fill the position scratch; the store at offset c writes, at lane
  l, the stretch's first position plus c plus l. So entry y of the scratch holds the stretch's first position plus y,
  which, the stretch lying inside the sequence, is the position of entry y of the task's stretch of the second result.
-/
import proofs.«206247_g21887153341054_retrytranche2_883_16_alg».proof.Proof.IdealSetup
import Idealize.ShloMosaic.Lib.Pipeline.Value
import Idealize.ShloMosaic.Lib.Writes
import Idealize.ShloMosaic.Lib.ValueIdx

noncomputable section

namespace Cert.LookupIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "tV" => (Memref.whole Cert.KernelIdeal.main_arg1_scv : Memref Cert.KernelIdeal.sig Kind.scVector Space.hbm Cert.KernelIdeal.S1000000x128 EltTy.f32)
local notation "iV" => (Memref.whole Cert.KernelIdeal.main_arg0_scv : Memref Cert.KernelIdeal.sig Kind.scVector Space.hbm Cert.KernelIdeal.S4x8192 EltTy.i32)
local notation "oV" => (Memref.whole Cert.KernelIdeal.main_v0_0_scv : Memref Cert.KernelIdeal.sig Kind.scVector Space.hbm Cert.KernelIdeal.S4x8192x128 EltTy.f32)
local notation "pV" => (Memref.whole Cert.KernelIdeal.main_v0_1_scv : Memref Cert.KernelIdeal.sig Kind.scVector Space.hbm Cert.KernelIdeal.S4x8192 EltTy.i32)
local notation "s0" => (Memref.whole Cert.KernelIdeal.cc0_scratch0 : Memref Cert.KernelIdeal.sig Kind.scVector Space.vmem Cert.KernelIdeal.S1024 EltTy.i32)
local notation "s1" => (Memref.whole Cert.KernelIdeal.cc0_scratch1 : Memref Cert.KernelIdeal.sig Kind.scVector Space.vmem Cert.KernelIdeal.S1024 EltTy.i32)

variable (m : (ℓ : Loc nD τ sig) → Buf (Elt F) ℓ)

/-! ## The looked-up chunk -/

/-- The two printed offset chains agree: the chunk's offsets are the stretch's, 128 r further along the sequence. -/
theorem chunk_off_eq : ∀ L : grid0.Coords, ∀ r : Fin 8, ∀ a : Fin 3,
    k0_off2 L (BitVec.ofNat 32 (128 * r.val)) a = (![k0_off1 L 0, k0_off1 L 1 + 128 * r.val, 0] : Fin 3 → Nat) a := by
  decide +kernel

theorem off1_row_lt (L : grid0.Coords) : k0_off1 L 0 < 4 := by
  have := k0_off1_inb L 0; change k0_off1 L 0 + 1 ≤ 4 at this; omega
theorem off1_col_le (L : grid0.Coords) : k0_off1 L 1 + 1024 ≤ 8192 := k0_off1_inb L 1

/-- The sequence the task works in, and a position of its stretch, as coordinates of the index array. -/
abbrev rowC (L : grid0.Coords) : Fin 4 := ⟨k0_off1 L 0, off1_row_lt L⟩
abbrev colC (L : grid0.Coords) (n : Nat) (h : n < 1024) : Fin 8192 := ⟨k0_off1 L 1 + n, by have := off1_col_le L; omega⟩

theorem idx128_lt (x : S128.Idx) : (x 0).val < 128 := (x 0).isLt
theorem idx128x128_lt0 (y : S128x128.Idx) : (y 0).val < 128 := (y 0).isLt
theorem idx128x128_lt1 (y : S128x128.Idx) : (y 1).val < 128 := (y 1).isLt

/-- The task's stretch of the index array, entry j: the array at (row, col + j). -/
theorem iRow_emb (L : grid0.Coords) (j : S1024.Idx) :
    (iRowK L).view.emb j = (ix2 (rowC L) (colC L (j 0).val (j 0).isLt) : S4x8192.Idx) := by
  funext a
  refine Fin.ext ?_
  show ((strip L).emb (Shape.reshapeEquiv squeezes_S1x1024_S1024.numel_eq j) a : Nat) = _
  rw [Rect.emb_apply, Shape.reshapeEquiv_cons_one]
  match a with
  | ⟨0, _⟩ => show k0_off1 L 0 + 1 * 0 = k0_off1 L 0; omega
  | ⟨1, _⟩ => show k0_off1 L 1 + 1 * (j 0).val = k0_off1 L 1 + (j 0).val; omega

theorem iRow_read (d : Dev nD) (L : grid0.Coords) (j : S1024.Idx) :
    View.read (Elt F) (iRowK L).view (m (iLoc d)) j = idsOf m d (ix2 (rowC L) (colC L (j 0).val (j 0).isLt)) := by
  rw [View.read_apply, iRow_emb]
  exact cast_eq _ _

/-- Window r of the index scratch after the fetch, entry x: the index at (row, col + 128 r + x). -/
theorem s0_window_read (d : Dev nD) (L : grid0.Coords) (r : Fin 8)
    (hk : ∀ a, (![128 * r.val] : Fin 1 → Nat) a + S128.size a ≤ S1024.size a)
    (g : (s0).view.ty.Contents (Elt F)) (x : S128.Idx) :
    View.read (Elt F) ((s0).slice (Rect.unit (s := S1024) ![128 * r.val] S128.size hk) (fun _ => rfl)).view
        (View.write (Elt F) (s0).view g (ReadAs.same.apply (View.read (Elt F) (iRowK L).view (m (iLoc d)))) Finset.univ) x
      = idsOf m d (ix2 (rowC L) (colC L (128 * r.val + (x 0).val) (by have := idx128_lt x; have := r.isLt; omega))) := by
  rw [View.read_apply]
  refine (cast_eq _ _).trans ?_
  rw [ReadAs.apply_same]
  have hw : View.write (Elt F) (s0).view g (View.read (Elt F) (iRowK L).view (m (iLoc d))) Finset.univ
      = View.read (Elt F) (iRowK L).view (m (iLoc d)) :=
    View.write_whole_univ cc0_scratch0 g (View.read (Elt F) (iRowK L).view (m (iLoc d)))
  rw [hw, iRow_read]
  have hc : (((s0).slice (Rect.unit (s := S1024) ![128 * r.val] S128.size hk) (fun _ => rfl)).view.emb x 0).val
      = 128 * r.val + (x 0).val := by
    show 128 * r.val + 1 * (x 0).val = _; omega
  exact congrArg (fun c : Fin 8192 => idsOf m d (ix2 (rowC L) c)) (Fin.ext (congrArg (k0_off1 L 1 + ·) hc))

/-- The chunk's place in the first result: entry y of chunk r is the result at (row, col + 128 r + y₀, y₁). -/
theorem oBlk_emb (L : grid0.Coords) (r : Fin 8) (y : S128x128.Idx) :
    (oBlkK L r).view.emb y
      = (ix3 (rowC L) (⟨k0_off1 L 1 + 128 * r.val + (y 0).val, by
            have := off1_col_le L; have := r.isLt; have := idx128x128_lt0 y; omega⟩ : Fin 8192)
          (⟨(y 1).val, idx128x128_lt1 y⟩ : Fin 128) : S4x8192x128.Idx) := by
  funext a
  refine Fin.ext ?_
  show ((chunk L r).emb (Shape.reshapeEquiv squeezes_S1x128x128_S128x128.numel_eq y) a : Nat) = _
  rw [Rect.emb_apply, Shape.reshapeEquiv_cons_one]
  match a with
  | ⟨0, _⟩ =>
    show k0_off2 L (BitVec.ofNat 32 (128 * r.val)) 0 + 1 * 0 = k0_off1 L 0
    rw [chunk_off_eq L r 0]; show k0_off1 L 0 + 1 * 0 = _; omega
  | ⟨1, _⟩ =>
    show k0_off2 L (BitVec.ofNat 32 (128 * r.val)) 1 + 1 * (y 0).val = k0_off1 L 1 + 128 * r.val + (y 0).val
    rw [chunk_off_eq L r 1]; show k0_off1 L 1 + 128 * r.val + 1 * (y 0).val = _; omega
  | ⟨2, _⟩ =>
    show k0_off2 L (BitVec.ofNat 32 (128 * r.val)) 2 + 1 * (y 1).val = (y 1).val
    rw [chunk_off_eq L r 2]; show 0 + 1 * (y 1).val = _; omega

/-- The table read through the task's whole-array slice is the table. -/
theorem tV_emb (x : S1000000x128.Idx) :
    ((tV).slice (Rect.unit (s := S1000000x128) ![0, 0] S1000000x128.size inb_S1000000x128_S1000000x128_0_0) (fun _ => rfl)).view.emb x = x := by
  funext a
  refine Fin.ext ?_
  match a with
  | ⟨0, _⟩ => show 0 + 1 * (x 0).val = (x 0).val; omega
  | ⟨1, _⟩ => show 0 + 1 * (x 1).val = (x 1).val; omega

/-- A rank-one index read back from its row-major position is that position. -/
theorem rowMajor_symm_one (k : Fin S128.numel) : ((S128.rowMajor.symm k) 0).val = k.val := by
  have := Shape.rowMajor_val_one (d := ![128]) (S128.rowMajor.symm k)
  rw [Equiv.apply_symm_apply] at this
  exact this.symm

/-- The gather's source index for entry y of the destination: the row the list names for y₀, the column y₁. -/
theorem gathers_idx_eq (idxf : S128.Idx → Elt F .i32) (hn : S128.numel = S128x128.size gathers_S1000000x128_S128x128.axis')
    (hin : ∀ x, (idxf x).toNat < S1000000x128.size gathers_S1000000x128_S128x128.axis) (y : S128x128.Idx) :
    gathers_S1000000x128_S128x128.idx (SparseCore.rows idxf hn hin) y
      = (ix2 (⟨(idxf (ix1 ⟨(y 0).val, idx128x128_lt0 y⟩)).toNat, hin _⟩ : Fin 1000000)
          (⟨(y 1).val, idx128x128_lt1 y⟩ : Fin 128) : S1000000x128.Idx) := by
  funext a
  refine Fin.ext ?_
  match a with
  | ⟨0, _⟩ =>
    refine (congrArg Fin.val (Shape.Gathers.idx_axis gathers_S1000000x128_S128x128 (SparseCore.rows idxf hn hin) y)).trans ?_
    show (idxf (S128.rowMajor.symm _)).toNat = (idxf (ix1 _)).toNat
    refine congrArg (fun q : S128.Idx => (idxf q).toNat) ?_
    funext b
    refine Fin.ext ?_
    match b with
    | ⟨0, _⟩ => exact rowMajor_symm_one _
  | ⟨1, _⟩ =>
    exact Shape.Gathers.idx_of_ne gathers_S1000000x128_S128x128 (SparseCore.rows idxf hn hin) y ⟨1, by decide⟩ (by decide)

/-- THE LOOKED-UP CHUNK: what the gather of window r of the fetched indices delivers, at entry y, is the
    specification's first result at the entry's place in the task's chunk r. -/
theorem chunk_value (hok : PreOK m) (d : Dev nD) (L : grid0.Coords) (r : Fin 8)
    (hk : ∀ a, (![128 * r.val] : Fin 1 → Nat) a + S128.size a ≤ S1024.size a)
    (g : (s0).view.ty.Contents (Elt F))
    (hn : S128.numel = S128x128.size gathers_S1000000x128_S128x128.axis')
    (hin : ∀ x, (View.read (Elt F) ((s0).slice (Rect.unit (s := S1024) ![128 * r.val] S128.size hk) (fun _ => rfl)).view
        (View.write (Elt F) (s0).view g (ReadAs.same.apply (View.read (Elt F) (iRowK L).view (m (iLoc d)))) Finset.univ) x).toNat
          < S1000000x128.size gathers_S1000000x128_S128x128.axis)
    (y : S128x128.Idx) :
    SparseCore.gatherPayload gathers_S1000000x128_S128x128
        (View.read (Elt F) ((tV).slice (Rect.unit (s := S1000000x128) ![0, 0] S1000000x128.size inb_S1000000x128_S1000000x128_0_0) (fun _ => rfl)).view (m (tLoc d)))
        (SparseCore.rows (View.read (Elt F) ((s0).slice (Rect.unit (s := S1024) ![128 * r.val] S128.size hk) (fun _ => rfl)).view
          (View.write (Elt F) (s0).view g (ReadAs.same.apply (View.read (Elt F) (iRowK L).view (m (iLoc d)))) Finset.univ)) hn hin) y
      = rowsAt m d ((oBlkK L r).view.emb y) := by
  unfold SparseCore.gatherPayload
  rw [View.read_apply]
  refine (cast_eq _ _).trans ?_
  rw [oBlk_emb, tV_emb, gathers_idx_eq]
  unfold rowsAt Cert.Lookup.rows
  refine congrArg (fun q : Fin 1000000 => m (tLoc d) (ix2 q (⟨(y 1).val, idx128x128_lt1 y⟩ : Fin 128))) (Fin.ext ?_)
  show (View.read (Elt F) ((s0).slice (Rect.unit (s := S1024) ![128 * r.val] S128.size hk) (fun _ => rfl)).view
        (View.write (Elt F) (s0).view g (ReadAs.same.apply (View.read (Elt F) (iRowK L).view (m (iLoc d)))) Finset.univ)
        (ix1 ⟨(y 0).val, idx128x128_lt0 y⟩)).toNat = (Cert.Lookup.rowOf (idsOf m d (ix2 (rowC L) _))).val
  rw [s0_window_read, Cert.Lookup.rowOf_val (hok d _)]
  exact congrArg (fun c : Fin 8192 => (idsOf m d (ix2 (rowC L) c)).toNat) (Fin.ext (by show k0_off1 L 1 + (128 * r.val + (y 0).val) = k0_off1 L 1 + 128 * r.val + (y 0).val; omega))

/-! ## The positions -/

/-- The payload of one 16-lane store: the lane number plus the stretch's first position plus the store's offset. -/
def payAt (v29 c : BitVec 32) : IVec S16 32 :=
  shapeCast S16 (addi (iota .scVector S16 32 [0] iota_S16_d0_w32_scVector) (broadcast S16 (Scalar.addi v29 c))) shapeCasts_S16_S16

theorem payAt_apply (v29 c : BitVec 32) (x : S16.Idx) : payAt v29 c x = v29 + c + BitVec.ofNat 32 (x 0).val := by
  unfold payAt
  rw [shapeCast_self]
  show IntOp.addi (iota .scVector S16 32 [0] iota_S16_d0_w32_scVector x) (Scalar.addi v29 c) = _
  rw [iota_single_apply]
  show BitVec.ofNat 32 (x 0).val + (v29 + c) = _
  exact BitVec.add_comm _ _

/-- The sixty-four stores of the positions, the last first. -/
def posPieces (v29 : BitVec 32) : List (View.Piece (Elt F) S1024 .i32) :=
  [ ⟨Rect.unit (s := S1024) ![1008] S16.size inb_S1024_S16_1008, payAt v29 1008#32⟩,
    ⟨Rect.unit (s := S1024) ![992] S16.size inb_S1024_S16_992, payAt v29 992#32⟩,
    ⟨Rect.unit (s := S1024) ![976] S16.size inb_S1024_S16_976, payAt v29 976#32⟩,
    ⟨Rect.unit (s := S1024) ![960] S16.size inb_S1024_S16_960, payAt v29 960#32⟩,
    ⟨Rect.unit (s := S1024) ![944] S16.size inb_S1024_S16_944, payAt v29 944#32⟩,
    ⟨Rect.unit (s := S1024) ![928] S16.size inb_S1024_S16_928, payAt v29 928#32⟩,
    ⟨Rect.unit (s := S1024) ![912] S16.size inb_S1024_S16_912, payAt v29 912#32⟩,
    ⟨Rect.unit (s := S1024) ![896] S16.size inb_S1024_S16_896, payAt v29 896#32⟩,
    ⟨Rect.unit (s := S1024) ![880] S16.size inb_S1024_S16_880, payAt v29 880#32⟩,
    ⟨Rect.unit (s := S1024) ![864] S16.size inb_S1024_S16_864, payAt v29 864#32⟩,
    ⟨Rect.unit (s := S1024) ![848] S16.size inb_S1024_S16_848, payAt v29 848#32⟩,
    ⟨Rect.unit (s := S1024) ![832] S16.size inb_S1024_S16_832, payAt v29 832#32⟩,
    ⟨Rect.unit (s := S1024) ![816] S16.size inb_S1024_S16_816, payAt v29 816#32⟩,
    ⟨Rect.unit (s := S1024) ![800] S16.size inb_S1024_S16_800, payAt v29 800#32⟩,
    ⟨Rect.unit (s := S1024) ![784] S16.size inb_S1024_S16_784, payAt v29 784#32⟩,
    ⟨Rect.unit (s := S1024) ![768] S16.size inb_S1024_S16_768, payAt v29 768#32⟩,
    ⟨Rect.unit (s := S1024) ![752] S16.size inb_S1024_S16_752, payAt v29 752#32⟩,
    ⟨Rect.unit (s := S1024) ![736] S16.size inb_S1024_S16_736, payAt v29 736#32⟩,
    ⟨Rect.unit (s := S1024) ![720] S16.size inb_S1024_S16_720, payAt v29 720#32⟩,
    ⟨Rect.unit (s := S1024) ![704] S16.size inb_S1024_S16_704, payAt v29 704#32⟩,
    ⟨Rect.unit (s := S1024) ![688] S16.size inb_S1024_S16_688, payAt v29 688#32⟩,
    ⟨Rect.unit (s := S1024) ![672] S16.size inb_S1024_S16_672, payAt v29 672#32⟩,
    ⟨Rect.unit (s := S1024) ![656] S16.size inb_S1024_S16_656, payAt v29 656#32⟩,
    ⟨Rect.unit (s := S1024) ![640] S16.size inb_S1024_S16_640, payAt v29 640#32⟩,
    ⟨Rect.unit (s := S1024) ![624] S16.size inb_S1024_S16_624, payAt v29 624#32⟩,
    ⟨Rect.unit (s := S1024) ![608] S16.size inb_S1024_S16_608, payAt v29 608#32⟩,
    ⟨Rect.unit (s := S1024) ![592] S16.size inb_S1024_S16_592, payAt v29 592#32⟩,
    ⟨Rect.unit (s := S1024) ![576] S16.size inb_S1024_S16_576, payAt v29 576#32⟩,
    ⟨Rect.unit (s := S1024) ![560] S16.size inb_S1024_S16_560, payAt v29 560#32⟩,
    ⟨Rect.unit (s := S1024) ![544] S16.size inb_S1024_S16_544, payAt v29 544#32⟩,
    ⟨Rect.unit (s := S1024) ![528] S16.size inb_S1024_S16_528, payAt v29 528#32⟩,
    ⟨Rect.unit (s := S1024) ![512] S16.size inb_S1024_S16_512, payAt v29 512#32⟩,
    ⟨Rect.unit (s := S1024) ![496] S16.size inb_S1024_S16_496, payAt v29 496#32⟩,
    ⟨Rect.unit (s := S1024) ![480] S16.size inb_S1024_S16_480, payAt v29 480#32⟩,
    ⟨Rect.unit (s := S1024) ![464] S16.size inb_S1024_S16_464, payAt v29 464#32⟩,
    ⟨Rect.unit (s := S1024) ![448] S16.size inb_S1024_S16_448, payAt v29 448#32⟩,
    ⟨Rect.unit (s := S1024) ![432] S16.size inb_S1024_S16_432, payAt v29 432#32⟩,
    ⟨Rect.unit (s := S1024) ![416] S16.size inb_S1024_S16_416, payAt v29 416#32⟩,
    ⟨Rect.unit (s := S1024) ![400] S16.size inb_S1024_S16_400, payAt v29 400#32⟩,
    ⟨Rect.unit (s := S1024) ![384] S16.size inb_S1024_S16_384, payAt v29 384#32⟩,
    ⟨Rect.unit (s := S1024) ![368] S16.size inb_S1024_S16_368, payAt v29 368#32⟩,
    ⟨Rect.unit (s := S1024) ![352] S16.size inb_S1024_S16_352, payAt v29 352#32⟩,
    ⟨Rect.unit (s := S1024) ![336] S16.size inb_S1024_S16_336, payAt v29 336#32⟩,
    ⟨Rect.unit (s := S1024) ![320] S16.size inb_S1024_S16_320, payAt v29 320#32⟩,
    ⟨Rect.unit (s := S1024) ![304] S16.size inb_S1024_S16_304, payAt v29 304#32⟩,
    ⟨Rect.unit (s := S1024) ![288] S16.size inb_S1024_S16_288, payAt v29 288#32⟩,
    ⟨Rect.unit (s := S1024) ![272] S16.size inb_S1024_S16_272, payAt v29 272#32⟩,
    ⟨Rect.unit (s := S1024) ![256] S16.size inb_S1024_S16_256, payAt v29 256#32⟩,
    ⟨Rect.unit (s := S1024) ![240] S16.size inb_S1024_S16_240, payAt v29 240#32⟩,
    ⟨Rect.unit (s := S1024) ![224] S16.size inb_S1024_S16_224, payAt v29 224#32⟩,
    ⟨Rect.unit (s := S1024) ![208] S16.size inb_S1024_S16_208, payAt v29 208#32⟩,
    ⟨Rect.unit (s := S1024) ![192] S16.size inb_S1024_S16_192, payAt v29 192#32⟩,
    ⟨Rect.unit (s := S1024) ![176] S16.size inb_S1024_S16_176, payAt v29 176#32⟩,
    ⟨Rect.unit (s := S1024) ![160] S16.size inb_S1024_S16_160, payAt v29 160#32⟩,
    ⟨Rect.unit (s := S1024) ![144] S16.size inb_S1024_S16_144, payAt v29 144#32⟩,
    ⟨Rect.unit (s := S1024) ![128] S16.size inb_S1024_S16_128, payAt v29 128#32⟩,
    ⟨Rect.unit (s := S1024) ![112] S16.size inb_S1024_S16_112, payAt v29 112#32⟩,
    ⟨Rect.unit (s := S1024) ![96] S16.size inb_S1024_S16_96, payAt v29 96#32⟩,
    ⟨Rect.unit (s := S1024) ![80] S16.size inb_S1024_S16_80, payAt v29 80#32⟩,
    ⟨Rect.unit (s := S1024) ![64] S16.size inb_S1024_S16_64, payAt v29 64#32⟩,
    ⟨Rect.unit (s := S1024) ![48] S16.size inb_S1024_S16_48, payAt v29 48#32⟩,
    ⟨Rect.unit (s := S1024) ![32] S16.size inb_S1024_S16_32, payAt v29 32#32⟩,
    ⟨Rect.unit (s := S1024) ![16] S16.size inb_S1024_S16_16, payAt v29 16#32⟩,
    ⟨Rect.unit (s := S1024) ![0] S16.size inb_S1024_S16_0, payAt v29 0#32⟩ ]

/-- The positions of the stretch as one function of the scratch's index. -/
def posG (v29 : BitVec 32) : S1024.Idx → BitVec 32 := fun y => v29 + BitVec.ofNat 32 (y 0).val

theorem piece_agrees (v29 c : BitVec 32) (n : Nat) (hc : c = BitVec.ofNat 32 n)
    (inb : ∀ a, (![n] : Fin 1 → Nat) a + S16.size a ≤ S1024.size a) (x : S16.Idx) :
    payAt v29 c x = posG v29 ((Rect.unit (s := S1024) ![n] S16.size inb).emb x) := by
  rw [payAt_apply]
  unfold posG
  have he : (((Rect.unit (s := S1024) ![n] S16.size inb).emb x) 0).val = n + (x 0).val := by
    show n + 1 * (x 0).val = _; omega
  rw [he, hc, BitVec.add_assoc, BitVec.ofNat_add]

theorem pieces_agree (v29 : BitVec 32) :
    ∀ p ∈ posPieces (F := F) v29, ∀ x : p.1.shape.Idx, p.2 x = posG v29 (p.1.emb x) := by
  simp only [posPieces, List.forall_mem_cons, List.not_mem_nil, false_imp_iff, implies_true, and_true]
  repeat' apply And.intro
  all_goals exact fun x => piece_agrees _ _ _ rfl _ x

theorem mem_piece (c : Nat) (inb : ∀ a, (![c] : Fin 1 → Nat) a + S16.size a ≤ S1024.size a) (y : S1024.Idx)
    (h1 : c ≤ (y 0).val) (h2 : (y 0).val < c + 16) : y ∈ (Rect.unit (s := S1024) ![c] S16.size inb).set :=
  Rect.mem_set_unit.mpr (fun a => by obtain rfl : a = 0 := Subsingleton.elim _ _; exact ⟨h1, h2⟩)

/-- Every entry of the scratch lies in one of the sixty-four stores: the one of its block of 16. -/
theorem pieces_cover (v29 : BitVec 32) (y : S1024.Idx) : ∃ p ∈ posPieces (F := F) v29, y ∈ p.1.set := by
  have hy : (y 0).val < 1024 := (y 0).isLt
  have hlt : (y 0).val / 16 < 64 := by omega
  generalize hq : (y 0).val / 16 = q at hlt
  interval_cases q
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))))))))))))), mem_piece 0 inb_S1024_S16_0 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))))))))))))), mem_piece 16 inb_S1024_S16_16 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))))))))))), mem_piece 32 inb_S1024_S16_32 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))))))))))), mem_piece 48 inb_S1024_S16_48 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))))))))), mem_piece 64 inb_S1024_S16_64 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))))))))), mem_piece 80 inb_S1024_S16_80 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))))))), mem_piece 96 inb_S1024_S16_96 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))))))), mem_piece 112 inb_S1024_S16_112 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))))), mem_piece 128 inb_S1024_S16_128 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))))), mem_piece 144 inb_S1024_S16_144 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))), mem_piece 160 inb_S1024_S16_160 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))), mem_piece 176 inb_S1024_S16_176 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))), mem_piece 192 inb_S1024_S16_192 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))), mem_piece 208 inb_S1024_S16_208 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))), mem_piece 224 inb_S1024_S16_224 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))), mem_piece 240 inb_S1024_S16_240 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))), mem_piece 256 inb_S1024_S16_256 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))), mem_piece 272 inb_S1024_S16_272 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))), mem_piece 288 inb_S1024_S16_288 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))), mem_piece 304 inb_S1024_S16_304 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))), mem_piece 320 inb_S1024_S16_320 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))), mem_piece 336 inb_S1024_S16_336 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))), mem_piece 352 inb_S1024_S16_352 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))), mem_piece 368 inb_S1024_S16_368 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))), mem_piece 384 inb_S1024_S16_384 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))), mem_piece 400 inb_S1024_S16_400 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))), mem_piece 416 inb_S1024_S16_416 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))), mem_piece 432 inb_S1024_S16_432 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))), mem_piece 448 inb_S1024_S16_448 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))), mem_piece 464 inb_S1024_S16_464 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))), mem_piece 480 inb_S1024_S16_480 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))), mem_piece 496 inb_S1024_S16_496 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))), mem_piece 512 inb_S1024_S16_512 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))), mem_piece 528 inb_S1024_S16_528 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))), mem_piece 544 inb_S1024_S16_544 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))), mem_piece 560 inb_S1024_S16_560 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))), mem_piece 576 inb_S1024_S16_576 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))), mem_piece 592 inb_S1024_S16_592 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))), mem_piece 608 inb_S1024_S16_608 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))), mem_piece 624 inb_S1024_S16_624 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))), mem_piece 640 inb_S1024_S16_640 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))), mem_piece 656 inb_S1024_S16_656 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))), mem_piece 672 inb_S1024_S16_672 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))), mem_piece 688 inb_S1024_S16_688 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))), mem_piece 704 inb_S1024_S16_704 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))), mem_piece 720 inb_S1024_S16_720 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))), mem_piece 736 inb_S1024_S16_736 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))), mem_piece 752 inb_S1024_S16_752 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), mem_piece 768 inb_S1024_S16_768 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_piece 784 inb_S1024_S16_784 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_piece 800 inb_S1024_S16_800 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_piece 816 inb_S1024_S16_816 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_piece 832 inb_S1024_S16_832 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_piece 848 inb_S1024_S16_848 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_piece 864 inb_S1024_S16_864 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_piece 880 inb_S1024_S16_880 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_piece 896 inb_S1024_S16_896 y (by omega) (by omega)⟩
  · exact ⟨_, (List.mem_cons_of_mem _ (List.mem_cons_of_mem _ (List.mem_cons_of_mem _ (List.mem_cons_of_mem _ (List.mem_cons_of_mem _ (List.mem_cons_of_mem _ List.mem_cons_self)))))), mem_piece 912 inb_S1024_S16_912 y (by omega) (by omega)⟩
  · exact ⟨_, (List.mem_cons_of_mem _ (List.mem_cons_of_mem _ (List.mem_cons_of_mem _ (List.mem_cons_of_mem _ (List.mem_cons_of_mem _ List.mem_cons_self))))), mem_piece 928 inb_S1024_S16_928 y (by omega) (by omega)⟩
  · exact ⟨_, (List.mem_cons_of_mem _ (List.mem_cons_of_mem _ (List.mem_cons_of_mem _ (List.mem_cons_of_mem _ List.mem_cons_self)))), mem_piece 944 inb_S1024_S16_944 y (by omega) (by omega)⟩
  · exact ⟨_, (List.mem_cons_of_mem _ (List.mem_cons_of_mem _ (List.mem_cons_of_mem _ List.mem_cons_self))), mem_piece 960 inb_S1024_S16_960 y (by omega) (by omega)⟩
  · exact ⟨_, (List.mem_cons_of_mem _ (List.mem_cons_of_mem _ List.mem_cons_self)), mem_piece 976 inb_S1024_S16_976 y (by omega) (by omega)⟩
  · exact ⟨_, (List.mem_cons_of_mem _ List.mem_cons_self), mem_piece 992 inb_S1024_S16_992 y (by omega) (by omega)⟩
  · exact ⟨_, List.mem_cons_self, mem_piece 1008 inb_S1024_S16_1008 y (by omega) (by omega)⟩

/-- The task's stretch of the positions, entry j: the array at (row, col + j). -/
theorem pRow_emb (L : grid0.Coords) (j : S1024.Idx) :
    (pRowK L).view.emb j = (ix2 (rowC L) (colC L (j 0).val (j 0).isLt) : S4x8192.Idx) := by
  funext a
  refine Fin.ext ?_
  show ((strip L).emb (Shape.reshapeEquiv squeezes_S1x1024_S1024.numel_eq j) a : Nat) = _
  rw [Rect.emb_apply, Shape.reshapeEquiv_cons_one]
  match a with
  | ⟨0, _⟩ => show k0_off1 L 0 + 1 * 0 = k0_off1 L 0; omega
  | ⟨1, _⟩ => show k0_off1 L 1 + 1 * (j 0).val = k0_off1 L 1 + (j 0).val; omega

/-- THE POSITIONS: after the sixty-four stores the position scratch reads, at every entry, the specification's
    second result at the entry's place in the task's stretch. -/
theorem pos_value (d : Dev nD) (L : grid0.Coords) (v29 : BitVec 32) (hv : v29.toNat = k0_off1 L 1)
    (f1 : (s1).view.ty.Contents (Elt F)) (y : S1024.Idx) :
    View.read (Elt F) (s1).view ((s1).view.writes (Elt F) f1 (posPieces v29)) y = posAt (F := F) d ((pRowK L).view.emb y) := by
  rw [View.read_writes_apply_of_pieces (s1).view f1 (posG v29) (posPieces v29) (pieces_agree v29) y (pieces_cover v29 y), pRow_emb]
  show v29 + BitVec.ofNat 32 (y 0).val = BitVec.ofNat 32 (k0_off1 L 1 + (y 0).val)
  rw [← hv, BitVec.ofNat_add, BitVec.ofNat_toNat, BitVec.setWidth_eq]

end Cert.LookupIdeal

end
-- ==== Proof.IdealTile.lean ====
/-
  One task of the lookup kernel, on vector subcore (L 0, L 1).
-/
import proofs.«206247_g21887153341054_retrytranche2_883_16_alg».proof.Proof.IdealValue

noncomputable section

namespace Cert.LookupIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S1000000x128 EltTy.f32)
local notation "iV" => (Memref.whole Cert.KernelIdeal.main_arg0_scv : Memref Cert.KernelIdeal.sig Kind.scVector Space.hbm Cert.KernelIdeal.S4x8192 EltTy.i32)
local notation "oV" => (Memref.whole Cert.KernelIdeal.main_v0_0_scv : Memref Cert.KernelIdeal.sig Kind.scVector Space.hbm Cert.KernelIdeal.S4x8192x128 EltTy.f32)
local notation "pV" => (Memref.whole Cert.KernelIdeal.main_v0_1_scv : Memref Cert.KernelIdeal.sig Kind.scVector Space.hbm Cert.KernelIdeal.S4x8192 EltTy.i32)
local notation "s0" => (Memref.whole Cert.KernelIdeal.cc0_scratch0 : Memref Cert.KernelIdeal.sig Kind.scVector Space.vmem Cert.KernelIdeal.S1024 EltTy.i32)
local notation "s1" => (Memref.whole Cert.KernelIdeal.cc0_scratch1 : Memref Cert.KernelIdeal.sig Kind.scVector Space.vmem Cert.KernelIdeal.S1024 EltTy.i32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)
local notation "b4" => (Memref.whole Cert.KernelIdeal.cc0_scratch6 : Memref Cert.KernelIdeal.sig Kind.scVector Space.vmem Cert.KernelIdeal.S128x128 EltTy.f32)
local notation "b5" => (Memref.whole Cert.KernelIdeal.cc0_scratch7 : Memref Cert.KernelIdeal.sig Kind.scVector Space.vmem Cert.KernelIdeal.S128x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

abbrev cellOf (a : DmaSem sig) : GSem nD τ sig := (V d (cV L) (jV L), SemLoc.dma a)

omit [FloatOps F] in
theorem cell_ne {a b : DmaSem sig} (h : a ≠ b) : cellOf d L a ≠ cellOf d L b :=
  fun e => h (SemLoc.dma.inj (Prod.mk.inj e).2)

omit [FloatOps F] in
/-- The subcore's own semaphores at zero: the fourteen the task names, and the rest. -/
theorem ownSems0_V :
    (ownSems0 (V d (cV L) (jV L)) : sProp 𝕄)
      = iprop(semVal (cellOf d L cc0_scratch8.sem) 0 ∗ semVal (cellOf d L cc0_scratch9.sem) 0 ∗ semVal (cellOf d L cc0_scratch10.sem) 0 ∗ semVal (cellOf d L cc0_scratch11.sem) 0 ∗ semVal (cellOf d L cc0_scratch12.sem) 0 ∗ semVal (cellOf d L cc0_scratch13.sem) 0 ∗ semVal (cellOf d L cc0_scratch14.sem) 0 ∗ semVal (cellOf d L cc0_scratch15.sem) 0 ∗ semVal (cellOf d L cc0_scratch16.sem) 0 ∗ semVal (cellOf d L cc0_scratch17.sem) 0 ∗ semVal (cellOf d L cc0_scratch18.sem) 0 ∗ semVal (cellOf d L cc0_scratch19.sem) 0 ∗ semVal (cellOf d L cc0_scratch20.sem) 0 ∗ semVal (cellOf d L cc0_scoped0.sem) 0
          ∗ bigSep (((((((((((((((ownCells (V d (cV L) (jV L))).erase (cellOf d L cc0_scratch8.sem)).erase (cellOf d L cc0_scratch9.sem)).erase (cellOf d L cc0_scratch10.sem)).erase (cellOf d L cc0_scratch11.sem)).erase (cellOf d L cc0_scratch12.sem)).erase (cellOf d L cc0_scratch13.sem)).erase (cellOf d L cc0_scratch14.sem)).erase (cellOf d L cc0_scratch15.sem)).erase (cellOf d L cc0_scratch16.sem)).erase (cellOf d L cc0_scratch17.sem)).erase (cellOf d L cc0_scratch18.sem)).erase (cellOf d L cc0_scratch19.sem)).erase (cellOf d L cc0_scratch20.sem)).erase (cellOf d L cc0_scoped0.sem)) fun g => semVal g 0) := by
  unfold SparseCore.Cfg.ownSems0
  rw [SparseCore.bigSep_erase' ((mem_ownCells (g := cellOf d L cc0_scratch8.sem)).mpr ⟨rfl, by show (SemLoc.dma cc0_scratch8.sem : SemLoc sig).isScoped .scVector = true; decide⟩),
    SparseCore.bigSep_erase' (Finset.mem_erase.mpr ⟨cell_ne d L (by decide), (mem_ownCells (g := cellOf d L cc0_scratch9.sem)).mpr ⟨rfl, by show (SemLoc.dma cc0_scratch9.sem : SemLoc sig).isScoped .scVector = true; decide⟩⟩),
    SparseCore.bigSep_erase' (Finset.mem_erase.mpr ⟨cell_ne d L (by decide), Finset.mem_erase.mpr ⟨cell_ne d L (by decide), (mem_ownCells (g := cellOf d L cc0_scratch10.sem)).mpr ⟨rfl, by show (SemLoc.dma cc0_scratch10.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cellOf d L cc0_scratch11.sem)).mpr ⟨rfl, by show (SemLoc.dma cc0_scratch11.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch12.sem)).mpr ⟨rfl, by show (SemLoc.dma cc0_scratch12.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch13.sem)).mpr ⟨rfl, by show (SemLoc.dma cc0_scratch13.sem : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch14.sem)).mpr ⟨rfl, by show (SemLoc.dma cc0_scratch14.sem : SemLoc sig).isScoped .scVector = true; decide⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch15.sem)).mpr ⟨rfl, by show (SemLoc.dma cc0_scratch15.sem : SemLoc sig).isScoped .scVector = true; decide⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch16.sem)).mpr ⟨rfl, by show (SemLoc.dma cc0_scratch16.sem : SemLoc sig).isScoped .scVector = true; decide⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch17.sem)).mpr ⟨rfl, by show (SemLoc.dma cc0_scratch17.sem : SemLoc sig).isScoped .scVector = true; decide⟩⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch18.sem)).mpr ⟨rfl, by show (SemLoc.dma cc0_scratch18.sem : SemLoc sig).isScoped .scVector = true; decide⟩⟩⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch19.sem)).mpr ⟨rfl, by show (SemLoc.dma cc0_scratch19.sem : SemLoc sig).isScoped .scVector = true; decide⟩⟩⟩⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch20.sem)).mpr ⟨rfl, by show (SemLoc.dma cc0_scratch20.sem : SemLoc sig).isScoped .scVector = true; decide⟩⟩⟩⟩⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scoped0.sem)).mpr ⟨rfl, by show (SemLoc.dma cc0_scoped0.sem : SemLoc sig).isScoped .scVector = true; decide⟩⟩⟩⟩⟩⟩⟩⟩⟩⟩⟩⟩⟩⟩)]

omit [FloatOps F] in
/-- The subcore's own buffers: the task's eight scratch buffers, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f)
          ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7))
              fun b => iprop(∃ f, ((d, b) : Loc nD τ sig) ↦{fullShare} f)) := by
  unfold SparseCore.Cfg.ownBufs
  rw [SparseCore.bigSep_erase' (SparseCore.Cfg.mem_ownRefs_of_owner (p := (Proc.scVector (cV L) (jV L))) (b := (Proc.scVector (cV L) (jV L)).devRef cc0_scratch0) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := (Proc.scVector (cV L) (jV L))) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := (Proc.scVector (cV L) (jV L))) (b := (Proc.scVector (cV L) (jV L)).devRef cc0_scratch7) rfl⟩⟩⟩⟩⟩⟩⟩)]

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
omit [FloatOps F] in
theorem bigSep_fin6 (Φ : Fin 6 → sProp 𝕄) :
    bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide),
    SparseCore.bigSep_insert' (by decide), SparseCore.bigSep_insert' (by decide), SparseCore.bigSep_insert' (by decide),
    SparseCore.bigSep_insert' (by decide), bigSep_singleton]

abbrev oB0 (L : grid0.Coords) : Memref sig .scVector .hbm S128x128 .f32 :=
  ((oV).slice (Rect.unit (s := S4x8192x128) (k0_off2 L 0#32) S1x128x128.size (k0_off2_inb L 0)) (fun _ => rfl)).squeeze S128x128 squeezes_S1x128x128_S128x128
abbrev oB1 (L : grid0.Coords) : Memref sig .scVector .hbm S128x128 .f32 :=
  ((oV).slice (Rect.unit (s := S4x8192x128) (k0_off2 L 128#32) S1x128x128.size (k0_off2_inb L 1)) (fun _ => rfl)).squeeze S128x128 squeezes_S1x128x128_S128x128
abbrev oB2 (L : grid0.Coords) : Memref sig .scVector .hbm S128x128 .f32 :=
  ((oV).slice (Rect.unit (s := S4x8192x128) (k0_off2 L 256#32) S1x128x128.size (k0_off2_inb L 2)) (fun _ => rfl)).squeeze S128x128 squeezes_S1x128x128_S128x128
abbrev oB3 (L : grid0.Coords) : Memref sig .scVector .hbm S128x128 .f32 :=
  ((oV).slice (Rect.unit (s := S4x8192x128) (k0_off2 L 384#32) S1x128x128.size (k0_off2_inb L 3)) (fun _ => rfl)).squeeze S128x128 squeezes_S1x128x128_S128x128
abbrev oB4 (L : grid0.Coords) : Memref sig .scVector .hbm S128x128 .f32 :=
  ((oV).slice (Rect.unit (s := S4x8192x128) (k0_off2 L 512#32) S1x128x128.size (k0_off2_inb L 4)) (fun _ => rfl)).squeeze S128x128 squeezes_S1x128x128_S128x128
abbrev oB5 (L : grid0.Coords) : Memref sig .scVector .hbm S128x128 .f32 :=
  ((oV).slice (Rect.unit (s := S4x8192x128) (k0_off2 L 640#32) S1x128x128.size (k0_off2_inb L 5)) (fun _ => rfl)).squeeze S128x128 squeezes_S1x128x128_S128x128
abbrev oB6 (L : grid0.Coords) : Memref sig .scVector .hbm S128x128 .f32 :=
  ((oV).slice (Rect.unit (s := S4x8192x128) (k0_off2 L 768#32) S1x128x128.size (k0_off2_inb L 6)) (fun _ => rfl)).squeeze S128x128 squeezes_S1x128x128_S128x128
abbrev oB7 (L : grid0.Coords) : Memref sig .scVector .hbm S128x128 .f32 :=
  ((oV).slice (Rect.unit (s := S4x8192x128) (k0_off2 L 896#32) S1x128x128.size (k0_off2_inb L 7)) (fun _ => rfl)).squeeze S128x128 squeezes_S1x128x128_S128x128

/-- The looked-up row numbers are rows of the table: the index scratch holds, after its fetch, the task's stretch of the
    index array, and every index is below the table's row count. -/
theorem inb_of_ok (hok : PreOK m) (g : Buf (Elt F) ((V d (cV L) (jV L)).loc cc0_scratch0)) (pay : S1024.Idx → Elt F .i32)
    (hpay : pay = (iRowK L).view.read (Elt F) (m (iLoc d))) (r : Rect S1024) (hr : ∀ a, r.stride a = 1) :
    ∀ x, (((s0).slice r hr).view.read (Elt F) (View.write (Elt F) (s0).view g pay Finset.univ) x).toNat
      < S1000000x128.size gathers_S1000000x128_S128x128.axis := by
  subst hpay; intro x
  rw [View.write_whole_univ]
  have h1 : ∀ y, (iRowK L).view.read (Elt F) (m (iLoc d)) y = m (iLoc d) ((iRowK L).view.emb y) :=
    fun y => (View.read_apply _ _).trans (cast_eq _ _)
  rw [(View.read_apply _ _).trans (cast_eq _ _), h1]
  exact hok d _

omit [FloatOps F] in
/-- After a list of writes whose last covers the whole shape, a read gives that last payload. -/
theorem read_head {sig' : RefSig} {κ : Kind} {sp : Space} {s : Shape} {e : EltTy} (v : View sig' κ sp s e) (f : v.ty.Contents (Elt F))
    (G : (Rect.whole s).shape.Idx → Elt F e) (rest : List (View.Piece (Elt F) s e)) (y : s.Idx) :
    v.read (Elt F) (v.writes (Elt F) f (⟨Rect.whole s, G⟩ :: rest)) y = G y := by
  have h := View.read_writes_cons_emb v f (Rect.whole s) G rest y
  rwa [Rect.emb_whole_apply] at h

/-- A chunk of the first result written whole with a payload that is the specification there is held at the specification. -/
theorem chunk_done (r : Fin 8) (pay : S128x128.Idx → Elt F .f32) (h : ∀ y, pay y = rowsAt m d ((oBlkK L r).view.emb y)) :
    (oLoc d ↦[chunkSet L r]{fullShare} (oBlkK L r).view.writes (Elt F) (m (oLoc d)) [⟨Rect.whole S128x128, pay⟩] : sProp 𝕄)
      = oLoc d ↦[chunkSet L r]{fullShare} rowsAt m d := by
  refine pointsTo_congr fun i hi => ?_
  obtain ⟨y, -, rfl⟩ := Finset.mem_map.mp hi
  have e := read_head (F := F) (oBlkK L r).view (m (oLoc d)) pay [] y
  rw [View.read_apply] at e
  exact ((cast_eq _ _).symm.trans e).trans (h y)

/-- The same for the task's stretch of the second result. -/
theorem strip_done (pay : S1024.Idx → Elt F .i32) (h : ∀ y, pay y = posAt (F := F) d ((pRowK L).view.emb y)) :
    (pLoc d ↦[stripSet L]{fullShare} (pRowK L).view.writes (Elt F) (m (pLoc d)) [⟨Rect.whole S1024, pay⟩] : sProp 𝕄)
      = pLoc d ↦[stripSet L]{fullShare} posAt (F := F) d := by
  refine pointsTo_congr fun i hi => ?_
  obtain ⟨y, -, rfl⟩ := Finset.mem_map.mp (show i ∈ (pRowK L).view.set from hi)
  have e := read_head (F := F) (pRowK L).view (m (pLoc d)) pay [] y
  rw [View.read_apply] at e
  exact ((cast_eq _ _).symm.trans e).trans (h y)

set_option maxHeartbeats 4000000 in
/-- The task: it fetches its stretch of the index array; starts six look-ups, one per buffer, each of 128 rows of the
    table at the row numbers in a 128-word window of the fetched indices; writes the 1024 positions of its stretch,
    sixteen at a time, and sends them to the second result; then, chunk by chunk, waits for a look-up, sends the buffer to
    its place in the first result and, once that has gone, reuses the buffer for a later chunk. Every transfer has a
    semaphore to itself while it is outstanding, so each wait returns exactly its own transfer's data, and what the two
    results hold at the end is read off the transfers' payloads: the table's rows at the fetched indices, and the
    positions themselves. -/
theorem tile_body (hF : (K (F := F)).Facts) (hok : PreOK m) (O : CellTallies nD τ sig (HIx 1)) (W : Waits sig (HIx 1)) (hO : ∀ g, O g none = 0) :
    iprop(levAts (K (F := F)).L (K (F := F)).lev ∗ emp ∗ tileGo m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_embed_kernel L tV (Memref.isWhole_whole _) iV (Memref.isWhole_whole _) oV (Memref.isWhole_whole _) pV (Memref.isWhole_whole _)
            s0 (Memref.isWhole_whole _) s1 (Memref.isWhole_whole _) b0 (Memref.isWhole_whole _) b1 (Memref.isWhole_whole _) b2 (Memref.isWhole_whole _)
            b3 (Memref.isWhole_whole _) b4 (Memref.isWhole_whole _) b5 (Memref.isWhole_whole _)
            cc0_scratch8 cc0_scratch9 cc0_scratch10 cc0_scratch11 cc0_scratch12 cc0_scratch13 cc0_scratch14 cc0_scratch15 cc0_scratch16
            cc0_scratch17 cc0_scratch18 cc0_scratch19 cc0_scratch20 cc0_scoped0)
          fun _ => iprop(tileTd m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_embed_kernel_eq_skeleton]; unfold cc0_embed_kernel_skel
  rw [(K (F := F)).scopedBufs_V hF d (cV L) (jV L), SparseCore.Cfg.scopedSems0_V (Val := Elt F) d (cV L) (jV L), ownSems0_V, ownBufs_V]
  unfold tileGo
  rw [bigSep_fin8]
  iintro ⟨#Hlv, -, ⟨Hi, Ht, ⟨Ho0, Ho1, Ho2, Ho3, Ho4, Ho5, Ho6, Ho7⟩, Hp⟩, ⟨⟨%f0, Hs0⟩, ⟨%f1, Hs1⟩, ⟨%g0, Hb0⟩, ⟨%g1, Hb1⟩, ⟨%g2, Hb2⟩, ⟨%g3, Hb3⟩, ⟨%g4, Hb4⟩, ⟨%g5, Hb5⟩, Hbufs⟩, ⟨Hg0, Hg1, Hg2, Hg3, Hg4, Hg5, Hw0, Hw1, Hw2, Hw3, Hw4, Hw5, Hisem, Hssem, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Htt := (Transfers.pointsTo_toks_split (tq L) 6) $$ Ht
  rw [bigSep_fin6]
  icases Htt with ⟨Htr, Ht0, Ht1, Ht2, Ht3, Ht4, Ht5⟩
  ihave Hi' := (Entails.of_eq (show (iLoc d ↦[stripSet L]{fullShare} m (iLoc d) : sProp 𝕄) = (iRowK L).view.loc (V d (cV L) (jV L)) ↦[(iRowK L).view.set]{fullShare} m (iLoc d) from rfl)) $$ Hi
  ihave Hp' := (Entails.of_eq (show (pLoc d ↦[stripSet L]{fullShare} m (pLoc d) : sProp 𝕄) = (pRowK L).view.loc (V d (cV L) (jV L)) ↦[(pRowK L).view.set]{fullShare} m (pLoc d) from rfl)) $$ Hp
  ihave Ho0' := (Entails.of_eq (show (oLoc d ↦[chunkSet L 0]{fullShare} m (oLoc d) : sProp 𝕄) = (oB0 L).view.loc (V d (cV L) (jV L)) ↦[(oB0 L).view.set]{fullShare} m (oLoc d) from rfl)) $$ Ho0
  ihave Ho1' := (Entails.of_eq (show (oLoc d ↦[chunkSet L 1]{fullShare} m (oLoc d) : sProp 𝕄) = (oB1 L).view.loc (V d (cV L) (jV L)) ↦[(oB1 L).view.set]{fullShare} m (oLoc d) from rfl)) $$ Ho1
  ihave Ho2' := (Entails.of_eq (show (oLoc d ↦[chunkSet L 2]{fullShare} m (oLoc d) : sProp 𝕄) = (oB2 L).view.loc (V d (cV L) (jV L)) ↦[(oB2 L).view.set]{fullShare} m (oLoc d) from rfl)) $$ Ho2
  ihave Ho3' := (Entails.of_eq (show (oLoc d ↦[chunkSet L 3]{fullShare} m (oLoc d) : sProp 𝕄) = (oB3 L).view.loc (V d (cV L) (jV L)) ↦[(oB3 L).view.set]{fullShare} m (oLoc d) from rfl)) $$ Ho3
  ihave Ho4' := (Entails.of_eq (show (oLoc d ↦[chunkSet L 4]{fullShare} m (oLoc d) : sProp 𝕄) = (oB4 L).view.loc (V d (cV L) (jV L)) ↦[(oB4 L).view.set]{fullShare} m (oLoc d) from rfl)) $$ Ho4
  ihave Ho5' := (Entails.of_eq (show (oLoc d ↦[chunkSet L 5]{fullShare} m (oLoc d) : sProp 𝕄) = (oB5 L).view.loc (V d (cV L) (jV L)) ↦[(oB5 L).view.set]{fullShare} m (oLoc d) from rfl)) $$ Ho5
  ihave Ho6' := (Entails.of_eq (show (oLoc d ↦[chunkSet L 6]{fullShare} m (oLoc d) : sProp 𝕄) = (oB6 L).view.loc (V d (cV L) (jV L)) ↦[(oB6 L).view.set]{fullShare} m (oLoc d) from rfl)) $$ Ho6
  ihave Ho7' := (Entails.of_eq (show (oLoc d ↦[chunkSet L 7]{fullShare} m (oLoc d) : sProp 𝕄) = (oB7 L).view.loc (V d (cV L) (jV L)) ↦[(oB7 L).view.set]{fullShare} m (oLoc d) from rfl)) $$ Ho7
  ihave Hs0' := (Entails.of_eq (show ((V d (cV L) (jV L)).loc cc0_scratch0 ↦{fullShare} f0 : sProp 𝕄) = (s0).view.loc (V d (cV L) (jV L)) ↦{fullShare} f0 from rfl)) $$ Hs0
  ihave Hs1' := (Entails.of_eq (show ((V d (cV L) (jV L)).loc cc0_scratch1 ↦{fullShare} f1 : sProp 𝕄) = (s1).view.loc (V d (cV L) (jV L)) ↦{fullShare} f1 from rfl)) $$ Hs1
  ihave Hb0' := (Entails.of_eq (show ((V d (cV L) (jV L)).loc cc0_scratch2 ↦{fullShare} g0 : sProp 𝕄) = (b0).view.loc (V d (cV L) (jV L)) ↦{fullShare} g0 from rfl)) $$ Hb0
  ihave Hb1' := (Entails.of_eq (show ((V d (cV L) (jV L)).loc cc0_scratch3 ↦{fullShare} g1 : sProp 𝕄) = (b1).view.loc (V d (cV L) (jV L)) ↦{fullShare} g1 from rfl)) $$ Hb1
  ihave Hb2' := (Entails.of_eq (show ((V d (cV L) (jV L)).loc cc0_scratch4 ↦{fullShare} g2 : sProp 𝕄) = (b2).view.loc (V d (cV L) (jV L)) ↦{fullShare} g2 from rfl)) $$ Hb2
  ihave Hb3' := (Entails.of_eq (show ((V d (cV L) (jV L)).loc cc0_scratch5 ↦{fullShare} g3 : sProp 𝕄) = (b3).view.loc (V d (cV L) (jV L)) ↦{fullShare} g3 from rfl)) $$ Hb3
  ihave Hb4' := (Entails.of_eq (show ((V d (cV L) (jV L)).loc cc0_scratch6 ↦{fullShare} g4 : sProp 𝕄) = (b4).view.loc (V d (cV L) (jV L)) ↦{fullShare} g4 from rfl)) $$ Hb4
  ihave Hb5' := (Entails.of_eq (show ((V d (cV L) (jV L)).loc cc0_scratch7 ↦{fullShare} g5 : sProp 𝕄) = (b5).view.loc (V d (cV L) (jV L)) ↦{fullShare} g5 from rfl)) $$ Hb5
  ihave Ht0' := (Entails.of_eq (show (tLoc d ↦{Transfers.shareTok (tq L) 6 0} m (tLoc d) : sProp 𝕄) = (tV).view.loc (V d (cV L) (jV L)) ↦{Transfers.shareTok (tq L) 6 0} m (tLoc d) from rfl)) $$ Ht0
  ihave Ht1' := (Entails.of_eq (show (tLoc d ↦{Transfers.shareTok (tq L) 6 1} m (tLoc d) : sProp 𝕄) = (tV).view.loc (V d (cV L) (jV L)) ↦{Transfers.shareTok (tq L) 6 1} m (tLoc d) from rfl)) $$ Ht1
  ihave Ht2' := (Entails.of_eq (show (tLoc d ↦{Transfers.shareTok (tq L) 6 2} m (tLoc d) : sProp 𝕄) = (tV).view.loc (V d (cV L) (jV L)) ↦{Transfers.shareTok (tq L) 6 2} m (tLoc d) from rfl)) $$ Ht2
  ihave Ht3' := (Entails.of_eq (show (tLoc d ↦{Transfers.shareTok (tq L) 6 3} m (tLoc d) : sProp 𝕄) = (tV).view.loc (V d (cV L) (jV L)) ↦{Transfers.shareTok (tq L) 6 3} m (tLoc d) from rfl)) $$ Ht3
  ihave Ht4' := (Entails.of_eq (show (tLoc d ↦{Transfers.shareTok (tq L) 6 4} m (tLoc d) : sProp 𝕄) = (tV).view.loc (V d (cV L) (jV L)) ↦{Transfers.shareTok (tq L) 6 4} m (tLoc d) from rfl)) $$ Ht4
  ihave Ht5' := (Entails.of_eq (show (tLoc d ↦{Transfers.shareTok (tq L) 6 5} m (tLoc d) : sProp 𝕄) = (tV).view.loc (V d (cV L) (jV L)) ↦{Transfers.shareTok (tq L) 6 5} m (tLoc d) from rfl)) $$ Ht5
  sl_exec
  have hin := inb_of_ok m d L hok f0 (tile_body.sl.dma0 m d L) rfl
  sl_exec
  have hc0 : ∀ y, tile_body.sl.dma128_1 m d L f0 g0 hin y = rowsAt m d ((oBlkK L 0).view.emb y) :=
    fun y => (read_head _ _ _ _ y).trans (chunk_value m hok d L 0 _ f0 _ _ y)
  have hc1 : ∀ y, tile_body.sl.dma128_2 m d L f0 g1 hin y = rowsAt m d ((oBlkK L 1).view.emb y) :=
    fun y => (read_head _ _ _ _ y).trans (chunk_value m hok d L 1 _ f0 _ _ y)
  have hc2 : ∀ y, tile_body.sl.dma128_3 m d L f0 g2 hin y = rowsAt m d ((oBlkK L 2).view.emb y) :=
    fun y => (read_head _ _ _ _ y).trans (chunk_value m hok d L 2 _ f0 _ _ y)
  have hc3 : ∀ y, tile_body.sl.dma128_4 m d L f0 g3 hin y = rowsAt m d ((oBlkK L 3).view.emb y) :=
    fun y => (read_head _ _ _ _ y).trans (chunk_value m hok d L 3 _ f0 _ _ y)
  have hc4 : ∀ y, tile_body.sl.dma128_5 m d L f0 g4 hin y = rowsAt m d ((oBlkK L 4).view.emb y) :=
    fun y => (read_head _ _ _ _ y).trans (chunk_value m hok d L 4 _ f0 _ _ y)
  have hc5 : ∀ y, tile_body.sl.dma128_6 m d L f0 g5 hin y = rowsAt m d ((oBlkK L 5).view.emb y) :=
    fun y => (read_head _ _ _ _ y).trans (chunk_value m hok d L 5 _ f0 _ _ y)
  have hc6 : ∀ y, tile_body.sl.dma128_7 m d L f0 g0 hin y = rowsAt m d ((oBlkK L 6).view.emb y) :=
    fun y => (read_head _ _ _ _ y).trans (chunk_value m hok d L 6 _ f0 _ _ y)
  have hc7 : ∀ y, tile_body.sl.dma128_8 m d L f0 g1 hin y = rowsAt m d ((oBlkK L 7).view.emb y) :=
    fun y => (read_head _ _ _ _ y).trans (chunk_value m hok d L 7 _ f0 _ _ y)
  have hpv : ∀ y, tile_body.sl.dma128 d L f1 y = posAt (F := F) d ((pRowK L).view.emb y) :=
    fun y => pos_value d L (tile_body.sl.v29 L) rfl f1 y
  sl_step
  unfold tileTd
  rw [bigSep_fin8]
  isplitl [Hi' Htr Ht0' Ht1' Ht2' Ht3' Ht4' Ht5' Ho0' Ho1' Ho2' Ho3' Ho4' Ho5' Ho6' Ho7' Hp']
  · isplitl [Hi']; · iexact Hi'
    isplitl [Htr Ht0' Ht1' Ht2' Ht3' Ht4' Ht5']
    · iapply (Transfers.pointsTo_toks_join (tq L) 6)
      rw [bigSep_fin6]
      isplitl [Htr]; · iexact Htr
      isplitl [Ht0']; · iexact Ht0'
      isplitl [Ht1']; · iexact Ht1'
      isplitl [Ht2']; · iexact Ht2'
      isplitl [Ht3']; · iexact Ht3'
      isplitl [Ht4']; · iexact Ht4'
      iexact Ht5'
    isplitl [Ho0' Ho1' Ho2' Ho3' Ho4' Ho5' Ho6' Ho7']
    · skip
      isplitl [Ho0']; · iapply (Entails.of_eq (chunk_done m d L 0 _ hc0)); iexact Ho0'
      isplitl [Ho1']; · iapply (Entails.of_eq (chunk_done m d L 1 _ hc1)); iexact Ho1'
      isplitl [Ho2']; · iapply (Entails.of_eq (chunk_done m d L 2 _ hc2)); iexact Ho2'
      isplitl [Ho3']; · iapply (Entails.of_eq (chunk_done m d L 3 _ hc3)); iexact Ho3'
      isplitl [Ho4']; · iapply (Entails.of_eq (chunk_done m d L 4 _ hc4)); iexact Ho4'
      isplitl [Ho5']; · iapply (Entails.of_eq (chunk_done m d L 5 _ hc5)); iexact Ho5'
      isplitl [Ho6']; · iapply (Entails.of_eq (chunk_done m d L 6 _ hc6)); iexact Ho6'
      iapply (Entails.of_eq (chunk_done m d L 7 _ hc7)); iexact Ho7'
    iapply (Entails.of_eq (strip_done m d L _ hpv)); iexact Hp'
  isplitl [Hs0' Hs1' Hb0' Hb1' Hb2' Hb3' Hb4' Hb5' Hbufs]
  · isplitl [Hs0']; · iexists _; iexact Hs0'
    isplitl [Hs1']; · iexists _; iexact Hs1'
    isplitl [Hb0']; · iexists _; iexact Hb0'
    isplitl [Hb1']; · iexists _; iexact Hb1'
    isplitl [Hb2']; · iexists _; iexact Hb2'
    isplitl [Hb3']; · iexists _; iexact Hb3'
    isplitl [Hb4']; · iexists _; iexact Hb4'
    isplitl [Hb5']; · iexists _; iexact Hb5'
    iexact Hbufs
  isplitl [Hg0 Hg1 Hg2 Hg3 Hg4 Hg5 Hw0 Hw1 Hw2 Hw3 Hw4 Hw5 Hisem Hssem Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hisem]; · iexact Hisem
    isplitl [Hssem]; · iexact Hssem
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.LookupIdeal

end
-- ==== Proof.IdealDeal.lean ====
/-
  The deal. The index array and the positions are [4, 8192]; task w = 2·(subcore) + (SparseCore) owns the stretch
  [1024·(w mod 8), 1024·(w mod 8) + 1024) of row w / 8, so element (a, b) belongs to task 8·a + b / 1024: the thirty-two
  stretches are pairwise disjoint and cover the array. The looked-up rows are [4, 8192, 128]; chunk r of task w is the
  128 rows from 1024·(w mod 8) + 128·r of sequence w / 8, so element (a, b, c) belongs to chunk (b mod 1024) / 128 of
  task 8·a + b / 1024: the 256 chunks are pairwise disjoint and cover. The table is read by all: each task holds one of
  thirty-two read tokens of it and a remainder stays behind. Hence the four whole arrays are exactly the remainder beside
  every task's pieces, at any contents: at the launch contents going out, at the specification's results coming back.
-/
import proofs.«206247_g21887153341054_retrytranche2_883_16_alg».proof.Proof.IdealSetup

noncomputable section

namespace Cert.LookupIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The offsets in closed form -/

theorem off1_eq : ∀ L : grid0.Coords, ∀ a, k0_off1 L a = ![wOf L / 8, (wOf L % 8) * 1024] a := by decide +kernel
theorem off2_eq : ∀ L : grid0.Coords, ∀ r : Fin 8, ∀ a,
    k0_off2 L (BitVec.ofNat 32 (128 * r.val)) a = ![wOf L / 8, (wOf L % 8) * 1024 + 128 * r.val, 0] a := by decide +kernel

theorem off1_0 (L : grid0.Coords) : k0_off1 L 0 = wOf L / 8 := off1_eq L 0
theorem off1_1 (L : grid0.Coords) : k0_off1 L 1 = (wOf L % 8) * 1024 := off1_eq L 1
theorem off2_0 (L : grid0.Coords) (r : Fin 8) : k0_off2 L (BitVec.ofNat 32 (128 * r.val)) 0 = wOf L / 8 := off2_eq L r 0
theorem off2_1 (L : grid0.Coords) (r : Fin 8) :
    k0_off2 L (BitVec.ofNat 32 (128 * r.val)) 1 = (wOf L % 8) * 1024 + 128 * r.val := off2_eq L r 1
theorem off2_2 (L : grid0.Coords) (r : Fin 8) : k0_off2 L (BitVec.ofNat 32 (128 * r.val)) 2 = 0 := off2_eq L r 2

/-! ## Which elements a stretch and a chunk hold -/

theorem wOf_lt (L : grid0.Coords) : wOf L < 32 := by
  have h0 : (L 0).val < 2 := (L 0).isLt
  have h1 : (L 1).val < 16 := (L 1).isLt
  show 2 * (L 1).val + (L 0).val < 32
  omega

theorem stripSet_eq (L : grid0.Coords) : stripSet L = (strip L).set := by
  show (((View.whole (main_arg0_scv : Ref sig .scVector)).slice (strip L)).reshape S1024 squeezes_S1x1024_S1024.numel_eq).set = _
  rw [View.set_reshape, View.set_slice]; exact Finset.map_refl
theorem chunkSet_eq (L : grid0.Coords) (r : Fin 8) : chunkSet L r = (chunk L r).set := by
  show (((View.whole (main_v0_0_scv : Ref sig .scVector)).slice (chunk L r)).reshape S128x128 squeezes_S1x128x128_S128x128.numel_eq).set = _
  rw [View.set_reshape, View.set_slice]; exact Finset.map_refl

theorem mem_stripSet (L : grid0.Coords) (j : S4x8192.Idx) :
    j ∈ stripSet L ↔ wOf L = 8 * (j 0).val + (j 1).val / 1024 := by
  have s0 : S1x1024.size 0 = 1 := rfl
  have s1 : S1x1024.size 1 = 1024 := rfl
  rw [stripSet_eq, Rect.mem_set_unit, Fin.forall_fin_two, off1_0, off1_1, s0, s1]
  have h0 : (j 0).val < 4 := (j 0).isLt
  have h1 : (j 1).val < 8192 := (j 1).isLt
  have hw : wOf L < 32 := wOf_lt L
  generalize wOf L = w at hw ⊢
  omega

theorem forall_axes3 {P : Fin 3 → Prop} : (∀ a, P a) ↔ P 0 ∧ P 1 ∧ P 2 :=
  ⟨fun h => ⟨h 0, h 1, h 2⟩, fun h a => match a with | 0 => h.1 | 1 => h.2.1 | 2 => h.2.2⟩

theorem mem_chunkSet (L : grid0.Coords) (r : Fin 8) (j : S4x8192x128.Idx) :
    j ∈ chunkSet L r ↔ wOf L = 8 * (j 0).val + (j 1).val / 1024 ∧ r.val = (j 1).val % 1024 / 128 := by
  have s0 : S1x128x128.size 0 = 1 := rfl
  have s1 : S1x128x128.size 1 = 128 := rfl
  have s2 : S1x128x128.size 2 = 128 := rfl
  rw [chunkSet_eq, Rect.mem_set_unit, forall_axes3, off2_0, off2_1, off2_2, s0, s1, s2]
  have h0 : (j 0).val < 4 := (j 0).isLt
  have h1 : (j 1).val < 8192 := (j 1).isLt
  have h2 : (j 2).val < 128 := (j 2).isLt
  have hw : wOf L < 32 := wOf_lt L
  have hr : r.val < 8 := r.isLt
  generalize wOf L = w at hw ⊢
  omega

/-! ## The tasks, as pairs (SparseCore, subcore) -/

abbrev LL (p : Fin 2 × Fin 16) : grid0.Coords := coordsV p.1 p.2
theorem wOf_LL (p : Fin 2 × Fin 16) : wOf (LL p) = 2 * p.2.val + p.1.val := rfl

theorem LL_inj {p p' : Fin 2 × Fin 16} (h : wOf (LL p) = wOf (LL p')) : p = p' := by
  rw [wOf_LL, wOf_LL] at h
  have a := p.1.isLt; have b := p'.1.isLt
  exact Prod.ext (Fin.ext (by omega)) (Fin.ext (by omega))

theorem strips_disjoint : ∀ p ∈ (Finset.univ : Finset (Fin 2 × Fin 16)), ∀ p' ∈ (Finset.univ : Finset (Fin 2 × Fin 16)),
    p ≠ p' → Disjoint (stripSet (LL p)) (stripSet (LL p')) := by
  intro p _ p' _ hne
  rw [Finset.disjoint_left]
  intro j hj hj'
  rw [mem_stripSet] at hj hj'
  exact hne (LL_inj (hj.trans hj'.symm))

theorem strips_cover : (Finset.univ : Finset (Fin 2 × Fin 16)).biUnion (fun p => stripSet (LL p)) = Finset.univ := by
  ext j
  simp only [Finset.mem_biUnion, Finset.mem_univ, true_and, iff_true]
  have h0 : (j 0).val < 4 := (j 0).isLt
  have h1 : (j 1).val < 8192 := (j 1).isLt
  refine ⟨(⟨(8 * (j 0).val + (j 1).val / 1024) % 2, by omega⟩, ⟨(8 * (j 0).val + (j 1).val / 1024) / 2, by omega⟩), ?_⟩
  rw [mem_stripSet, wOf_LL]
  show 2 * ((8 * (j 0).val + (j 1).val / 1024) / 2) + (8 * (j 0).val + (j 1).val / 1024) % 2 = _
  omega

theorem chunks_disjoint : ∀ q ∈ (Finset.univ : Finset ((Fin 2 × Fin 16) × Fin 8)), ∀ q' ∈ (Finset.univ : Finset ((Fin 2 × Fin 16) × Fin 8)),
    q ≠ q' → Disjoint (chunkSet (LL q.1) q.2) (chunkSet (LL q'.1) q'.2) := by
  intro q _ q' _ hne
  rw [Finset.disjoint_left]
  intro j hj hj'
  rw [mem_chunkSet] at hj hj'
  exact hne (Prod.ext (LL_inj (hj.1.trans hj'.1.symm)) (Fin.ext (hj.2.trans hj'.2.symm)))

theorem chunks_cover :
    (Finset.univ : Finset ((Fin 2 × Fin 16) × Fin 8)).biUnion (fun q => chunkSet (LL q.1) q.2) = Finset.univ := by
  ext j
  simp only [Finset.mem_biUnion, Finset.mem_univ, true_and, iff_true]
  have h0 : (j 0).val < 4 := (j 0).isLt
  have h1 : (j 1).val < 8192 := (j 1).isLt
  refine ⟨((⟨(8 * (j 0).val + (j 1).val / 1024) % 2, by omega⟩, ⟨(8 * (j 0).val + (j 1).val / 1024) / 2, by omega⟩),
    ⟨(j 1).val % 1024 / 128, by omega⟩), ?_⟩
  rw [mem_chunkSet, wOf_LL]
  refine ⟨?_, rfl⟩
  show 2 * ((8 * (j 0).val + (j 1).val / 1024) / 2) + (8 * (j 0).val + (j 1).val / 1024) % 2 = _
  omega

/-- Token w of the table goes to the task with 2·(subcore) + (SparseCore) = w. -/
def tokTask : Fin 2 × Fin 16 ≃ Fin 32 where
  toFun p := ⟨2 * p.2.val + p.1.val, by have := p.1.isLt; have := p.2.isLt; omega⟩
  invFun w := (⟨w.val % 2, by omega⟩, ⟨w.val / 2, by have := w.isLt; omega⟩)
  left_inv p := by
    have a := p.1.isLt
    exact Prod.ext (Fin.ext (by show (2 * p.2.val + p.1.val) % 2 = p.1.val; omega)) (Fin.ext (by show (2 * p.2.val + p.1.val) / 2 = p.2.val; omega))
  right_inv w := Fin.ext (by show 2 * (w.val / 2) + w.val % 2 = w.val; omega)

/-! ## Each array as its tasks' pieces -/

variable (m : (ℓ : Loc nD τ sig) → Buf (Elt F) ℓ) [FloatOps F]

omit [FloatOps F] in
theorem iPts_deal (d : Dev nD) (f : Buf (Elt F) (iLoc d)) :
    (iLoc d ↦{fullShare} f : sProp 𝕄) = bigSep Finset.univ fun p : Fin 2 × Fin 16 => iLoc d ↦[stripSet (LL p)]{fullShare} f := by
  rw [← pointsTo_biUnion Finset.univ (ℓ := iLoc d) (fun p => stripSet (LL p)) strips_disjoint, strips_cover]; try rfl
omit [FloatOps F] in
theorem pPts_deal (d : Dev nD) (f : Buf (Elt F) (pLoc d)) :
    (pLoc d ↦{fullShare} f : sProp 𝕄) = bigSep Finset.univ fun p : Fin 2 × Fin 16 => pLoc d ↦[stripSet (LL p)]{fullShare} f := by
  rw [← pointsTo_biUnion Finset.univ (ℓ := pLoc d) (fun p => stripSet (LL p)) strips_disjoint, strips_cover]; try rfl
omit [FloatOps F] in
theorem oPts_deal (d : Dev nD) (f : Buf (Elt F) (oLoc d)) :
    (oLoc d ↦{fullShare} f : sProp 𝕄)
      = bigSep Finset.univ fun p : Fin 2 × Fin 16 => bigSep Finset.univ fun r : Fin 8 => oLoc d ↦[chunkSet (LL p) r]{fullShare} f := by
  rw [← bigSep_univ_prod (fun q : (Fin 2 × Fin 16) × Fin 8 => (oLoc d ↦[chunkSet (LL q.1) q.2]{fullShare} f : sProp 𝕄)),
    ← pointsTo_biUnion Finset.univ (ℓ := oLoc d) (fun q : (Fin 2 × Fin 16) × Fin 8 => chunkSet (LL q.1) q.2) chunks_disjoint, chunks_cover]; try rfl
omit [FloatOps F] in
theorem tPts_deal (d : Dev nD) (f : Buf (Elt F) (tLoc d)) :
    (tLoc d ↦{fullShare} f : sProp 𝕄)
      = iprop((tLoc d ↦{Transfers.shareDrop fullShare 32} f) ∗ bigSep Finset.univ fun p : Fin 2 × Fin 16 => tLoc d ↦{tq (LL p)} f) := by
  have h : (tLoc d ↦{fullShare} f : sProp 𝕄) ⊣⊢ _ := Transfers.pointsTo_toks fullShare 32
  rw [BI.equiv_iff.mp ⟨h.1, h.2⟩, bigSep_univ_equiv tokTask]; rfl

/-! ## The four arrays are the table's remainder beside every task's pieces -/

omit [FloatOps F] in
theorem sep_pull (A D B C E : sProp 𝕄) : iprop(A ∗ (D ∗ B) ∗ C ∗ E) = iprop(D ∗ A ∗ B ∗ C ∗ E) := by
  have h1 : iprop(A ∗ (D ∗ B) ∗ C ∗ E) ⊢ iprop(D ∗ A ∗ B ∗ C ∗ E) := by
    iintro ⟨HA, ⟨HD, HB⟩, HC, HE⟩
    isplitl [HD]; · iexact HD
    isplitl [HA]; · iexact HA
    isplitl [HB]; · iexact HB
    isplitl [HC]; · iexact HC
    iexact HE
  have h2 : iprop(D ∗ A ∗ B ∗ C ∗ E) ⊢ iprop(A ∗ (D ∗ B) ∗ C ∗ E) := by
    iintro ⟨HD, HA, HB, HC, HE⟩
    isplitl [HA]; · iexact HA
    isplitl [HD HB]; · isplitl [HD] <;> iassumption
    isplitl [HC]; · iexact HC
    iexact HE
  exact BI.equiv_iff.mp ⟨h1, h2⟩

omit [FloatOps F] in
theorem deal_eq (d : Dev nD) (fi : Buf (Elt F) (iLoc d)) (ft : Buf (Elt F) (tLoc d)) (fo : Buf (Elt F) (oLoc d)) (fp : Buf (Elt F) (pLoc d)) :
    (iprop((iLoc d ↦{fullShare} fi) ∗ (tLoc d ↦{fullShare} ft) ∗ (oLoc d ↦{fullShare} fo) ∗ (pLoc d ↦{fullShare} fp)) : sProp 𝕄)
      = iprop((tLoc d ↦{Transfers.shareDrop fullShare 32} ft)
          ∗ bigSep Finset.univ fun c : Fin 2 => bigSep Finset.univ fun i : Fin 16 =>
              iprop((iLoc d ↦[stripSet (coordsV c i)]{fullShare} fi) ∗ (tLoc d ↦{tq (coordsV c i)} ft)
                ∗ (bigSep Finset.univ fun r : Fin 8 => oLoc d ↦[chunkSet (coordsV c i) r]{fullShare} fo)
                ∗ (pLoc d ↦[stripSet (coordsV c i)]{fullShare} fp))) := by
  have e := bigSep_univ_prod (fun p : Fin 2 × Fin 16 =>
    (iprop((iLoc d ↦[stripSet (LL p)]{fullShare} fi) ∗ (tLoc d ↦{tq (LL p)} ft)
      ∗ (bigSep Finset.univ fun r : Fin 8 => oLoc d ↦[chunkSet (LL p) r]{fullShare} fo)
      ∗ (pLoc d ↦[stripSet (LL p)]{fullShare} fp)) : sProp 𝕄))
  refine Eq.trans ?_ (congrArg (fun X => iprop((tLoc d ↦{Transfers.shareDrop fullShare 32} ft) ∗ X)) e)
  rw [bigSep_sep', bigSep_sep', bigSep_sep', iPts_deal, tPts_deal, oPts_deal, pPts_deal]
  exact sep_pull _ _ _ _ _

/-- Going out: the launch contents everywhere. -/
theorem deal (d : Dev nD) :
    iprop((iLoc d ↦{fullShare} m (iLoc d)) ∗ (tLoc d ↦{fullShare} m (tLoc d)) ∗ (oLoc d ↦{fullShare} m (oLoc d)) ∗ (pLoc d ↦{fullShare} m (pLoc d)))
      ⊢ (iprop((tLoc d ↦{Transfers.shareDrop fullShare 32} m (tLoc d))
          ∗ bigSep Finset.univ fun c : Fin 2 => bigSep Finset.univ fun i : Fin 16 => tileGo m d (coordsV c i)) : sProp 𝕄) := by
  unfold tileGo
  rw [deal_eq]

/-- Coming back: the two results at the specification. -/
theorem undeal (d : Dev nD) :
    (iprop((tLoc d ↦{Transfers.shareDrop fullShare 32} m (tLoc d))
          ∗ bigSep Finset.univ fun c : Fin 2 => bigSep Finset.univ fun i : Fin 16 => tileTd m d (coordsV c i)) : sProp 𝕄)
      ⊢ iprop((iLoc d ↦{fullShare} m (iLoc d)) ∗ (tLoc d ↦{fullShare} m (tLoc d)) ∗ (oLoc d ↦{fullShare} rowsAt m d) ∗ (pLoc d ↦{fullShare} posAt (F := F) d)) := by
  unfold tileTd
  rw [deal_eq]

end Cert.LookupIdeal

end
-- ==== Proof.IdealLaunch.lean ====
/-
  The launch of the lookup kernel: each task's obligation from the task's proof, the call's payloads split among the
  tasks, what the launch deals, the host program around the one call — it hands the four arrays out to the thirty-two
  tasks and takes them back with the two results at the specification —, and the run of the whole family of threads.
-/
import proofs.«206247_g21887153341054_retrytranche2_883_16_alg».proof.Proof.IdealTile
import proofs.«206247_g21887153341054_retrytranche2_883_16_alg».proof.Proof.IdealDeal

noncomputable section

namespace Cert.LookupIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S1000000x128 EltTy.f32)
local notation "iV" => (Memref.whole Cert.KernelIdeal.main_arg0_scv : Memref Cert.KernelIdeal.sig Kind.scVector Space.hbm Cert.KernelIdeal.S4x8192 EltTy.i32)
local notation "oV" => (Memref.whole Cert.KernelIdeal.main_v0_0_scv : Memref Cert.KernelIdeal.sig Kind.scVector Space.hbm Cert.KernelIdeal.S4x8192x128 EltTy.f32)
local notation "pV" => (Memref.whole Cert.KernelIdeal.main_v0_1_scv : Memref Cert.KernelIdeal.sig Kind.scVector Space.hbm Cert.KernelIdeal.S4x8192 EltTy.i32)
local notation "s0" => (Memref.whole Cert.KernelIdeal.cc0_scratch0 : Memref Cert.KernelIdeal.sig Kind.scVector Space.vmem Cert.KernelIdeal.S1024 EltTy.i32)
local notation "s1" => (Memref.whole Cert.KernelIdeal.cc0_scratch1 : Memref Cert.KernelIdeal.sig Kind.scVector Space.vmem Cert.KernelIdeal.S1024 EltTy.i32)
local notation "b0" => (Memref.whole Cert.KernelIdeal.cc0_scratch2 : Memref Cert.KernelIdeal.sig Kind.scVector Space.vmem Cert.KernelIdeal.S128x128 EltTy.f32)
local notation "b1" => (Memref.whole Cert.KernelIdeal.cc0_scratch3 : Memref Cert.KernelIdeal.sig Kind.scVector Space.vmem Cert.KernelIdeal.S128x128 EltTy.f32)
local notation "b2" => (Memref.whole Cert.KernelIdeal.cc0_scratch4 : Memref Cert.KernelIdeal.sig Kind.scVector Space.vmem Cert.KernelIdeal.S128x128 EltTy.f32)
local notation "b3" => (Memref.whole Cert.KernelIdeal.cc0_scratch5 : Memref Cert.KernelIdeal.sig Kind.scVector Space.vmem Cert.KernelIdeal.S128x128 EltTy.f32)
local notation "b4" => (Memref.whole Cert.KernelIdeal.cc0_scratch6 : Memref Cert.KernelIdeal.sig Kind.scVector Space.vmem Cert.KernelIdeal.S128x128 EltTy.f32)
local notation "b5" => (Memref.whole Cert.KernelIdeal.cc0_scratch7 : Memref Cert.KernelIdeal.sig Kind.scVector Space.vmem Cert.KernelIdeal.S128x128 EltTy.f32)

variable [FloatOps F]

/-! ## The obligation -/

theorem defs₀_vector (c : Fin τ.nSC) (s : Fin τ.nSub) :
    defs₀ (F := F) (.scVector c s) 0 ()
      = SparseCore.onTile hcore0 hsub0 (fun c s => cc0_embed_kernel (coordsV c s)
          tV (Memref.isWhole_whole _) iV (Memref.isWhole_whole _) oV (Memref.isWhole_whole _) pV (Memref.isWhole_whole _)
          s0 (Memref.isWhole_whole _) s1 (Memref.isWhole_whole _) b0 (Memref.isWhole_whole _) b1 (Memref.isWhole_whole _) b2 (Memref.isWhole_whole _)
          b3 (Memref.isWhole_whole _) b4 (Memref.isWhole_whole _) b5 (Memref.isWhole_whole _)
          cc0_scratch8 cc0_scratch9 cc0_scratch10 cc0_scratch11 cc0_scratch12 cc0_scratch13 cc0_scratch14 cc0_scratch15 cc0_scratch16
          cc0_scratch17 cc0_scratch18 cc0_scratch19 cc0_scratch20 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hok : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hok O W hO).trans (wp_mono frame _ _ fun _ => obl_post)

/-! ## The call's payloads: a SparseCore's is its sixteen tasks' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => tileGo m d (coordsV (Fin.cast nCore_zero c) i)) ⊢ |={Set.univ}=> iprop(
      (bigSep Finset.univ fun i : Fin 16 => tileGo m d (coordsV (Fin.cast nCore_zero c) i))
      ∗ ((bigSep Finset.univ fun i : Fin 16 => tileTd m d (coordsV (Fin.cast nCore_zero c) i))
          -∗ bigSep Finset.univ fun i : Fin 16 => tileTd m d (coordsV (Fin.cast nCore_zero c) i)))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (tLoc d ↦{fullShare} W main_arg1)
      ∗ (oLoc d ↦{fullShare} W main_v0_0) ∗ pLoc d ↦{fullShare} W main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun i : Fin 16 => tileGo m d (coordsV c i) :=
  bigSep_cores (F := F) (fun c => bigSep Finset.univ fun i : Fin 16 => tileGo m d (coordsV c i))
theorem dn0_eq (d : Dev nD) : (bigSep Finset.univ fun c : Fin ((K (F := F)).nCore 0) => (P m).dn 0 d c)
    = bigSep Finset.univ fun c : Fin 2 => bigSep Finset.univ fun i : Fin 16 => tileTd m d (coordsV c i) :=
  bigSep_cores (F := F) (fun c => bigSep Finset.univ fun i : Fin 16 => tileTd m d (coordsV c i))

/-- What the host program leaves the claim: the two arguments at their launch contents, the two results at the specification. -/
abbrev FIN (d : Dev nD) : sProp 𝕄 :=
  iprop((iLoc d ↦{fullShare} m (iLoc d)) ∗ (tLoc d ↦{fullShare} m (tLoc d)) ∗ (oLoc d ↦{fullShare} rowsAt m d) ∗ (pLoc d ↦{fullShare} posAt (F := F) d))

/-- The host program on device `d`: the one call. The four arrays are dealt to the tasks (the table by read tokens, a
    remainder kept here), and what the tasks hand back is joined again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ht, Ho, Hp⟩, -, -⟩, -⟩
  ihave Hd := (deal m d) $$ [Hi Ht Ho Hp]
  · isplitl [Hi]; · iexact Hi
    isplitl [Ht]; · iexact Ht
    isplitl [Ho]; · iexact Ho
    iexact Hp
  icases Hd with ⟨Htr, Hgo⟩
  iapply ((K (F := F)).wp_run (D (F := F)) 𝒱 (EH := EH) (P := P m) κ d 0) $$ [Hst Hgo Htr]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hfin := (undeal m d) $$ [Htr Hdn']
  · isplitl [Htr]; · iexact Htr
    iexact Hdn'
  imodintro
  isplitl [Hst]; · iexact Hst
  iexact Hfin

def fq (d : Dev nD) (s' : Phys nD τ sig (Elt F)) : Prop :=
  s'.mem.mem (iLoc d) = m (iLoc d) ∧ s'.mem.mem (tLoc d) = m (tLoc d) ∧ s'.mem.mem (oLoc d) = rowsAt m d ∧ s'.mem.mem (pLoc d) = posAt (F := F) d

set_option maxRecDepth 16384 in
theorem hfin (d : Dev nD) (s' : Phys nD τ sig (Elt F)) : iprop(FIN m d ∗ SI s') ⊢ (⌜fq m d s'⌝ : sProp 𝕄) := by
  iintro ⟨⟨Hi, Ht, Ho, Hp⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := oLoc d) (I := Finset.univ) (q := fullShare) (f := rowsAt m d))) $$ [HSI Ho]
  · isplitl [HSI] <;> iassumption
  icases H with ⟨%h3, HSI, -⟩
  ihave H := (SI_pointsTo_agree (st := s') (ℓ := pLoc d) (I := Finset.univ) (q := fullShare) (f := posAt (F := F) d)) $$ [HSI Hp]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

/-- Every execution ends with the two results at the specification and the two arguments unchanged. -/
def QC : PUnit × MemSt nD τ sig (Elt F) → Prop := fun r => ∀ c : Dev nD,
  r.2.mem (iLoc c) = m (iLoc c) ∧ r.2.mem (tLoc c) = m (tLoc c) ∧ r.2.mem (oLoc c) = rowsAt m c ∧ r.2.mem (pLoc c) = posAt (F := F) c

theorem run_main [∀ e, Nonempty (Elt F e)] (hok : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hok)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.LookupIdeal

end
-- ==== Proof.BitsSetup.lean ====
/-
  The lookup kernel as its launch sees it: one call that runs the same task on the thirty-two vector subcores of the
  device's two SparseCores. Task w = 2·(subcore) + (SparseCore) owns positions [1024·(w mod 8), 1024·(w mod 8) + 1024)
  of sequence w / 8: it reads that stretch of the index array, looks the 1024 rows up in the table eight chunks of 128
  rows at a time, writes each chunk to its place in the first result, and writes the stretch of positions to the second.
  Stated here: the arrays as locations, each task's pieces of them exactly as the task's own slices name them, what a
  task is handed and what it hands back (the two results' pieces at the specification), and the call's payloads.
-/
import proofs.«206247_g21887153341054_retrytranche2_883_16_alg».proof.Kernel
import proofs.«206247_g21887153341054_retrytranche2_883_16_alg».proof.Proof.Gen.Kernel
import proofs.«206247_g21887153341054_retrytranche2_883_16_alg».proof.Proof.Gen.Kernel.Skeleton
import proofs.«206247_g21887153341054_retrytranche2_883_16_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array, the table, the looked-up rows, the positions: as locations of device `d`. -/
abbrev iLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0_0
abbrev pLoc (d : Dev nD) : Loc nD τ sig := (SparseCore.T d).loc main_v0_1

/-- The index array's contents at launch, and the table's. -/
abbrev idsOf (d : Dev nD) : IVec Cert.Lookup.SIds 32 := m (iLoc d)
abbrev tabOf (d : Dev nD) : FVec F Cert.Lookup.STab .f32 := m (tLoc d)

/-- What the proof asks of the launch memory: every index names a row of the table. -/
def PreOK : Prop := ∀ d : Dev nD, Cert.Lookup.IdsOK (idsOf m d)

/-- The two results as the specification gives them from the launch memory. -/
def rowsAt (d : Dev nD) : Buf (Elt F) (oLoc d) := Cert.Lookup.rows (idsOf m d) (tabOf m d)
def posAt (d : Dev nD) : Buf (Elt F) (pLoc d) := Cert.Lookup.positions

local notation "tV" => (Memref.whole Cert.Kernel.main_arg1_scv : Memref Cert.Kernel.sig Kind.scVector Space.hbm Cert.Kernel.S1000000x128 EltTy.f32)
local notation "iV" => (Memref.whole Cert.Kernel.main_arg0_scv : Memref Cert.Kernel.sig Kind.scVector Space.hbm Cert.Kernel.S4x8192 EltTy.i32)
local notation "oV" => (Memref.whole Cert.Kernel.main_v0_0_scv : Memref Cert.Kernel.sig Kind.scVector Space.hbm Cert.Kernel.S4x8192x128 EltTy.f32)
local notation "pV" => (Memref.whole Cert.Kernel.main_v0_1_scv : Memref Cert.Kernel.sig Kind.scVector Space.hbm Cert.Kernel.S4x8192 EltTy.i32)

/-! ## A task's pieces, as its own slices name them -/

/-- The task's stretch of the index array, and of the positions (the same rectangle of the other array). -/
abbrev strip (L : grid0.Coords) : Rect S4x8192 := Rect.unit (s := S4x8192) (k0_off1 L) S1x1024.size (k0_off1_inb L)
abbrev iRowK (L : grid0.Coords) : Memref sig .scVector .hbm S1024 .i32 := ((iV).slice (strip L) (fun _ => rfl)).squeeze S1024 squeezes_S1x1024_S1024
abbrev pRowK (L : grid0.Coords) : Memref sig .scVector .hbm S1024 .i32 := ((pV).slice (strip L) (fun _ => rfl)).squeeze S1024 squeezes_S1x1024_S1024
/-- Chunk `r` of the task's block of the looked-up rows: 128 rows of 128 entries. -/
abbrev chunk (L : grid0.Coords) (r : Fin 8) : Rect S4x8192x128 :=
  Rect.unit (s := S4x8192x128) (k0_off2 L (BitVec.ofNat 32 (128 * r.val))) S1x128x128.size (k0_off2_inb L r)
abbrev oBlkK (L : grid0.Coords) (r : Fin 8) : Memref sig .scVector .hbm S128x128 .f32 :=
  ((oV).slice (chunk L r) (fun _ => rfl)).squeeze S128x128 squeezes_S1x128x128_S128x128

abbrev stripSet (L : grid0.Coords) : Finset S4x8192.Idx := (iRowK L).view.set
abbrev chunkSet (L : grid0.Coords) (r : Fin 8) : Finset S4x8192x128.Idx := (oBlkK L r).view.set

/-- The share of the table task `w` reads through: one of thirty-two read tokens of the whole. -/
abbrev wOf (L : grid0.Coords) : ℕ := 2 * (L 1).val + (L 0).val
abbrev tq (L : grid0.Coords) : PosShare TreeShare := Transfers.shareTokN fullShare (wOf L)

variable [FloatOps F]

/-- What a task is handed: its stretch of the indices, its token of the table, its eight chunks of the first result and
    its stretch of the second, the results' at their launch contents. -/
def tileGo (d : Dev nD) (L : grid0.Coords) : sProp 𝕄 :=
  iprop((iLoc d ↦[stripSet L]{fullShare} m (iLoc d)) ∗ (tLoc d ↦{tq L} m (tLoc d))
    ∗ (bigSep Finset.univ fun r : Fin 8 => oLoc d ↦[chunkSet L r]{fullShare} m (oLoc d))
    ∗ (pLoc d ↦[stripSet L]{fullShare} m (pLoc d)))

/-- What it hands back: the same, the results' pieces at the specification. -/
def tileTd (d : Dev nD) (L : grid0.Coords) : sProp 𝕄 :=
  iprop((iLoc d ↦[stripSet L]{fullShare} m (iLoc d)) ∗ (tLoc d ↦{tq L} m (tLoc d))
    ∗ (bigSep Finset.univ fun r : Fin 8 => oLoc d ↦[chunkSet L r]{fullShare} rowsAt m d)
    ∗ (pLoc d ↦[stripSet L]{fullShare} posAt (F := F) d))

def coordsV (c : Fin (grid0.bound 0)) (s : Fin (grid0.bound 1)) : grid0.Coords :=
  fun | 0 => c | 1 => s | ⟨_ + 2, h⟩ => absurd h (Nat.not_lt.2 (Nat.le_add_left _ _))

/-- The call hands each SparseCore its sixteen tasks' pieces, each task its own, and takes them back. -/
def P : (K (F := F)).Pay (nD := nD) (Val := Elt F) (Name := ℕ) (U := UU) where
  st := fun q d c => match q with
    | 0 => bigSep Finset.univ fun i : Fin 16 => tileGo m d (coordsV (Fin.cast nCore_zero c) i)
  dn := fun q d c => match q with
    | 0 => bigSep Finset.univ fun i : Fin 16 => tileTd m d (coordsV (Fin.cast nCore_zero c) i)
  go := fun q d c i => match q with
    | 0 => tileGo m d (coordsV (Fin.cast nCore_zero c) (Fin.cast nSub_zero i))
  td := fun q d c i => match q with
    | 0 => tileTd m d (coordsV (Fin.cast nCore_zero c) (Fin.cast nSub_zero i))
  x := fun _ _ => iprop(emp)

instance tileGo_storable (d : Dev nD) (L : grid0.Coords) : BI.Storable (upEmb : UEmb _ 𝕄) (tileGo m d L) := by
  unfold tileGo; infer_instance
instance tileTd_storable (d : Dev nD) (L : grid0.Coords) : BI.Storable (upEmb : UEmb _ 𝕄) (tileTd m d L) := by
  unfold tileTd; infer_instance

instance P_storable : (P (F := F) m).IsStorable where
  st q d c := match q with
    | 0 => by
      haveI : ∀ i : Fin 16, BI.Storable (upEmb : UEmb _ 𝕄) (tileGo m d (coordsV (Fin.cast nCore_zero c) i)) := fun i => tileGo_storable m d _
      exact (inferInstance : BI.Storable (upEmb : UEmb _ 𝕄) (bigSep Finset.univ fun i : Fin 16 => tileGo m d (coordsV (Fin.cast nCore_zero c) i)))
  dn q d c := match q with
    | 0 => by
      haveI : ∀ i : Fin 16, BI.Storable (upEmb : UEmb _ 𝕄) (tileTd m d (coordsV (Fin.cast nCore_zero c) i)) := fun i => tileTd_storable m d _
      exact (inferInstance : BI.Storable (upEmb : UEmb _ 𝕄) (bigSep Finset.univ fun i : Fin 16 => tileTd m d (coordsV (Fin.cast nCore_zero c) i)))
  go q d c i := match q with
    | 0 => (inferInstance : BI.Storable (upEmb : UEmb _ 𝕄) (tileGo m d (coordsV (Fin.cast nCore_zero c) (Fin.cast nSub_zero i))))
  td q d c i := match q with
    | 0 => (inferInstance : BI.Storable (upEmb : UEmb _ 𝕄) (tileTd m d (coordsV (Fin.cast nCore_zero c) (Fin.cast nSub_zero i))))

end Cert.LookupBits

end
-- ==== Proof.BitsValue.lean ====
/-
  The two value facts of the lookup kernel's task, as index reasoning over the task's own slices.

  The looked-up chunk. After its fetch the index scratch holds the task's stretch of the index array: entry j is the
  index at (row, col + j). Window r of it, entries [128 r, 128 r + 128), names as rows of the table the indices at
  (row, col + 128 r + k); the gather delivers, at entry (k, e) of its destination, the table at (that row, e); and entry
  (k, e) of chunk r of the task's block of the first result is the result at (row, col + 128 r + k, e), because the chunk's
  printed offsets are the stretch's, moved 128 r along the sequence. Where every index names a row of the table the
  specification's clamp is the identity, so the two agree.

  The positions. Sixty-four stores of sixteen lanes each fill the position scratch; the store at offset c writes, at lane
  l, the stretch's first position plus c plus l. So entry y of the scratch holds the stretch's first position plus y,
  which, the stretch lying inside the sequence, is the position of entry y of the task's stretch of the second result.
-/
import proofs.«206247_g21887153341054_retrytranche2_883_16_alg».proof.Proof.BitsSetup
import Idealize.ShloMosaic.Lib.Pipeline.Value
import Idealize.ShloMosaic.Lib.Writes
import Idealize.ShloMosaic.Lib.ValueIdx

noncomputable section

namespace Cert.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "tV" => (Memref.whole Cert.Kernel.main_arg1_scv : Memref Cert.Kernel.sig Kind.scVector Space.hbm Cert.Kernel.S1000000x128 EltTy.f32)
local notation "iV" => (Memref.whole Cert.Kernel.main_arg0_scv : Memref Cert.Kernel.sig Kind.scVector Space.hbm Cert.Kernel.S4x8192 EltTy.i32)
local notation "oV" => (Memref.whole Cert.Kernel.main_v0_0_scv : Memref Cert.Kernel.sig Kind.scVector Space.hbm Cert.Kernel.S4x8192x128 EltTy.f32)
local notation "pV" => (Memref.whole Cert.Kernel.main_v0_1_scv : Memref Cert.Kernel.sig Kind.scVector Space.hbm Cert.Kernel.S4x8192 EltTy.i32)
local notation "s0" => (Memref.whole Cert.Kernel.cc0_scratch0 : Memref Cert.Kernel.sig Kind.scVector Space.vmem Cert.Kernel.S1024 EltTy.i32)
local notation "s1" => (Memref.whole Cert.Kernel.cc0_scratch1 : Memref Cert.Kernel.sig Kind.scVector Space.vmem Cert.Kernel.S1024 EltTy.i32)

variable (m : (ℓ : Loc nD τ sig) → Buf (Elt F) ℓ)

/-! ## The looked-up chunk -/

/-- The two printed offset chains agree: the chunk's offsets are the stretch's, 128 r further along the sequence. -/
theorem chunk_off_eq : ∀ L : grid0.Coords, ∀ r : Fin 8, ∀ a : Fin 3,
    k0_off2 L (BitVec.ofNat 32 (128 * r.val)) a = (![k0_off1 L 0, k0_off1 L 1 + 128 * r.val, 0] : Fin 3 → Nat) a := by
  decide +kernel

theorem off1_row_lt (L : grid0.Coords) : k0_off1 L 0 < 4 := by
  have := k0_off1_inb L 0; change k0_off1 L 0 + 1 ≤ 4 at this; omega
theorem off1_col_le (L : grid0.Coords) : k0_off1 L 1 + 1024 ≤ 8192 := k0_off1_inb L 1

/-- The sequence the task works in, and a position of its stretch, as coordinates of the index array. -/
abbrev rowC (L : grid0.Coords) : Fin 4 := ⟨k0_off1 L 0, off1_row_lt L⟩
abbrev colC (L : grid0.Coords) (n : Nat) (h : n < 1024) : Fin 8192 := ⟨k0_off1 L 1 + n, by have := off1_col_le L; omega⟩

theorem idx128_lt (x : S128.Idx) : (x 0).val < 128 := (x 0).isLt
theorem idx128x128_lt0 (y : S128x128.Idx) : (y 0).val < 128 := (y 0).isLt
theorem idx128x128_lt1 (y : S128x128.Idx) : (y 1).val < 128 := (y 1).isLt

/-- The task's stretch of the index array, entry j: the array at (row, col + j). -/
theorem iRow_emb (L : grid0.Coords) (j : S1024.Idx) :
    (iRowK L).view.emb j = (ix2 (rowC L) (colC L (j 0).val (j 0).isLt) : S4x8192.Idx) := by
  funext a
  refine Fin.ext ?_
  show ((strip L).emb (Shape.reshapeEquiv squeezes_S1x1024_S1024.numel_eq j) a : Nat) = _
  rw [Rect.emb_apply, Shape.reshapeEquiv_cons_one]
  match a with
  | ⟨0, _⟩ => show k0_off1 L 0 + 1 * 0 = k0_off1 L 0; omega
  | ⟨1, _⟩ => show k0_off1 L 1 + 1 * (j 0).val = k0_off1 L 1 + (j 0).val; omega

theorem iRow_read (d : Dev nD) (L : grid0.Coords) (j : S1024.Idx) :
    View.read (Elt F) (iRowK L).view (m (iLoc d)) j = idsOf m d (ix2 (rowC L) (colC L (j 0).val (j 0).isLt)) := by
  rw [View.read_apply, iRow_emb]
  exact cast_eq _ _

/-- Window r of the index scratch after the fetch, entry x: the index at (row, col + 128 r + x). -/
theorem s0_window_read (d : Dev nD) (L : grid0.Coords) (r : Fin 8)
    (hk : ∀ a, (![128 * r.val] : Fin 1 → Nat) a + S128.size a ≤ S1024.size a)
    (g : (s0).view.ty.Contents (Elt F)) (x : S128.Idx) :
    View.read (Elt F) ((s0).slice (Rect.unit (s := S1024) ![128 * r.val] S128.size hk) (fun _ => rfl)).view
        (View.write (Elt F) (s0).view g (ReadAs.same.apply (View.read (Elt F) (iRowK L).view (m (iLoc d)))) Finset.univ) x
      = idsOf m d (ix2 (rowC L) (colC L (128 * r.val + (x 0).val) (by have := idx128_lt x; have := r.isLt; omega))) := by
  rw [View.read_apply]
  refine (cast_eq _ _).trans ?_
  rw [ReadAs.apply_same]
  have hw : View.write (Elt F) (s0).view g (View.read (Elt F) (iRowK L).view (m (iLoc d))) Finset.univ
      = View.read (Elt F) (iRowK L).view (m (iLoc d)) :=
    View.write_whole_univ cc0_scratch0 g (View.read (Elt F) (iRowK L).view (m (iLoc d)))
  rw [hw, iRow_read]
  have hc : (((s0).slice (Rect.unit (s := S1024) ![128 * r.val] S128.size hk) (fun _ => rfl)).view.emb x 0).val
      = 128 * r.val + (x 0).val := by
    show 128 * r.val + 1 * (x 0).val = _; omega
  exact congrArg (fun c : Fin 8192 => idsOf m d (ix2 (rowC L) c)) (Fin.ext (congrArg (k0_off1 L 1 + ·) hc))

/-- The chunk's place in the first result: entry y of chunk r is the result at (row, col + 128 r + y₀, y₁). -/
theorem oBlk_emb (L : grid0.Coords) (r : Fin 8) (y : S128x128.Idx) :
    (oBlkK L r).view.emb y
      = (ix3 (rowC L) (⟨k0_off1 L 1 + 128 * r.val + (y 0).val, by
            have := off1_col_le L; have := r.isLt; have := idx128x128_lt0 y; omega⟩ : Fin 8192)
          (⟨(y 1).val, idx128x128_lt1 y⟩ : Fin 128) : S4x8192x128.Idx) := by
  funext a
  refine Fin.ext ?_
  show ((chunk L r).emb (Shape.reshapeEquiv squeezes_S1x128x128_S128x128.numel_eq y) a : Nat) = _
  rw [Rect.emb_apply, Shape.reshapeEquiv_cons_one]
  match a with
  | ⟨0, _⟩ =>
    show k0_off2 L (BitVec.ofNat 32 (128 * r.val)) 0 + 1 * 0 = k0_off1 L 0
    rw [chunk_off_eq L r 0]; show k0_off1 L 0 + 1 * 0 = _; omega
  | ⟨1, _⟩ =>
    show k0_off2 L (BitVec.ofNat 32 (128 * r.val)) 1 + 1 * (y 0).val = k0_off1 L 1 + 128 * r.val + (y 0).val
    rw [chunk_off_eq L r 1]; show k0_off1 L 1 + 128 * r.val + 1 * (y 0).val = _; omega
  | ⟨2, _⟩ =>
    show k0_off2 L (BitVec.ofNat 32 (128 * r.val)) 2 + 1 * (y 1).val = (y 1).val
    rw [chunk_off_eq L r 2]; show 0 + 1 * (y 1).val = _; omega

/-- The table read through the task's whole-array slice is the table. -/
theorem tV_emb (x : S1000000x128.Idx) :
    ((tV).slice (Rect.unit (s := S1000000x128) ![0, 0] S1000000x128.size inb_S1000000x128_S1000000x128_0_0) (fun _ => rfl)).view.emb x = x := by
  funext a
  refine Fin.ext ?_
  match a with
  | ⟨0, _⟩ => show 0 + 1 * (x 0).val = (x 0).val; omega
  | ⟨1, _⟩ => show 0 + 1 * (x 1).val = (x 1).val; omega

/-- A rank-one index read back from its row-major position is that position. -/
theorem rowMajor_symm_one (k : Fin S128.numel) : ((S128.rowMajor.symm k) 0).val = k.val := by
  have := Shape.rowMajor_val_one (d := ![128]) (S128.rowMajor.symm k)
  rw [Equiv.apply_symm_apply] at this
  exact this.symm

/-- The gather's source index for entry y of the destination: the row the list names for y₀, the column y₁. -/
theorem gathers_idx_eq (idxf : S128.Idx → Elt F .i32) (hn : S128.numel = S128x128.size gathers_S1000000x128_S128x128.axis')
    (hin : ∀ x, (idxf x).toNat < S1000000x128.size gathers_S1000000x128_S128x128.axis) (y : S128x128.Idx) :
    gathers_S1000000x128_S128x128.idx (SparseCore.rows idxf hn hin) y
      = (ix2 (⟨(idxf (ix1 ⟨(y 0).val, idx128x128_lt0 y⟩)).toNat, hin _⟩ : Fin 1000000)
          (⟨(y 1).val, idx128x128_lt1 y⟩ : Fin 128) : S1000000x128.Idx) := by
  funext a
  refine Fin.ext ?_
  match a with
  | ⟨0, _⟩ =>
    refine (congrArg Fin.val (Shape.Gathers.idx_axis gathers_S1000000x128_S128x128 (SparseCore.rows idxf hn hin) y)).trans ?_
    show (idxf (S128.rowMajor.symm _)).toNat = (idxf (ix1 _)).toNat
    refine congrArg (fun q : S128.Idx => (idxf q).toNat) ?_
    funext b
    refine Fin.ext ?_
    match b with
    | ⟨0, _⟩ => exact rowMajor_symm_one _
  | ⟨1, _⟩ =>
    exact Shape.Gathers.idx_of_ne gathers_S1000000x128_S128x128 (SparseCore.rows idxf hn hin) y ⟨1, by decide⟩ (by decide)

/-- THE LOOKED-UP CHUNK: what the gather of window r of the fetched indices delivers, at entry y, is the
    specification's first result at the entry's place in the task's chunk r. -/
theorem chunk_value (hok : PreOK m) (d : Dev nD) (L : grid0.Coords) (r : Fin 8)
    (hk : ∀ a, (![128 * r.val] : Fin 1 → Nat) a + S128.size a ≤ S1024.size a)
    (g : (s0).view.ty.Contents (Elt F))
    (hn : S128.numel = S128x128.size gathers_S1000000x128_S128x128.axis')
    (hin : ∀ x, (View.read (Elt F) ((s0).slice (Rect.unit (s := S1024) ![128 * r.val] S128.size hk) (fun _ => rfl)).view
        (View.write (Elt F) (s0).view g (ReadAs.same.apply (View.read (Elt F) (iRowK L).view (m (iLoc d)))) Finset.univ) x).toNat
          < S1000000x128.size gathers_S1000000x128_S128x128.axis)
    (y : S128x128.Idx) :
    SparseCore.gatherPayload gathers_S1000000x128_S128x128
        (View.read (Elt F) ((tV).slice (Rect.unit (s := S1000000x128) ![0, 0] S1000000x128.size inb_S1000000x128_S1000000x128_0_0) (fun _ => rfl)).view (m (tLoc d)))
        (SparseCore.rows (View.read (Elt F) ((s0).slice (Rect.unit (s := S1024) ![128 * r.val] S128.size hk) (fun _ => rfl)).view
          (View.write (Elt F) (s0).view g (ReadAs.same.apply (View.read (Elt F) (iRowK L).view (m (iLoc d)))) Finset.univ)) hn hin) y
      = rowsAt m d ((oBlkK L r).view.emb y) := by
  unfold SparseCore.gatherPayload
  rw [View.read_apply]
  refine (cast_eq _ _).trans ?_
  rw [oBlk_emb, tV_emb, gathers_idx_eq]
  unfold rowsAt Cert.Lookup.rows
  refine congrArg (fun q : Fin 1000000 => m (tLoc d) (ix2 q (⟨(y 1).val, idx128x128_lt1 y⟩ : Fin 128))) (Fin.ext ?_)
  show (View.read (Elt F) ((s0).slice (Rect.unit (s := S1024) ![128 * r.val] S128.size hk) (fun _ => rfl)).view
        (View.write (Elt F) (s0).view g (ReadAs.same.apply (View.read (Elt F) (iRowK L).view (m (iLoc d)))) Finset.univ)
        (ix1 ⟨(y 0).val, idx128x128_lt0 y⟩)).toNat = (Cert.Lookup.rowOf (idsOf m d (ix2 (rowC L) _))).val
  rw [s0_window_read, Cert.Lookup.rowOf_val (hok d _)]
  exact congrArg (fun c : Fin 8192 => (idsOf m d (ix2 (rowC L) c)).toNat) (Fin.ext (by show k0_off1 L 1 + (128 * r.val + (y 0).val) = k0_off1 L 1 + 128 * r.val + (y 0).val; omega))

/-! ## The positions -/

/-- The payload of one 16-lane store: the lane number plus the stretch's first position plus the store's offset. -/
def payAt (v29 c : BitVec 32) : IVec S16 32 :=
  shapeCast S16 (addi (iota .scVector S16 32 [0] iota_S16_d0_w32_scVector) (broadcast S16 (Scalar.addi v29 c))) shapeCasts_S16_S16

theorem payAt_apply (v29 c : BitVec 32) (x : S16.Idx) : payAt v29 c x = v29 + c + BitVec.ofNat 32 (x 0).val := by
  unfold payAt
  rw [shapeCast_self]
  show IntOp.addi (iota .scVector S16 32 [0] iota_S16_d0_w32_scVector x) (Scalar.addi v29 c) = _
  rw [iota_single_apply]
  show BitVec.ofNat 32 (x 0).val + (v29 + c) = _
  exact BitVec.add_comm _ _

/-- The sixty-four stores of the positions, the last first. -/
def posPieces (v29 : BitVec 32) : List (View.Piece (Elt F) S1024 .i32) :=
  [ ⟨Rect.unit (s := S1024) ![1008] S16.size inb_S1024_S16_1008, payAt v29 1008#32⟩,
    ⟨Rect.unit (s := S1024) ![992] S16.size inb_S1024_S16_992, payAt v29 992#32⟩,
    ⟨Rect.unit (s := S1024) ![976] S16.size inb_S1024_S16_976, payAt v29 976#32⟩,
    ⟨Rect.unit (s := S1024) ![960] S16.size inb_S1024_S16_960, payAt v29 960#32⟩,
    ⟨Rect.unit (s := S1024) ![944] S16.size inb_S1024_S16_944, payAt v29 944#32⟩,
    ⟨Rect.unit (s := S1024) ![928] S16.size inb_S1024_S16_928, payAt v29 928#32⟩,
    ⟨Rect.unit (s := S1024) ![912] S16.size inb_S1024_S16_912, payAt v29 912#32⟩,
    ⟨Rect.unit (s := S1024) ![896] S16.size inb_S1024_S16_896, payAt v29 896#32⟩,
    ⟨Rect.unit (s := S1024) ![880] S16.size inb_S1024_S16_880, payAt v29 880#32⟩,
    ⟨Rect.unit (s := S1024) ![864] S16.size inb_S1024_S16_864, payAt v29 864#32⟩,
    ⟨Rect.unit (s := S1024) ![848] S16.size inb_S1024_S16_848, payAt v29 848#32⟩,
    ⟨Rect.unit (s := S1024) ![832] S16.size inb_S1024_S16_832, payAt v29 832#32⟩,
    ⟨Rect.unit (s := S1024) ![816] S16.size inb_S1024_S16_816, payAt v29 816#32⟩,
    ⟨Rect.unit (s := S1024) ![800] S16.size inb_S1024_S16_800, payAt v29 800#32⟩,
    ⟨Rect.unit (s := S1024) ![784] S16.size inb_S1024_S16_784, payAt v29 784#32⟩,
    ⟨Rect.unit (s := S1024) ![768] S16.size inb_S1024_S16_768, payAt v29 768#32⟩,
    ⟨Rect.unit (s := S1024) ![752] S16.size inb_S1024_S16_752, payAt v29 752#32⟩,
    ⟨Rect.unit (s := S1024) ![736] S16.size inb_S1024_S16_736, payAt v29 736#32⟩,
    ⟨Rect.unit (s := S1024) ![720] S16.size inb_S1024_S16_720, payAt v29 720#32⟩,
    ⟨Rect.unit (s := S1024) ![704] S16.size inb_S1024_S16_704, payAt v29 704#32⟩,
    ⟨Rect.unit (s := S1024) ![688] S16.size inb_S1024_S16_688, payAt v29 688#32⟩,
    ⟨Rect.unit (s := S1024) ![672] S16.size inb_S1024_S16_672, payAt v29 672#32⟩,
    ⟨Rect.unit (s := S1024) ![656] S16.size inb_S1024_S16_656, payAt v29 656#32⟩,
    ⟨Rect.unit (s := S1024) ![640] S16.size inb_S1024_S16_640, payAt v29 640#32⟩,
    ⟨Rect.unit (s := S1024) ![624] S16.size inb_S1024_S16_624, payAt v29 624#32⟩,
    ⟨Rect.unit (s := S1024) ![608] S16.size inb_S1024_S16_608, payAt v29 608#32⟩,
    ⟨Rect.unit (s := S1024) ![592] S16.size inb_S1024_S16_592, payAt v29 592#32⟩,
    ⟨Rect.unit (s := S1024) ![576] S16.size inb_S1024_S16_576, payAt v29 576#32⟩,
    ⟨Rect.unit (s := S1024) ![560] S16.size inb_S1024_S16_560, payAt v29 560#32⟩,
    ⟨Rect.unit (s := S1024) ![544] S16.size inb_S1024_S16_544, payAt v29 544#32⟩,
    ⟨Rect.unit (s := S1024) ![528] S16.size inb_S1024_S16_528, payAt v29 528#32⟩,
    ⟨Rect.unit (s := S1024) ![512] S16.size inb_S1024_S16_512, payAt v29 512#32⟩,
    ⟨Rect.unit (s := S1024) ![496] S16.size inb_S1024_S16_496, payAt v29 496#32⟩,
    ⟨Rect.unit (s := S1024) ![480] S16.size inb_S1024_S16_480, payAt v29 480#32⟩,
    ⟨Rect.unit (s := S1024) ![464] S16.size inb_S1024_S16_464, payAt v29 464#32⟩,
    ⟨Rect.unit (s := S1024) ![448] S16.size inb_S1024_S16_448, payAt v29 448#32⟩,
    ⟨Rect.unit (s := S1024) ![432] S16.size inb_S1024_S16_432, payAt v29 432#32⟩,
    ⟨Rect.unit (s := S1024) ![416] S16.size inb_S1024_S16_416, payAt v29 416#32⟩,
    ⟨Rect.unit (s := S1024) ![400] S16.size inb_S1024_S16_400, payAt v29 400#32⟩,
    ⟨Rect.unit (s := S1024) ![384] S16.size inb_S1024_S16_384, payAt v29 384#32⟩,
    ⟨Rect.unit (s := S1024) ![368] S16.size inb_S1024_S16_368, payAt v29 368#32⟩,
    ⟨Rect.unit (s := S1024) ![352] S16.size inb_S1024_S16_352, payAt v29 352#32⟩,
    ⟨Rect.unit (s := S1024) ![336] S16.size inb_S1024_S16_336, payAt v29 336#32⟩,
    ⟨Rect.unit (s := S1024) ![320] S16.size inb_S1024_S16_320, payAt v29 320#32⟩,
    ⟨Rect.unit (s := S1024) ![304] S16.size inb_S1024_S16_304, payAt v29 304#32⟩,
    ⟨Rect.unit (s := S1024) ![288] S16.size inb_S1024_S16_288, payAt v29 288#32⟩,
    ⟨Rect.unit (s := S1024) ![272] S16.size inb_S1024_S16_272, payAt v29 272#32⟩,
    ⟨Rect.unit (s := S1024) ![256] S16.size inb_S1024_S16_256, payAt v29 256#32⟩,
    ⟨Rect.unit (s := S1024) ![240] S16.size inb_S1024_S16_240, payAt v29 240#32⟩,
    ⟨Rect.unit (s := S1024) ![224] S16.size inb_S1024_S16_224, payAt v29 224#32⟩,
    ⟨Rect.unit (s := S1024) ![208] S16.size inb_S1024_S16_208, payAt v29 208#32⟩,
    ⟨Rect.unit (s := S1024) ![192] S16.size inb_S1024_S16_192, payAt v29 192#32⟩,
    ⟨Rect.unit (s := S1024) ![176] S16.size inb_S1024_S16_176, payAt v29 176#32⟩,
    ⟨Rect.unit (s := S1024) ![160] S16.size inb_S1024_S16_160, payAt v29 160#32⟩,
    ⟨Rect.unit (s := S1024) ![144] S16.size inb_S1024_S16_144, payAt v29 144#32⟩,
    ⟨Rect.unit (s := S1024) ![128] S16.size inb_S1024_S16_128, payAt v29 128#32⟩,
    ⟨Rect.unit (s := S1024) ![112] S16.size inb_S1024_S16_112, payAt v29 112#32⟩,
    ⟨Rect.unit (s := S1024) ![96] S16.size inb_S1024_S16_96, payAt v29 96#32⟩,
    ⟨Rect.unit (s := S1024) ![80] S16.size inb_S1024_S16_80, payAt v29 80#32⟩,
    ⟨Rect.unit (s := S1024) ![64] S16.size inb_S1024_S16_64, payAt v29 64#32⟩,
    ⟨Rect.unit (s := S1024) ![48] S16.size inb_S1024_S16_48, payAt v29 48#32⟩,
    ⟨Rect.unit (s := S1024) ![32] S16.size inb_S1024_S16_32, payAt v29 32#32⟩,
    ⟨Rect.unit (s := S1024) ![16] S16.size inb_S1024_S16_16, payAt v29 16#32⟩,
    ⟨Rect.unit (s := S1024) ![0] S16.size inb_S1024_S16_0, payAt v29 0#32⟩ ]

/-- The positions of the stretch as one function of the scratch's index. -/
def posG (v29 : BitVec 32) : S1024.Idx → BitVec 32 := fun y => v29 + BitVec.ofNat 32 (y 0).val

theorem piece_agrees (v29 c : BitVec 32) (n : Nat) (hc : c = BitVec.ofNat 32 n)
    (inb : ∀ a, (![n] : Fin 1 → Nat) a + S16.size a ≤ S1024.size a) (x : S16.Idx) :
    payAt v29 c x = posG v29 ((Rect.unit (s := S1024) ![n] S16.size inb).emb x) := by
  rw [payAt_apply]
  unfold posG
  have he : (((Rect.unit (s := S1024) ![n] S16.size inb).emb x) 0).val = n + (x 0).val := by
    show n + 1 * (x 0).val = _; omega
  rw [he, hc, BitVec.add_assoc, BitVec.ofNat_add]

theorem pieces_agree (v29 : BitVec 32) :
    ∀ p ∈ posPieces (F := F) v29, ∀ x : p.1.shape.Idx, p.2 x = posG v29 (p.1.emb x) := by
  simp only [posPieces, List.forall_mem_cons, List.not_mem_nil, false_imp_iff, implies_true, and_true]
  repeat' apply And.intro
  all_goals exact fun x => piece_agrees _ _ _ rfl _ x

theorem mem_piece (c : Nat) (inb : ∀ a, (![c] : Fin 1 → Nat) a + S16.size a ≤ S1024.size a) (y : S1024.Idx)
    (h1 : c ≤ (y 0).val) (h2 : (y 0).val < c + 16) : y ∈ (Rect.unit (s := S1024) ![c] S16.size inb).set :=
  Rect.mem_set_unit.mpr (fun a => by obtain rfl : a = 0 := Subsingleton.elim _ _; exact ⟨h1, h2⟩)

/-- Every entry of the scratch lies in one of the sixty-four stores: the one of its block of 16. -/
theorem pieces_cover (v29 : BitVec 32) (y : S1024.Idx) : ∃ p ∈ posPieces (F := F) v29, y ∈ p.1.set := by
  have hy : (y 0).val < 1024 := (y 0).isLt
  have hlt : (y 0).val / 16 < 64 := by omega
  generalize hq : (y 0).val / 16 = q at hlt
  interval_cases q
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))))))))))))), mem_piece 0 inb_S1024_S16_0 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))))))))))))), mem_piece 16 inb_S1024_S16_16 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))))))))))), mem_piece 32 inb_S1024_S16_32 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))))))))))), mem_piece 48 inb_S1024_S16_48 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))))))))), mem_piece 64 inb_S1024_S16_64 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))))))))), mem_piece 80 inb_S1024_S16_80 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))))))), mem_piece 96 inb_S1024_S16_96 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))))))), mem_piece 112 inb_S1024_S16_112 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))))), mem_piece 128 inb_S1024_S16_128 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))))), mem_piece 144 inb_S1024_S16_144 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))))), mem_piece 160 inb_S1024_S16_160 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))))), mem_piece 176 inb_S1024_S16_176 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))))), mem_piece 192 inb_S1024_S16_192 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))), mem_piece 208 inb_S1024_S16_208 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))), mem_piece 224 inb_S1024_S16_224 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))), mem_piece 240 inb_S1024_S16_240 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))), mem_piece 256 inb_S1024_S16_256 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))), mem_piece 272 inb_S1024_S16_272 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))), mem_piece 288 inb_S1024_S16_288 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))), mem_piece 304 inb_S1024_S16_304 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))), mem_piece 320 inb_S1024_S16_320 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))), mem_piece 336 inb_S1024_S16_336 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))), mem_piece 352 inb_S1024_S16_352 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))), mem_piece 368 inb_S1024_S16_368 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))), mem_piece 384 inb_S1024_S16_384 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))), mem_piece 400 inb_S1024_S16_400 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))), mem_piece 416 inb_S1024_S16_416 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))), mem_piece 432 inb_S1024_S16_432 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))), mem_piece 448 inb_S1024_S16_448 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))), mem_piece 464 inb_S1024_S16_464 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))), mem_piece 480 inb_S1024_S16_480 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))), mem_piece 496 inb_S1024_S16_496 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))), mem_piece 512 inb_S1024_S16_512 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))), mem_piece 528 inb_S1024_S16_528 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))), mem_piece 544 inb_S1024_S16_544 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))), mem_piece 560 inb_S1024_S16_560 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))), mem_piece 576 inb_S1024_S16_576 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))), mem_piece 592 inb_S1024_S16_592 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))), mem_piece 608 inb_S1024_S16_608 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))), mem_piece 624 inb_S1024_S16_624 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))), mem_piece 640 inb_S1024_S16_640 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))), mem_piece 656 inb_S1024_S16_656 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))), mem_piece 672 inb_S1024_S16_672 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))), mem_piece 688 inb_S1024_S16_688 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))), mem_piece 704 inb_S1024_S16_704 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))), mem_piece 720 inb_S1024_S16_720 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))), mem_piece 736 inb_S1024_S16_736 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))), mem_piece 752 inb_S1024_S16_752 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), mem_piece 768 inb_S1024_S16_768 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_piece 784 inb_S1024_S16_784 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_piece 800 inb_S1024_S16_800 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_piece 816 inb_S1024_S16_816 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_piece 832 inb_S1024_S16_832 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_piece 848 inb_S1024_S16_848 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_piece 864 inb_S1024_S16_864 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_piece 880 inb_S1024_S16_880 y (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_piece 896 inb_S1024_S16_896 y (by omega) (by omega)⟩
  · exact ⟨_, (List.mem_cons_of_mem _ (List.mem_cons_of_mem _ (List.mem_cons_of_mem _ (List.mem_cons_of_mem _ (List.mem_cons_of_mem _ (List.mem_cons_of_mem _ List.mem_cons_self)))))), mem_piece 912 inb_S1024_S16_912 y (by omega) (by omega)⟩
  · exact ⟨_, (List.mem_cons_of_mem _ (List.mem_cons_of_mem _ (List.mem_cons_of_mem _ (List.mem_cons_of_mem _ (List.mem_cons_of_mem _ List.mem_cons_self))))), mem_piece 928 inb_S1024_S16_928 y (by omega) (by omega)⟩
  · exact ⟨_, (List.mem_cons_of_mem _ (List.mem_cons_of_mem _ (List.mem_cons_of_mem _ (List.mem_cons_of_mem _ List.mem_cons_self)))), mem_piece 944 inb_S1024_S16_944 y (by omega) (by omega)⟩
  · exact ⟨_, (List.mem_cons_of_mem _ (List.mem_cons_of_mem _ (List.mem_cons_of_mem _ List.mem_cons_self))), mem_piece 960 inb_S1024_S16_960 y (by omega) (by omega)⟩
  · exact ⟨_, (List.mem_cons_of_mem _ (List.mem_cons_of_mem _ List.mem_cons_self)), mem_piece 976 inb_S1024_S16_976 y (by omega) (by omega)⟩
  · exact ⟨_, (List.mem_cons_of_mem _ List.mem_cons_self), mem_piece 992 inb_S1024_S16_992 y (by omega) (by omega)⟩
  · exact ⟨_, List.mem_cons_self, mem_piece 1008 inb_S1024_S16_1008 y (by omega) (by omega)⟩

/-- The task's stretch of the positions, entry j: the array at (row, col + j). -/
theorem pRow_emb (L : grid0.Coords) (j : S1024.Idx) :
    (pRowK L).view.emb j = (ix2 (rowC L) (colC L (j 0).val (j 0).isLt) : S4x8192.Idx) := by
  funext a
  refine Fin.ext ?_
  show ((strip L).emb (Shape.reshapeEquiv squeezes_S1x1024_S1024.numel_eq j) a : Nat) = _
  rw [Rect.emb_apply, Shape.reshapeEquiv_cons_one]
  match a with
  | ⟨0, _⟩ => show k0_off1 L 0 + 1 * 0 = k0_off1 L 0; omega
  | ⟨1, _⟩ => show k0_off1 L 1 + 1 * (j 0).val = k0_off1 L 1 + (j 0).val; omega

/-- THE POSITIONS: after the sixty-four stores the position scratch reads, at every entry, the specification's
    second result at the entry's place in the task's stretch. -/
theorem pos_value (d : Dev nD) (L : grid0.Coords) (v29 : BitVec 32) (hv : v29.toNat = k0_off1 L 1)
    (f1 : (s1).view.ty.Contents (Elt F)) (y : S1024.Idx) :
    View.read (Elt F) (s1).view ((s1).view.writes (Elt F) f1 (posPieces v29)) y = posAt (F := F) d ((pRowK L).view.emb y) := by
  rw [View.read_writes_apply_of_pieces (s1).view f1 (posG v29) (posPieces v29) (pieces_agree v29) y (pieces_cover v29 y), pRow_emb]
  show v29 + BitVec.ofNat 32 (y 0).val = BitVec.ofNat 32 (k0_off1 L 1 + (y 0).val)
  rw [← hv, BitVec.ofNat_add, BitVec.ofNat_toNat, BitVec.setWidth_eq]

end Cert.LookupBits

end
-- ==== Proof.BitsTile.lean ====
/-
  One task of the lookup kernel, on vector subcore (L 0, L 1).
-/
import proofs.«206247_g21887153341054_retrytranche2_883_16_alg».proof.Proof.BitsValue

noncomputable section

namespace Cert.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S1000000x128 EltTy.f32)
local notation "iV" => (Memref.whole Cert.Kernel.main_arg0_scv : Memref Cert.Kernel.sig Kind.scVector Space.hbm Cert.Kernel.S4x8192 EltTy.i32)
local notation "oV" => (Memref.whole Cert.Kernel.main_v0_0_scv : Memref Cert.Kernel.sig Kind.scVector Space.hbm Cert.Kernel.S4x8192x128 EltTy.f32)
local notation "pV" => (Memref.whole Cert.Kernel.main_v0_1_scv : Memref Cert.Kernel.sig Kind.scVector Space.hbm Cert.Kernel.S4x8192 EltTy.i32)
local notation "s0" => (Memref.whole Cert.Kernel.cc0_scratch0 : Memref Cert.Kernel.sig Kind.scVector Space.vmem Cert.Kernel.S1024 EltTy.i32)
local notation "s1" => (Memref.whole Cert.Kernel.cc0_scratch1 : Memref Cert.Kernel.sig Kind.scVector Space.vmem Cert.Kernel.S1024 EltTy.i32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)
local notation "b4" => (Memref.whole Cert.Kernel.cc0_scratch6 : Memref Cert.Kernel.sig Kind.scVector Space.vmem Cert.Kernel.S128x128 EltTy.f32)
local notation "b5" => (Memref.whole Cert.Kernel.cc0_scratch7 : Memref Cert.Kernel.sig Kind.scVector Space.vmem Cert.Kernel.S128x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

abbrev cellOf (a : DmaSem sig) : GSem nD τ sig := (V d (cV L) (jV L), SemLoc.dma a)

omit [FloatOps F] in
theorem cell_ne {a b : DmaSem sig} (h : a ≠ b) : cellOf d L a ≠ cellOf d L b :=
  fun e => h (SemLoc.dma.inj (Prod.mk.inj e).2)

omit [FloatOps F] in
/-- The subcore's own semaphores at zero: the fourteen the task names, and the rest. -/
theorem ownSems0_V :
    (ownSems0 (V d (cV L) (jV L)) : sProp 𝕄)
      = iprop(semVal (cellOf d L cc0_scratch8.sem) 0 ∗ semVal (cellOf d L cc0_scratch9.sem) 0 ∗ semVal (cellOf d L cc0_scratch10.sem) 0 ∗ semVal (cellOf d L cc0_scratch11.sem) 0 ∗ semVal (cellOf d L cc0_scratch12.sem) 0 ∗ semVal (cellOf d L cc0_scratch13.sem) 0 ∗ semVal (cellOf d L cc0_scratch14.sem) 0 ∗ semVal (cellOf d L cc0_scratch15.sem) 0 ∗ semVal (cellOf d L cc0_scratch16.sem) 0 ∗ semVal (cellOf d L cc0_scratch17.sem) 0 ∗ semVal (cellOf d L cc0_scratch18.sem) 0 ∗ semVal (cellOf d L cc0_scratch19.sem) 0 ∗ semVal (cellOf d L cc0_scratch20.sem) 0 ∗ semVal (cellOf d L cc0_scoped0.sem) 0
          ∗ bigSep (((((((((((((((ownCells (V d (cV L) (jV L))).erase (cellOf d L cc0_scratch8.sem)).erase (cellOf d L cc0_scratch9.sem)).erase (cellOf d L cc0_scratch10.sem)).erase (cellOf d L cc0_scratch11.sem)).erase (cellOf d L cc0_scratch12.sem)).erase (cellOf d L cc0_scratch13.sem)).erase (cellOf d L cc0_scratch14.sem)).erase (cellOf d L cc0_scratch15.sem)).erase (cellOf d L cc0_scratch16.sem)).erase (cellOf d L cc0_scratch17.sem)).erase (cellOf d L cc0_scratch18.sem)).erase (cellOf d L cc0_scratch19.sem)).erase (cellOf d L cc0_scratch20.sem)).erase (cellOf d L cc0_scoped0.sem)) fun g => semVal g 0) := by
  unfold SparseCore.Cfg.ownSems0
  rw [SparseCore.bigSep_erase' ((mem_ownCells (g := cellOf d L cc0_scratch8.sem)).mpr ⟨rfl, by show (SemLoc.dma cc0_scratch8.sem : SemLoc sig).isScoped .scVector = true; decide⟩),
    SparseCore.bigSep_erase' (Finset.mem_erase.mpr ⟨cell_ne d L (by decide), (mem_ownCells (g := cellOf d L cc0_scratch9.sem)).mpr ⟨rfl, by show (SemLoc.dma cc0_scratch9.sem : SemLoc sig).isScoped .scVector = true; decide⟩⟩),
    SparseCore.bigSep_erase' (Finset.mem_erase.mpr ⟨cell_ne d L (by decide), Finset.mem_erase.mpr ⟨cell_ne d L (by decide), (mem_ownCells (g := cellOf d L cc0_scratch10.sem)).mpr ⟨rfl, by show (SemLoc.dma cc0_scratch10.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cellOf d L cc0_scratch11.sem)).mpr ⟨rfl, by show (SemLoc.dma cc0_scratch11.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch12.sem)).mpr ⟨rfl, by show (SemLoc.dma cc0_scratch12.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch13.sem)).mpr ⟨rfl, by show (SemLoc.dma cc0_scratch13.sem : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch14.sem)).mpr ⟨rfl, by show (SemLoc.dma cc0_scratch14.sem : SemLoc sig).isScoped .scVector = true; decide⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch15.sem)).mpr ⟨rfl, by show (SemLoc.dma cc0_scratch15.sem : SemLoc sig).isScoped .scVector = true; decide⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch16.sem)).mpr ⟨rfl, by show (SemLoc.dma cc0_scratch16.sem : SemLoc sig).isScoped .scVector = true; decide⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch17.sem)).mpr ⟨rfl, by show (SemLoc.dma cc0_scratch17.sem : SemLoc sig).isScoped .scVector = true; decide⟩⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch18.sem)).mpr ⟨rfl, by show (SemLoc.dma cc0_scratch18.sem : SemLoc sig).isScoped .scVector = true; decide⟩⟩⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch19.sem)).mpr ⟨rfl, by show (SemLoc.dma cc0_scratch19.sem : SemLoc sig).isScoped .scVector = true; decide⟩⟩⟩⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scratch20.sem)).mpr ⟨rfl, by show (SemLoc.dma cc0_scratch20.sem : SemLoc sig).isScoped .scVector = true; decide⟩⟩⟩⟩⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scoped0.sem)).mpr ⟨rfl, by show (SemLoc.dma cc0_scoped0.sem : SemLoc sig).isScoped .scVector = true; decide⟩⟩⟩⟩⟩⟩⟩⟩⟩⟩⟩⟩⟩⟩)]

omit [FloatOps F] in
/-- The subcore's own buffers: the task's eight scratch buffers, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f)
          ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7))
              fun b => iprop(∃ f, ((d, b) : Loc nD τ sig) ↦{fullShare} f)) := by
  unfold SparseCore.Cfg.ownBufs
  rw [SparseCore.bigSep_erase' (SparseCore.Cfg.mem_ownRefs_of_owner (p := (Proc.scVector (cV L) (jV L))) (b := (Proc.scVector (cV L) (jV L)).devRef cc0_scratch0) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := (Proc.scVector (cV L) (jV L))) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := (Proc.scVector (cV L) (jV L))) (b := (Proc.scVector (cV L) (jV L)).devRef cc0_scratch7) rfl⟩⟩⟩⟩⟩⟩⟩)]

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
omit [FloatOps F] in
theorem bigSep_fin6 (Φ : Fin 6 → sProp 𝕄) :
    bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide),
    SparseCore.bigSep_insert' (by decide), SparseCore.bigSep_insert' (by decide), SparseCore.bigSep_insert' (by decide),
    SparseCore.bigSep_insert' (by decide), bigSep_singleton]

abbrev oB0 (L : grid0.Coords) : Memref sig .scVector .hbm S128x128 .f32 :=
  ((oV).slice (Rect.unit (s := S4x8192x128) (k0_off2 L 0#32) S1x128x128.size (k0_off2_inb L 0)) (fun _ => rfl)).squeeze S128x128 squeezes_S1x128x128_S128x128
abbrev oB1 (L : grid0.Coords) : Memref sig .scVector .hbm S128x128 .f32 :=
  ((oV).slice (Rect.unit (s := S4x8192x128) (k0_off2 L 128#32) S1x128x128.size (k0_off2_inb L 1)) (fun _ => rfl)).squeeze S128x128 squeezes_S1x128x128_S128x128
abbrev oB2 (L : grid0.Coords) : Memref sig .scVector .hbm S128x128 .f32 :=
  ((oV).slice (Rect.unit (s := S4x8192x128) (k0_off2 L 256#32) S1x128x128.size (k0_off2_inb L 2)) (fun _ => rfl)).squeeze S128x128 squeezes_S1x128x128_S128x128
abbrev oB3 (L : grid0.Coords) : Memref sig .scVector .hbm S128x128 .f32 :=
  ((oV).slice (Rect.unit (s := S4x8192x128) (k0_off2 L 384#32) S1x128x128.size (k0_off2_inb L 3)) (fun _ => rfl)).squeeze S128x128 squeezes_S1x128x128_S128x128
abbrev oB4 (L : grid0.Coords) : Memref sig .scVector .hbm S128x128 .f32 :=
  ((oV).slice (Rect.unit (s := S4x8192x128) (k0_off2 L 512#32) S1x128x128.size (k0_off2_inb L 4)) (fun _ => rfl)).squeeze S128x128 squeezes_S1x128x128_S128x128
abbrev oB5 (L : grid0.Coords) : Memref sig .scVector .hbm S128x128 .f32 :=
  ((oV).slice (Rect.unit (s := S4x8192x128) (k0_off2 L 640#32) S1x128x128.size (k0_off2_inb L 5)) (fun _ => rfl)).squeeze S128x128 squeezes_S1x128x128_S128x128
abbrev oB6 (L : grid0.Coords) : Memref sig .scVector .hbm S128x128 .f32 :=
  ((oV).slice (Rect.unit (s := S4x8192x128) (k0_off2 L 768#32) S1x128x128.size (k0_off2_inb L 6)) (fun _ => rfl)).squeeze S128x128 squeezes_S1x128x128_S128x128
abbrev oB7 (L : grid0.Coords) : Memref sig .scVector .hbm S128x128 .f32 :=
  ((oV).slice (Rect.unit (s := S4x8192x128) (k0_off2 L 896#32) S1x128x128.size (k0_off2_inb L 7)) (fun _ => rfl)).squeeze S128x128 squeezes_S1x128x128_S128x128

/-- The looked-up row numbers are rows of the table: the index scratch holds, after its fetch, the task's stretch of the
    index array, and every index is below the table's row count. -/
theorem inb_of_ok (hok : PreOK m) (g : Buf (Elt F) ((V d (cV L) (jV L)).loc cc0_scratch0)) (pay : S1024.Idx → Elt F .i32)
    (hpay : pay = (iRowK L).view.read (Elt F) (m (iLoc d))) (r : Rect S1024) (hr : ∀ a, r.stride a = 1) :
    ∀ x, (((s0).slice r hr).view.read (Elt F) (View.write (Elt F) (s0).view g pay Finset.univ) x).toNat
      < S1000000x128.size gathers_S1000000x128_S128x128.axis := by
  subst hpay; intro x
  rw [View.write_whole_univ]
  have h1 : ∀ y, (iRowK L).view.read (Elt F) (m (iLoc d)) y = m (iLoc d) ((iRowK L).view.emb y) :=
    fun y => (View.read_apply _ _).trans (cast_eq _ _)
  rw [(View.read_apply _ _).trans (cast_eq _ _), h1]
  exact hok d _

omit [FloatOps F] in
/-- After a list of writes whose last covers the whole shape, a read gives that last payload. -/
theorem read_head {sig' : RefSig} {κ : Kind} {sp : Space} {s : Shape} {e : EltTy} (v : View sig' κ sp s e) (f : v.ty.Contents (Elt F))
    (G : (Rect.whole s).shape.Idx → Elt F e) (rest : List (View.Piece (Elt F) s e)) (y : s.Idx) :
    v.read (Elt F) (v.writes (Elt F) f (⟨Rect.whole s, G⟩ :: rest)) y = G y := by
  have h := View.read_writes_cons_emb v f (Rect.whole s) G rest y
  rwa [Rect.emb_whole_apply] at h

/-- A chunk of the first result written whole with a payload that is the specification there is held at the specification. -/
theorem chunk_done (r : Fin 8) (pay : S128x128.Idx → Elt F .f32) (h : ∀ y, pay y = rowsAt m d ((oBlkK L r).view.emb y)) :
    (oLoc d ↦[chunkSet L r]{fullShare} (oBlkK L r).view.writes (Elt F) (m (oLoc d)) [⟨Rect.whole S128x128, pay⟩] : sProp 𝕄)
      = oLoc d ↦[chunkSet L r]{fullShare} rowsAt m d := by
  refine pointsTo_congr fun i hi => ?_
  obtain ⟨y, -, rfl⟩ := Finset.mem_map.mp hi
  have e := read_head (F := F) (oBlkK L r).view (m (oLoc d)) pay [] y
  rw [View.read_apply] at e
  exact ((cast_eq _ _).symm.trans e).trans (h y)

/-- The same for the task's stretch of the second result. -/
theorem strip_done (pay : S1024.Idx → Elt F .i32) (h : ∀ y, pay y = posAt (F := F) d ((pRowK L).view.emb y)) :
    (pLoc d ↦[stripSet L]{fullShare} (pRowK L).view.writes (Elt F) (m (pLoc d)) [⟨Rect.whole S1024, pay⟩] : sProp 𝕄)
      = pLoc d ↦[stripSet L]{fullShare} posAt (F := F) d := by
  refine pointsTo_congr fun i hi => ?_
  obtain ⟨y, -, rfl⟩ := Finset.mem_map.mp (show i ∈ (pRowK L).view.set from hi)
  have e := read_head (F := F) (pRowK L).view (m (pLoc d)) pay [] y
  rw [View.read_apply] at e
  exact ((cast_eq _ _).symm.trans e).trans (h y)

set_option maxHeartbeats 4000000 in
/-- The task: it fetches its stretch of the index array; starts six look-ups, one per buffer, each of 128 rows of the
    table at the row numbers in a 128-word window of the fetched indices; writes the 1024 positions of its stretch,
    sixteen at a time, and sends them to the second result; then, chunk by chunk, waits for a look-up, sends the buffer to
    its place in the first result and, once that has gone, reuses the buffer for a later chunk. Every transfer has a
    semaphore to itself while it is outstanding, so each wait returns exactly its own transfer's data, and what the two
    results hold at the end is read off the transfers' payloads: the table's rows at the fetched indices, and the
    positions themselves. -/
theorem tile_body (hF : (K (F := F)).Facts) (hok : PreOK m) (O : CellTallies nD τ sig (HIx 1)) (W : Waits sig (HIx 1)) (hO : ∀ g, O g none = 0) :
    iprop(levAts (K (F := F)).L (K (F := F)).lev ∗ emp ∗ tileGo m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_embed_kernel L tV (Memref.isWhole_whole _) iV (Memref.isWhole_whole _) oV (Memref.isWhole_whole _) pV (Memref.isWhole_whole _)
            s0 (Memref.isWhole_whole _) s1 (Memref.isWhole_whole _) b0 (Memref.isWhole_whole _) b1 (Memref.isWhole_whole _) b2 (Memref.isWhole_whole _)
            b3 (Memref.isWhole_whole _) b4 (Memref.isWhole_whole _) b5 (Memref.isWhole_whole _)
            cc0_scratch8 cc0_scratch9 cc0_scratch10 cc0_scratch11 cc0_scratch12 cc0_scratch13 cc0_scratch14 cc0_scratch15 cc0_scratch16
            cc0_scratch17 cc0_scratch18 cc0_scratch19 cc0_scratch20 cc0_scoped0)
          fun _ => iprop(tileTd m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_embed_kernel_eq_skeleton]; unfold cc0_embed_kernel_skel
  rw [(K (F := F)).scopedBufs_V hF d (cV L) (jV L), SparseCore.Cfg.scopedSems0_V (Val := Elt F) d (cV L) (jV L), ownSems0_V, ownBufs_V]
  unfold tileGo
  rw [bigSep_fin8]
  iintro ⟨#Hlv, -, ⟨Hi, Ht, ⟨Ho0, Ho1, Ho2, Ho3, Ho4, Ho5, Ho6, Ho7⟩, Hp⟩, ⟨⟨%f0, Hs0⟩, ⟨%f1, Hs1⟩, ⟨%g0, Hb0⟩, ⟨%g1, Hb1⟩, ⟨%g2, Hb2⟩, ⟨%g3, Hb3⟩, ⟨%g4, Hb4⟩, ⟨%g5, Hb5⟩, Hbufs⟩, ⟨Hg0, Hg1, Hg2, Hg3, Hg4, Hg5, Hw0, Hw1, Hw2, Hw3, Hw4, Hw5, Hisem, Hssem, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Htt := (Transfers.pointsTo_toks_split (tq L) 6) $$ Ht
  rw [bigSep_fin6]
  icases Htt with ⟨Htr, Ht0, Ht1, Ht2, Ht3, Ht4, Ht5⟩
  ihave Hi' := (Entails.of_eq (show (iLoc d ↦[stripSet L]{fullShare} m (iLoc d) : sProp 𝕄) = (iRowK L).view.loc (V d (cV L) (jV L)) ↦[(iRowK L).view.set]{fullShare} m (iLoc d) from rfl)) $$ Hi
  ihave Hp' := (Entails.of_eq (show (pLoc d ↦[stripSet L]{fullShare} m (pLoc d) : sProp 𝕄) = (pRowK L).view.loc (V d (cV L) (jV L)) ↦[(pRowK L).view.set]{fullShare} m (pLoc d) from rfl)) $$ Hp
  ihave Ho0' := (Entails.of_eq (show (oLoc d ↦[chunkSet L 0]{fullShare} m (oLoc d) : sProp 𝕄) = (oB0 L).view.loc (V d (cV L) (jV L)) ↦[(oB0 L).view.set]{fullShare} m (oLoc d) from rfl)) $$ Ho0
  ihave Ho1' := (Entails.of_eq (show (oLoc d ↦[chunkSet L 1]{fullShare} m (oLoc d) : sProp 𝕄) = (oB1 L).view.loc (V d (cV L) (jV L)) ↦[(oB1 L).view.set]{fullShare} m (oLoc d) from rfl)) $$ Ho1
  ihave Ho2' := (Entails.of_eq (show (oLoc d ↦[chunkSet L 2]{fullShare} m (oLoc d) : sProp 𝕄) = (oB2 L).view.loc (V d (cV L) (jV L)) ↦[(oB2 L).view.set]{fullShare} m (oLoc d) from rfl)) $$ Ho2
  ihave Ho3' := (Entails.of_eq (show (oLoc d ↦[chunkSet L 3]{fullShare} m (oLoc d) : sProp 𝕄) = (oB3 L).view.loc (V d (cV L) (jV L)) ↦[(oB3 L).view.set]{fullShare} m (oLoc d) from rfl)) $$ Ho3
  ihave Ho4' := (Entails.of_eq (show (oLoc d ↦[chunkSet L 4]{fullShare} m (oLoc d) : sProp 𝕄) = (oB4 L).view.loc (V d (cV L) (jV L)) ↦[(oB4 L).view.set]{fullShare} m (oLoc d) from rfl)) $$ Ho4
  ihave Ho5' := (Entails.of_eq (show (oLoc d ↦[chunkSet L 5]{fullShare} m (oLoc d) : sProp 𝕄) = (oB5 L).view.loc (V d (cV L) (jV L)) ↦[(oB5 L).view.set]{fullShare} m (oLoc d) from rfl)) $$ Ho5
  ihave Ho6' := (Entails.of_eq (show (oLoc d ↦[chunkSet L 6]{fullShare} m (oLoc d) : sProp 𝕄) = (oB6 L).view.loc (V d (cV L) (jV L)) ↦[(oB6 L).view.set]{fullShare} m (oLoc d) from rfl)) $$ Ho6
  ihave Ho7' := (Entails.of_eq (show (oLoc d ↦[chunkSet L 7]{fullShare} m (oLoc d) : sProp 𝕄) = (oB7 L).view.loc (V d (cV L) (jV L)) ↦[(oB7 L).view.set]{fullShare} m (oLoc d) from rfl)) $$ Ho7
  ihave Hs0' := (Entails.of_eq (show ((V d (cV L) (jV L)).loc cc0_scratch0 ↦{fullShare} f0 : sProp 𝕄) = (s0).view.loc (V d (cV L) (jV L)) ↦{fullShare} f0 from rfl)) $$ Hs0
  ihave Hs1' := (Entails.of_eq (show ((V d (cV L) (jV L)).loc cc0_scratch1 ↦{fullShare} f1 : sProp 𝕄) = (s1).view.loc (V d (cV L) (jV L)) ↦{fullShare} f1 from rfl)) $$ Hs1
  ihave Hb0' := (Entails.of_eq (show ((V d (cV L) (jV L)).loc cc0_scratch2 ↦{fullShare} g0 : sProp 𝕄) = (b0).view.loc (V d (cV L) (jV L)) ↦{fullShare} g0 from rfl)) $$ Hb0
  ihave Hb1' := (Entails.of_eq (show ((V d (cV L) (jV L)).loc cc0_scratch3 ↦{fullShare} g1 : sProp 𝕄) = (b1).view.loc (V d (cV L) (jV L)) ↦{fullShare} g1 from rfl)) $$ Hb1
  ihave Hb2' := (Entails.of_eq (show ((V d (cV L) (jV L)).loc cc0_scratch4 ↦{fullShare} g2 : sProp 𝕄) = (b2).view.loc (V d (cV L) (jV L)) ↦{fullShare} g2 from rfl)) $$ Hb2
  ihave Hb3' := (Entails.of_eq (show ((V d (cV L) (jV L)).loc cc0_scratch5 ↦{fullShare} g3 : sProp 𝕄) = (b3).view.loc (V d (cV L) (jV L)) ↦{fullShare} g3 from rfl)) $$ Hb3
  ihave Hb4' := (Entails.of_eq (show ((V d (cV L) (jV L)).loc cc0_scratch6 ↦{fullShare} g4 : sProp 𝕄) = (b4).view.loc (V d (cV L) (jV L)) ↦{fullShare} g4 from rfl)) $$ Hb4
  ihave Hb5' := (Entails.of_eq (show ((V d (cV L) (jV L)).loc cc0_scratch7 ↦{fullShare} g5 : sProp 𝕄) = (b5).view.loc (V d (cV L) (jV L)) ↦{fullShare} g5 from rfl)) $$ Hb5
  ihave Ht0' := (Entails.of_eq (show (tLoc d ↦{Transfers.shareTok (tq L) 6 0} m (tLoc d) : sProp 𝕄) = (tV).view.loc (V d (cV L) (jV L)) ↦{Transfers.shareTok (tq L) 6 0} m (tLoc d) from rfl)) $$ Ht0
  ihave Ht1' := (Entails.of_eq (show (tLoc d ↦{Transfers.shareTok (tq L) 6 1} m (tLoc d) : sProp 𝕄) = (tV).view.loc (V d (cV L) (jV L)) ↦{Transfers.shareTok (tq L) 6 1} m (tLoc d) from rfl)) $$ Ht1
  ihave Ht2' := (Entails.of_eq (show (tLoc d ↦{Transfers.shareTok (tq L) 6 2} m (tLoc d) : sProp 𝕄) = (tV).view.loc (V d (cV L) (jV L)) ↦{Transfers.shareTok (tq L) 6 2} m (tLoc d) from rfl)) $$ Ht2
  ihave Ht3' := (Entails.of_eq (show (tLoc d ↦{Transfers.shareTok (tq L) 6 3} m (tLoc d) : sProp 𝕄) = (tV).view.loc (V d (cV L) (jV L)) ↦{Transfers.shareTok (tq L) 6 3} m (tLoc d) from rfl)) $$ Ht3
  ihave Ht4' := (Entails.of_eq (show (tLoc d ↦{Transfers.shareTok (tq L) 6 4} m (tLoc d) : sProp 𝕄) = (tV).view.loc (V d (cV L) (jV L)) ↦{Transfers.shareTok (tq L) 6 4} m (tLoc d) from rfl)) $$ Ht4
  ihave Ht5' := (Entails.of_eq (show (tLoc d ↦{Transfers.shareTok (tq L) 6 5} m (tLoc d) : sProp 𝕄) = (tV).view.loc (V d (cV L) (jV L)) ↦{Transfers.shareTok (tq L) 6 5} m (tLoc d) from rfl)) $$ Ht5
  sl_exec
  have hin := inb_of_ok m d L hok f0 (tile_body.sl.dma0 m d L) rfl
  sl_exec
  have hc0 : ∀ y, tile_body.sl.dma128_1 m d L f0 g0 hin y = rowsAt m d ((oBlkK L 0).view.emb y) :=
    fun y => (read_head _ _ _ _ y).trans (chunk_value m hok d L 0 _ f0 _ _ y)
  have hc1 : ∀ y, tile_body.sl.dma128_2 m d L f0 g1 hin y = rowsAt m d ((oBlkK L 1).view.emb y) :=
    fun y => (read_head _ _ _ _ y).trans (chunk_value m hok d L 1 _ f0 _ _ y)
  have hc2 : ∀ y, tile_body.sl.dma128_3 m d L f0 g2 hin y = rowsAt m d ((oBlkK L 2).view.emb y) :=
    fun y => (read_head _ _ _ _ y).trans (chunk_value m hok d L 2 _ f0 _ _ y)
  have hc3 : ∀ y, tile_body.sl.dma128_4 m d L f0 g3 hin y = rowsAt m d ((oBlkK L 3).view.emb y) :=
    fun y => (read_head _ _ _ _ y).trans (chunk_value m hok d L 3 _ f0 _ _ y)
  have hc4 : ∀ y, tile_body.sl.dma128_5 m d L f0 g4 hin y = rowsAt m d ((oBlkK L 4).view.emb y) :=
    fun y => (read_head _ _ _ _ y).trans (chunk_value m hok d L 4 _ f0 _ _ y)
  have hc5 : ∀ y, tile_body.sl.dma128_6 m d L f0 g5 hin y = rowsAt m d ((oBlkK L 5).view.emb y) :=
    fun y => (read_head _ _ _ _ y).trans (chunk_value m hok d L 5 _ f0 _ _ y)
  have hc6 : ∀ y, tile_body.sl.dma128_7 m d L f0 g0 hin y = rowsAt m d ((oBlkK L 6).view.emb y) :=
    fun y => (read_head _ _ _ _ y).trans (chunk_value m hok d L 6 _ f0 _ _ y)
  have hc7 : ∀ y, tile_body.sl.dma128_8 m d L f0 g1 hin y = rowsAt m d ((oBlkK L 7).view.emb y) :=
    fun y => (read_head _ _ _ _ y).trans (chunk_value m hok d L 7 _ f0 _ _ y)
  have hpv : ∀ y, tile_body.sl.dma128 d L f1 y = posAt (F := F) d ((pRowK L).view.emb y) :=
    fun y => pos_value d L (tile_body.sl.v29 L) rfl f1 y
  sl_step
  unfold tileTd
  rw [bigSep_fin8]
  isplitl [Hi' Htr Ht0' Ht1' Ht2' Ht3' Ht4' Ht5' Ho0' Ho1' Ho2' Ho3' Ho4' Ho5' Ho6' Ho7' Hp']
  · isplitl [Hi']; · iexact Hi'
    isplitl [Htr Ht0' Ht1' Ht2' Ht3' Ht4' Ht5']
    · iapply (Transfers.pointsTo_toks_join (tq L) 6)
      rw [bigSep_fin6]
      isplitl [Htr]; · iexact Htr
      isplitl [Ht0']; · iexact Ht0'
      isplitl [Ht1']; · iexact Ht1'
      isplitl [Ht2']; · iexact Ht2'
      isplitl [Ht3']; · iexact Ht3'
      isplitl [Ht4']; · iexact Ht4'
      iexact Ht5'
    isplitl [Ho0' Ho1' Ho2' Ho3' Ho4' Ho5' Ho6' Ho7']
    · skip
      isplitl [Ho0']; · iapply (Entails.of_eq (chunk_done m d L 0 _ hc0)); iexact Ho0'
      isplitl [Ho1']; · iapply (Entails.of_eq (chunk_done m d L 1 _ hc1)); iexact Ho1'
      isplitl [Ho2']; · iapply (Entails.of_eq (chunk_done m d L 2 _ hc2)); iexact Ho2'
      isplitl [Ho3']; · iapply (Entails.of_eq (chunk_done m d L 3 _ hc3)); iexact Ho3'
      isplitl [Ho4']; · iapply (Entails.of_eq (chunk_done m d L 4 _ hc4)); iexact Ho4'
      isplitl [Ho5']; · iapply (Entails.of_eq (chunk_done m d L 5 _ hc5)); iexact Ho5'
      isplitl [Ho6']; · iapply (Entails.of_eq (chunk_done m d L 6 _ hc6)); iexact Ho6'
      iapply (Entails.of_eq (chunk_done m d L 7 _ hc7)); iexact Ho7'
    iapply (Entails.of_eq (strip_done m d L _ hpv)); iexact Hp'
  isplitl [Hs0' Hs1' Hb0' Hb1' Hb2' Hb3' Hb4' Hb5' Hbufs]
  · isplitl [Hs0']; · iexists _; iexact Hs0'
    isplitl [Hs1']; · iexists _; iexact Hs1'
    isplitl [Hb0']; · iexists _; iexact Hb0'
    isplitl [Hb1']; · iexists _; iexact Hb1'
    isplitl [Hb2']; · iexists _; iexact Hb2'
    isplitl [Hb3']; · iexists _; iexact Hb3'
    isplitl [Hb4']; · iexists _; iexact Hb4'
    isplitl [Hb5']; · iexists _; iexact Hb5'
    iexact Hbufs
  isplitl [Hg0 Hg1 Hg2 Hg3 Hg4 Hg5 Hw0 Hw1 Hw2 Hw3 Hw4 Hw5 Hisem Hssem Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hisem]; · iexact Hisem
    isplitl [Hssem]; · iexact Hssem
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.LookupBits

end
-- ==== Proof.BitsDeal.lean ====
/-
  The deal. The index array and the positions are [4, 8192]; task w = 2·(subcore) + (SparseCore) owns the stretch
  [1024·(w mod 8), 1024·(w mod 8) + 1024) of row w / 8, so element (a, b) belongs to task 8·a + b / 1024: the thirty-two
  stretches are pairwise disjoint and cover the array. The looked-up rows are [4, 8192, 128]; chunk r of task w is the
  128 rows from 1024·(w mod 8) + 128·r of sequence w / 8, so element (a, b, c) belongs to chunk (b mod 1024) / 128 of
  task 8·a + b / 1024: the 256 chunks are pairwise disjoint and cover. The table is read by all: each task holds one of
  thirty-two read tokens of it and a remainder stays behind. Hence the four whole arrays are exactly the remainder beside
  every task's pieces, at any contents: at the launch contents going out, at the specification's results coming back.
-/
import proofs.«206247_g21887153341054_retrytranche2_883_16_alg».proof.Proof.BitsSetup

noncomputable section

namespace Cert.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The offsets in closed form -/

theorem off1_eq : ∀ L : grid0.Coords, ∀ a, k0_off1 L a = ![wOf L / 8, (wOf L % 8) * 1024] a := by decide +kernel
theorem off2_eq : ∀ L : grid0.Coords, ∀ r : Fin 8, ∀ a,
    k0_off2 L (BitVec.ofNat 32 (128 * r.val)) a = ![wOf L / 8, (wOf L % 8) * 1024 + 128 * r.val, 0] a := by decide +kernel

theorem off1_0 (L : grid0.Coords) : k0_off1 L 0 = wOf L / 8 := off1_eq L 0
theorem off1_1 (L : grid0.Coords) : k0_off1 L 1 = (wOf L % 8) * 1024 := off1_eq L 1
theorem off2_0 (L : grid0.Coords) (r : Fin 8) : k0_off2 L (BitVec.ofNat 32 (128 * r.val)) 0 = wOf L / 8 := off2_eq L r 0
theorem off2_1 (L : grid0.Coords) (r : Fin 8) :
    k0_off2 L (BitVec.ofNat 32 (128 * r.val)) 1 = (wOf L % 8) * 1024 + 128 * r.val := off2_eq L r 1
theorem off2_2 (L : grid0.Coords) (r : Fin 8) : k0_off2 L (BitVec.ofNat 32 (128 * r.val)) 2 = 0 := off2_eq L r 2

/-! ## Which elements a stretch and a chunk hold -/

theorem wOf_lt (L : grid0.Coords) : wOf L < 32 := by
  have h0 : (L 0).val < 2 := (L 0).isLt
  have h1 : (L 1).val < 16 := (L 1).isLt
  show 2 * (L 1).val + (L 0).val < 32
  omega

theorem stripSet_eq (L : grid0.Coords) : stripSet L = (strip L).set := by
  show (((View.whole (main_arg0_scv : Ref sig .scVector)).slice (strip L)).reshape S1024 squeezes_S1x1024_S1024.numel_eq).set = _
  rw [View.set_reshape, View.set_slice]; exact Finset.map_refl
theorem chunkSet_eq (L : grid0.Coords) (r : Fin 8) : chunkSet L r = (chunk L r).set := by
  show (((View.whole (main_v0_0_scv : Ref sig .scVector)).slice (chunk L r)).reshape S128x128 squeezes_S1x128x128_S128x128.numel_eq).set = _
  rw [View.set_reshape, View.set_slice]; exact Finset.map_refl

theorem mem_stripSet (L : grid0.Coords) (j : S4x8192.Idx) :
    j ∈ stripSet L ↔ wOf L = 8 * (j 0).val + (j 1).val / 1024 := by
  have s0 : S1x1024.size 0 = 1 := rfl
  have s1 : S1x1024.size 1 = 1024 := rfl
  rw [stripSet_eq, Rect.mem_set_unit, Fin.forall_fin_two, off1_0, off1_1, s0, s1]
  have h0 : (j 0).val < 4 := (j 0).isLt
  have h1 : (j 1).val < 8192 := (j 1).isLt
  have hw : wOf L < 32 := wOf_lt L
  generalize wOf L = w at hw ⊢
  omega

theorem forall_axes3 {P : Fin 3 → Prop} : (∀ a, P a) ↔ P 0 ∧ P 1 ∧ P 2 :=
  ⟨fun h => ⟨h 0, h 1, h 2⟩, fun h a => match a with | 0 => h.1 | 1 => h.2.1 | 2 => h.2.2⟩

theorem mem_chunkSet (L : grid0.Coords) (r : Fin 8) (j : S4x8192x128.Idx) :
    j ∈ chunkSet L r ↔ wOf L = 8 * (j 0).val + (j 1).val / 1024 ∧ r.val = (j 1).val % 1024 / 128 := by
  have s0 : S1x128x128.size 0 = 1 := rfl
  have s1 : S1x128x128.size 1 = 128 := rfl
  have s2 : S1x128x128.size 2 = 128 := rfl
  rw [chunkSet_eq, Rect.mem_set_unit, forall_axes3, off2_0, off2_1, off2_2, s0, s1, s2]
  have h0 : (j 0).val < 4 := (j 0).isLt
  have h1 : (j 1).val < 8192 := (j 1).isLt
  have h2 : (j 2).val < 128 := (j 2).isLt
  have hw : wOf L < 32 := wOf_lt L
  have hr : r.val < 8 := r.isLt
  generalize wOf L = w at hw ⊢
  omega

/-! ## The tasks, as pairs (SparseCore, subcore) -/

abbrev LL (p : Fin 2 × Fin 16) : grid0.Coords := coordsV p.1 p.2
theorem wOf_LL (p : Fin 2 × Fin 16) : wOf (LL p) = 2 * p.2.val + p.1.val := rfl

theorem LL_inj {p p' : Fin 2 × Fin 16} (h : wOf (LL p) = wOf (LL p')) : p = p' := by
  rw [wOf_LL, wOf_LL] at h
  have a := p.1.isLt; have b := p'.1.isLt
  exact Prod.ext (Fin.ext (by omega)) (Fin.ext (by omega))

theorem strips_disjoint : ∀ p ∈ (Finset.univ : Finset (Fin 2 × Fin 16)), ∀ p' ∈ (Finset.univ : Finset (Fin 2 × Fin 16)),
    p ≠ p' → Disjoint (stripSet (LL p)) (stripSet (LL p')) := by
  intro p _ p' _ hne
  rw [Finset.disjoint_left]
  intro j hj hj'
  rw [mem_stripSet] at hj hj'
  exact hne (LL_inj (hj.trans hj'.symm))

theorem strips_cover : (Finset.univ : Finset (Fin 2 × Fin 16)).biUnion (fun p => stripSet (LL p)) = Finset.univ := by
  ext j
  simp only [Finset.mem_biUnion, Finset.mem_univ, true_and, iff_true]
  have h0 : (j 0).val < 4 := (j 0).isLt
  have h1 : (j 1).val < 8192 := (j 1).isLt
  refine ⟨(⟨(8 * (j 0).val + (j 1).val / 1024) % 2, by omega⟩, ⟨(8 * (j 0).val + (j 1).val / 1024) / 2, by omega⟩), ?_⟩
  rw [mem_stripSet, wOf_LL]
  show 2 * ((8 * (j 0).val + (j 1).val / 1024) / 2) + (8 * (j 0).val + (j 1).val / 1024) % 2 = _
  omega

theorem chunks_disjoint : ∀ q ∈ (Finset.univ : Finset ((Fin 2 × Fin 16) × Fin 8)), ∀ q' ∈ (Finset.univ : Finset ((Fin 2 × Fin 16) × Fin 8)),
    q ≠ q' → Disjoint (chunkSet (LL q.1) q.2) (chunkSet (LL q'.1) q'.2) := by
  intro q _ q' _ hne
  rw [Finset.disjoint_left]
  intro j hj hj'
  rw [mem_chunkSet] at hj hj'
  exact hne (Prod.ext (LL_inj (hj.1.trans hj'.1.symm)) (Fin.ext (hj.2.trans hj'.2.symm)))

theorem chunks_cover :
    (Finset.univ : Finset ((Fin 2 × Fin 16) × Fin 8)).biUnion (fun q => chunkSet (LL q.1) q.2) = Finset.univ := by
  ext j
  simp only [Finset.mem_biUnion, Finset.mem_univ, true_and, iff_true]
  have h0 : (j 0).val < 4 := (j 0).isLt
  have h1 : (j 1).val < 8192 := (j 1).isLt
  refine ⟨((⟨(8 * (j 0).val + (j 1).val / 1024) % 2, by omega⟩, ⟨(8 * (j 0).val + (j 1).val / 1024) / 2, by omega⟩),
    ⟨(j 1).val % 1024 / 128, by omega⟩), ?_⟩
  rw [mem_chunkSet, wOf_LL]
  refine ⟨?_, rfl⟩
  show 2 * ((8 * (j 0).val + (j 1).val / 1024) / 2) + (8 * (j 0).val + (j 1).val / 1024) % 2 = _
  omega

/-- Token w of the table goes to the task with 2·(subcore) + (SparseCore) = w. -/
def tokTask : Fin 2 × Fin 16 ≃ Fin 32 where
  toFun p := ⟨2 * p.2.val + p.1.val, by have := p.1.isLt; have := p.2.isLt; omega⟩
  invFun w := (⟨w.val % 2, by omega⟩, ⟨w.val / 2, by have := w.isLt; omega⟩)
  left_inv p := by
    have a := p.1.isLt
    exact Prod.ext (Fin.ext (by show (2 * p.2.val + p.1.val) % 2 = p.1.val; omega)) (Fin.ext (by show (2 * p.2.val + p.1.val) / 2 = p.2.val; omega))
  right_inv w := Fin.ext (by show 2 * (w.val / 2) + w.val % 2 = w.val; omega)

/-! ## Each array as its tasks' pieces -/

variable (m : (ℓ : Loc nD τ sig) → Buf (Elt F) ℓ) [FloatOps F]

omit [FloatOps F] in
theorem iPts_deal (d : Dev nD) (f : Buf (Elt F) (iLoc d)) :
    (iLoc d ↦{fullShare} f : sProp 𝕄) = bigSep Finset.univ fun p : Fin 2 × Fin 16 => iLoc d ↦[stripSet (LL p)]{fullShare} f := by
  rw [← pointsTo_biUnion Finset.univ (ℓ := iLoc d) (fun p => stripSet (LL p)) strips_disjoint, strips_cover]; try rfl
omit [FloatOps F] in
theorem pPts_deal (d : Dev nD) (f : Buf (Elt F) (pLoc d)) :
    (pLoc d ↦{fullShare} f : sProp 𝕄) = bigSep Finset.univ fun p : Fin 2 × Fin 16 => pLoc d ↦[stripSet (LL p)]{fullShare} f := by
  rw [← pointsTo_biUnion Finset.univ (ℓ := pLoc d) (fun p => stripSet (LL p)) strips_disjoint, strips_cover]; try rfl
omit [FloatOps F] in
theorem oPts_deal (d : Dev nD) (f : Buf (Elt F) (oLoc d)) :
    (oLoc d ↦{fullShare} f : sProp 𝕄)
      = bigSep Finset.univ fun p : Fin 2 × Fin 16 => bigSep Finset.univ fun r : Fin 8 => oLoc d ↦[chunkSet (LL p) r]{fullShare} f := by
  rw [← bigSep_univ_prod (fun q : (Fin 2 × Fin 16) × Fin 8 => (oLoc d ↦[chunkSet (LL q.1) q.2]{fullShare} f : sProp 𝕄)),
    ← pointsTo_biUnion Finset.univ (ℓ := oLoc d) (fun q : (Fin 2 × Fin 16) × Fin 8 => chunkSet (LL q.1) q.2) chunks_disjoint, chunks_cover]; try rfl
omit [FloatOps F] in
theorem tPts_deal (d : Dev nD) (f : Buf (Elt F) (tLoc d)) :
    (tLoc d ↦{fullShare} f : sProp 𝕄)
      = iprop((tLoc d ↦{Transfers.shareDrop fullShare 32} f) ∗ bigSep Finset.univ fun p : Fin 2 × Fin 16 => tLoc d ↦{tq (LL p)} f) := by
  have h : (tLoc d ↦{fullShare} f : sProp 𝕄) ⊣⊢ _ := Transfers.pointsTo_toks fullShare 32
  rw [BI.equiv_iff.mp ⟨h.1, h.2⟩, bigSep_univ_equiv tokTask]; rfl

/-! ## The four arrays are the table's remainder beside every task's pieces -/

omit [FloatOps F] in
theorem sep_pull (A D B C E : sProp 𝕄) : iprop(A ∗ (D ∗ B) ∗ C ∗ E) = iprop(D ∗ A ∗ B ∗ C ∗ E) := by
  have h1 : iprop(A ∗ (D ∗ B) ∗ C ∗ E) ⊢ iprop(D ∗ A ∗ B ∗ C ∗ E) := by
    iintro ⟨HA, ⟨HD, HB⟩, HC, HE⟩
    isplitl [HD]; · iexact HD
    isplitl [HA]; · iexact HA
    isplitl [HB]; · iexact HB
    isplitl [HC]; · iexact HC
    iexact HE
  have h2 : iprop(D ∗ A ∗ B ∗ C ∗ E) ⊢ iprop(A ∗ (D ∗ B) ∗ C ∗ E) := by
    iintro ⟨HD, HA, HB, HC, HE⟩
    isplitl [HA]; · iexact HA
    isplitl [HD HB]; · isplitl [HD] <;> iassumption
    isplitl [HC]; · iexact HC
    iexact HE
  exact BI.equiv_iff.mp ⟨h1, h2⟩

omit [FloatOps F] in
theorem deal_eq (d : Dev nD) (fi : Buf (Elt F) (iLoc d)) (ft : Buf (Elt F) (tLoc d)) (fo : Buf (Elt F) (oLoc d)) (fp : Buf (Elt F) (pLoc d)) :
    (iprop((iLoc d ↦{fullShare} fi) ∗ (tLoc d ↦{fullShare} ft) ∗ (oLoc d ↦{fullShare} fo) ∗ (pLoc d ↦{fullShare} fp)) : sProp 𝕄)
      = iprop((tLoc d ↦{Transfers.shareDrop fullShare 32} ft)
          ∗ bigSep Finset.univ fun c : Fin 2 => bigSep Finset.univ fun i : Fin 16 =>
              iprop((iLoc d ↦[stripSet (coordsV c i)]{fullShare} fi) ∗ (tLoc d ↦{tq (coordsV c i)} ft)
                ∗ (bigSep Finset.univ fun r : Fin 8 => oLoc d ↦[chunkSet (coordsV c i) r]{fullShare} fo)
                ∗ (pLoc d ↦[stripSet (coordsV c i)]{fullShare} fp))) := by
  have e := bigSep_univ_prod (fun p : Fin 2 × Fin 16 =>
    (iprop((iLoc d ↦[stripSet (LL p)]{fullShare} fi) ∗ (tLoc d ↦{tq (LL p)} ft)
      ∗ (bigSep Finset.univ fun r : Fin 8 => oLoc d ↦[chunkSet (LL p) r]{fullShare} fo)
      ∗ (pLoc d ↦[stripSet (LL p)]{fullShare} fp)) : sProp 𝕄))
  refine Eq.trans ?_ (congrArg (fun X => iprop((tLoc d ↦{Transfers.shareDrop fullShare 32} ft) ∗ X)) e)
  rw [bigSep_sep', bigSep_sep', bigSep_sep', iPts_deal, tPts_deal, oPts_deal, pPts_deal]
  exact sep_pull _ _ _ _ _

/-- Going out: the launch contents everywhere. -/
theorem deal (d : Dev nD) :
    iprop((iLoc d ↦{fullShare} m (iLoc d)) ∗ (tLoc d ↦{fullShare} m (tLoc d)) ∗ (oLoc d ↦{fullShare} m (oLoc d)) ∗ (pLoc d ↦{fullShare} m (pLoc d)))
      ⊢ (iprop((tLoc d ↦{Transfers.shareDrop fullShare 32} m (tLoc d))
          ∗ bigSep Finset.univ fun c : Fin 2 => bigSep Finset.univ fun i : Fin 16 => tileGo m d (coordsV c i)) : sProp 𝕄) := by
  unfold tileGo
  rw [deal_eq]

/-- Coming back: the two results at the specification. -/
theorem undeal (d : Dev nD) :
    (iprop((tLoc d ↦{Transfers.shareDrop fullShare 32} m (tLoc d))
          ∗ bigSep Finset.univ fun c : Fin 2 => bigSep Finset.univ fun i : Fin 16 => tileTd m d (coordsV c i)) : sProp 𝕄)
      ⊢ iprop((iLoc d ↦{fullShare} m (iLoc d)) ∗ (tLoc d ↦{fullShare} m (tLoc d)) ∗ (oLoc d ↦{fullShare} rowsAt m d) ∗ (pLoc d ↦{fullShare} posAt (F := F) d)) := by
  unfold tileTd
  rw [deal_eq]

end Cert.LookupBits

end
-- ==== Proof.BitsLaunch.lean ====
/-
  The launch of the lookup kernel: each task's obligation from the task's proof, the call's payloads split among the
  tasks, what the launch deals, the host program around the one call — it hands the four arrays out to the thirty-two
  tasks and takes them back with the two results at the specification —, and the run of the whole family of threads.
-/
import proofs.«206247_g21887153341054_retrytranche2_883_16_alg».proof.Proof.BitsTile
import proofs.«206247_g21887153341054_retrytranche2_883_16_alg».proof.Proof.BitsDeal

noncomputable section

namespace Cert.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S1000000x128 EltTy.f32)
local notation "iV" => (Memref.whole Cert.Kernel.main_arg0_scv : Memref Cert.Kernel.sig Kind.scVector Space.hbm Cert.Kernel.S4x8192 EltTy.i32)
local notation "oV" => (Memref.whole Cert.Kernel.main_v0_0_scv : Memref Cert.Kernel.sig Kind.scVector Space.hbm Cert.Kernel.S4x8192x128 EltTy.f32)
local notation "pV" => (Memref.whole Cert.Kernel.main_v0_1_scv : Memref Cert.Kernel.sig Kind.scVector Space.hbm Cert.Kernel.S4x8192 EltTy.i32)
local notation "s0" => (Memref.whole Cert.Kernel.cc0_scratch0 : Memref Cert.Kernel.sig Kind.scVector Space.vmem Cert.Kernel.S1024 EltTy.i32)
local notation "s1" => (Memref.whole Cert.Kernel.cc0_scratch1 : Memref Cert.Kernel.sig Kind.scVector Space.vmem Cert.Kernel.S1024 EltTy.i32)
local notation "b0" => (Memref.whole Cert.Kernel.cc0_scratch2 : Memref Cert.Kernel.sig Kind.scVector Space.vmem Cert.Kernel.S128x128 EltTy.f32)
local notation "b1" => (Memref.whole Cert.Kernel.cc0_scratch3 : Memref Cert.Kernel.sig Kind.scVector Space.vmem Cert.Kernel.S128x128 EltTy.f32)
local notation "b2" => (Memref.whole Cert.Kernel.cc0_scratch4 : Memref Cert.Kernel.sig Kind.scVector Space.vmem Cert.Kernel.S128x128 EltTy.f32)
local notation "b3" => (Memref.whole Cert.Kernel.cc0_scratch5 : Memref Cert.Kernel.sig Kind.scVector Space.vmem Cert.Kernel.S128x128 EltTy.f32)
local notation "b4" => (Memref.whole Cert.Kernel.cc0_scratch6 : Memref Cert.Kernel.sig Kind.scVector Space.vmem Cert.Kernel.S128x128 EltTy.f32)
local notation "b5" => (Memref.whole Cert.Kernel.cc0_scratch7 : Memref Cert.Kernel.sig Kind.scVector Space.vmem Cert.Kernel.S128x128 EltTy.f32)

variable [FloatOps F]

/-! ## The obligation -/

theorem defs₀_vector (c : Fin τ.nSC) (s : Fin τ.nSub) :
    defs₀ (F := F) (.scVector c s) 0 ()
      = SparseCore.onTile hcore0 hsub0 (fun c s => cc0_embed_kernel (coordsV c s)
          tV (Memref.isWhole_whole _) iV (Memref.isWhole_whole _) oV (Memref.isWhole_whole _) pV (Memref.isWhole_whole _)
          s0 (Memref.isWhole_whole _) s1 (Memref.isWhole_whole _) b0 (Memref.isWhole_whole _) b1 (Memref.isWhole_whole _) b2 (Memref.isWhole_whole _)
          b3 (Memref.isWhole_whole _) b4 (Memref.isWhole_whole _) b5 (Memref.isWhole_whole _)
          cc0_scratch8 cc0_scratch9 cc0_scratch10 cc0_scratch11 cc0_scratch12 cc0_scratch13 cc0_scratch14 cc0_scratch15 cc0_scratch16
          cc0_scratch17 cc0_scratch18 cc0_scratch19 cc0_scratch20 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hok : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hok O W hO).trans (wp_mono frame _ _ fun _ => obl_post)

/-! ## The call's payloads: a SparseCore's is its sixteen tasks' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => tileGo m d (coordsV (Fin.cast nCore_zero c) i)) ⊢ |={Set.univ}=> iprop(
      (bigSep Finset.univ fun i : Fin 16 => tileGo m d (coordsV (Fin.cast nCore_zero c) i))
      ∗ ((bigSep Finset.univ fun i : Fin 16 => tileTd m d (coordsV (Fin.cast nCore_zero c) i))
          -∗ bigSep Finset.univ fun i : Fin 16 => tileTd m d (coordsV (Fin.cast nCore_zero c) i)))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (tLoc d ↦{fullShare} W main_arg1)
      ∗ (oLoc d ↦{fullShare} W main_v0_0) ∗ pLoc d ↦{fullShare} W main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun i : Fin 16 => tileGo m d (coordsV c i) :=
  bigSep_cores (F := F) (fun c => bigSep Finset.univ fun i : Fin 16 => tileGo m d (coordsV c i))
theorem dn0_eq (d : Dev nD) : (bigSep Finset.univ fun c : Fin ((K (F := F)).nCore 0) => (P m).dn 0 d c)
    = bigSep Finset.univ fun c : Fin 2 => bigSep Finset.univ fun i : Fin 16 => tileTd m d (coordsV c i) :=
  bigSep_cores (F := F) (fun c => bigSep Finset.univ fun i : Fin 16 => tileTd m d (coordsV c i))

/-- What the host program leaves the claim: the two arguments at their launch contents, the two results at the specification. -/
abbrev FIN (d : Dev nD) : sProp 𝕄 :=
  iprop((iLoc d ↦{fullShare} m (iLoc d)) ∗ (tLoc d ↦{fullShare} m (tLoc d)) ∗ (oLoc d ↦{fullShare} rowsAt m d) ∗ (pLoc d ↦{fullShare} posAt (F := F) d))

/-- The host program on device `d`: the one call. The four arrays are dealt to the tasks (the table by read tokens, a
    remainder kept here), and what the tasks hand back is joined again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ht, Ho, Hp⟩, -, -⟩, -⟩
  ihave Hd := (deal m d) $$ [Hi Ht Ho Hp]
  · isplitl [Hi]; · iexact Hi
    isplitl [Ht]; · iexact Ht
    isplitl [Ho]; · iexact Ho
    iexact Hp
  icases Hd with ⟨Htr, Hgo⟩
  iapply ((K (F := F)).wp_run (D (F := F)) 𝒱 (EH := EH) (P := P m) κ d 0) $$ [Hst Hgo Htr]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hfin := (undeal m d) $$ [Htr Hdn']
  · isplitl [Htr]; · iexact Htr
    iexact Hdn'
  imodintro
  isplitl [Hst]; · iexact Hst
  iexact Hfin

def fq (d : Dev nD) (s' : Phys nD τ sig (Elt F)) : Prop :=
  s'.mem.mem (iLoc d) = m (iLoc d) ∧ s'.mem.mem (tLoc d) = m (tLoc d) ∧ s'.mem.mem (oLoc d) = rowsAt m d ∧ s'.mem.mem (pLoc d) = posAt (F := F) d

set_option maxRecDepth 16384 in
theorem hfin (d : Dev nD) (s' : Phys nD τ sig (Elt F)) : iprop(FIN m d ∗ SI s') ⊢ (⌜fq m d s'⌝ : sProp 𝕄) := by
  iintro ⟨⟨Hi, Ht, Ho, Hp⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := oLoc d) (I := Finset.univ) (q := fullShare) (f := rowsAt m d))) $$ [HSI Ho]
  · isplitl [HSI] <;> iassumption
  icases H with ⟨%h3, HSI, -⟩
  ihave H := (SI_pointsTo_agree (st := s') (ℓ := pLoc d) (I := Finset.univ) (q := fullShare) (f := posAt (F := F) d)) $$ [HSI Hp]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

/-- Every execution ends with the two results at the specification and the two arguments unchanged. -/
def QC : PUnit × MemSt nD τ sig (Elt F) → Prop := fun r => ∀ c : Dev nD,
  r.2.mem (iLoc c) = m (iLoc c) ∧ r.2.mem (tLoc c) = m (tLoc c) ∧ r.2.mem (oLoc c) = rowsAt m c ∧ r.2.mem (pLoc c) = posAt (F := F) c

theorem run_main [∀ e, Nonempty (Elt F e)] (hok : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hok)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.LookupBits

end
-- ==== Proof.RefRun.lean ====
/-
  The reference program's run, read back: its @main, with the two functions it calls unfolded at their calls, is a
  straight line of 26 host operations, so every weakly fair execution terminates with each buffer at the
  operations' composed term of the launch contents of the two arguments, and the arguments unchanged.

  The first result is a table lookup guarded twice: an index below zero is first moved up by the row count
  (`wrapped`), the moved index is tested against the row range [0, 999999] (`inRange`), the rows are gathered at
  the moved indices, and where the test fails the row is replaced by a fill value (`taken`). The second result is
  the position along the sequence axis, broadcast over the batch (`positionsTerm`).
-/
import proofs.«206247_g21887153341054_retrytranche2_883_16_alg».proof.ReferenceIdeal
import proofs.«206247_g21887153341054_retrytranche2_883_16_alg».proof.Proof.Gen.ReferenceIdeal
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

/-! ## The results as terms of the arguments -/

/-- The indices with a negative one moved up by the row count. -/
def wrapped (ids : IVec S4x8192 32) : IVec S4x8192 32 :=
  select (cmpi .slt ids (broadcastInDim S4x8192 ![] bcast_S_S4x8192 (constantI S_ 32 0#32)))
    (addi ids (broadcastInDim S4x8192 ![] bcast_S_S4x8192 (constantI S_ 32 1000000#32))) ids

/-- The moved indices as start indices: a trailing unit axis added. -/
def starts (ids : IVec S4x8192 32) : IVec S4x8192x1 32 :=
  broadcastInDim S4x8192x1 ![0, 1] bcast_S4x8192_S4x8192x1_0_1 (wrapped ids)

/-- Whether each moved index is a row number: at least 0 and at most 999999, the conjunction taken over the unit axis. -/
def inRange (ids : IVec S4x8192 32) : IVec S4x8192 1 :=
  Host.reduce IntOp.andi
    (andi (cmpi .sge (starts ids) (broadcastInDim S4x8192x1 ![] bcast_S_S4x8192x1 (constantI S_ 32 0#32)))
      (cmpi .sle (starts ids) (broadcastInDim S4x8192x1 ![0, 1, 2] bcast_S1x1x1_S4x8192x1_0_1_2
        (broadcastInDim S1x1x1 ![2] bcast_S1_S1x1x1_2 (constantI S1 32 999999#32)))))
    (constantI S_ 1 1#1) reducesTo_S4x8192x1_S4x8192_d2 h_S_

/-- The first result: the gathered rows where the index is a row number, a fill value elsewhere. -/
def taken (tab : FVec F S1000000x128 .f32) (ids : IVec S4x8192 32) : FVec F S4x8192x128 .f32 :=
  select (broadcastInDim S4x8192x128 ![0, 1] bcast_S4x8192_S4x8192x128_0_1 (inRange ids))
    (Host.gather gather_S1000000x128_S4x8192x1_S4x8192x128_2_0_n_n_0_2_1128 tab (starts ids))
    (broadcastInDim S4x8192x128 ![] bcast_S_S4x8192x128 (constant S_ .f32 0x7FC00000#32))

/-- The second result: the position along the sequence axis, over the batch. -/
def positionsTerm : IVec S4x8192 32 :=
  broadcastInDim S4x8192 ![0, 1] bcast_S1x8192_S4x8192_0_1
    (broadcastInDim S1x8192 ![1] bcast_S8192_S1x8192_1 (iotaInDim S8192 32 0))

/-! ## The operations -/

/-- @main's operations in order, the called functions' listed at their calls over the calls' buffer records. -/
abbrev ops : List (HloOp τ sig (Elt F)) :=
  [ TRef.nullary main_call0.c (constantI S_ 32 0#32),
    TRef.unary main_call0.c main_call0.v0 (broadcastInDim S4x8192 ![] bcast_S_S4x8192),
    TRef.binary (.of main_arg0 : TRef sig ⟨S4x8192, .i32⟩) main_call0.v0 main_call0.v1 (cmpi .slt),
    TRef.nullary main_call0.c_0 (constantI S_ 32 1000000#32),
    TRef.unary main_call0.c_0 main_call0.v2 (broadcastInDim S4x8192 ![] bcast_S_S4x8192),
    TRef.binary (.of main_arg0 : TRef sig ⟨S4x8192, .i32⟩) main_call0.v2 main_call0.v3 addi,
    TRef.ternary main_call0.v1 main_call0.v3 (.of main_arg0 : TRef sig ⟨S4x8192, .i32⟩) main_call0.call0.v0 select,
    TRef.unary main_call0.call0.v0 main_call0.v5 (broadcastInDim S4x8192x1 ![0, 1] bcast_S4x8192_S4x8192x1_0_1),
    TRef.nullary main_call0.c_1 (constantI S1 32 999999#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1 : TRef sig ⟨S1000000x128, .f32⟩) main_call0.v5 main_call0.v13 (fun x i => Host.gather gather_S1000000x128_S4x8192x1_S4x8192x128_2_0_n_n_0_2_1128 x i),
    TRef.unary main_call0.v12 main_call0.v14 (broadcastInDim S4x8192x128 ![0, 1] bcast_S4x8192_S4x8192x128_0_1),
    TRef.nullary main_call0.cst (constant S_ .f32 0x7FC00000#32),
    TRef.unary main_call0.cst main_call0.v15 (broadcastInDim S4x8192x128 ![] bcast_S_S4x8192x128),
    TRef.ternary main_call0.v14 main_call0.v13 main_call0.v15 main_call0.v16 select,
    nullary main_v1 (iotaInDim S8192 32 0),
    unary main_v1 main_v2 (broadcastInDim S1x8192 ![1] bcast_S8192_S1x8192_1 : (⟨S8192, .i32⟩ : BufTy).Contents (Elt F) → (⟨S1x8192, .i32⟩ : BufTy).Contents (Elt F)),
    unary main_v2 main_v3 (broadcastInDim S4x8192 ![0, 1] bcast_S1x8192_S4x8192_0_1 : (⟨S1x8192, .i32⟩ : BufTy).Contents (Elt F) → (⟨S4x8192, .i32⟩ : BufTy).Contents (Elt F)) ]

set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., unary_bufs_sub ..⟩

/-! ## The fold of the operations at the four buffers the claim reads -/

attribute [local irreducible] Host.reduce Host.gather in
theorem out0_eq (V : Valuation τ sig (Elt F)) :
    after ops V (main_v0 : DevRef τ sig) = taken (V (main_arg1 : DevRef τ sig)) (V (main_arg0 : DevRef τ sig)) := by
  after_results_simp
  rfl

theorem out1_eq (V : Valuation τ sig (Elt F)) :
    after ops V (main_v3 : DevRef τ sig) = positionsTerm := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair execution of
    @main terminates with the two results at their terms of the arguments' launch contents and the arguments
    unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ fun r => ∀ c : Dev Cert.ReferenceIdeal.nD,
      r.2.mem ((c.tc : Thread Cert.ReferenceIdeal.nD Cert.ReferenceIdeal.τ).loc Cert.ReferenceIdeal.main_v0)
          = taken (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_v3) = positionsTerm
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  (θ_run defs _ _).mono (fun _ h c => ⟨(h c main_v0).trans (out0_eq _), (h c main_v3).trans (out1_eq _),
      (h c main_arg0).trans (arg0_eq _), (h c main_arg1).trans (arg1_eq _)⟩)
    (run_seq scopedRefs_eq scopedSems_eq defs main (fun _ => ops) main_eq (fun _ => ops_sub) m ρ)

end Cert.RefSide

end
-- ==== Proof.RefValue.lean ====
/-
  The value of the reference's two results where every index names a row of the table.

  With 0 ≤ index < 1000000 everywhere, an index is not below zero, so it is not moved; the moved index passes the
  range test, so no row is replaced by the fill value; and the gather's clamp of a start index to the last row is
  the specification's clamp. So the first result is the specification's lookup, entry by entry. The second result
  is an iota along the sequence axis broadcast twice, which reads the position.
-/
import proofs.«206247_g21887153341054_retrytranche2_883_16_alg».proof.Proof.RefRun
import proofs.«206247_g21887153341054_retrytranche2_883_16_alg».proof.Proof.Spec
import Idealize.ShloMosaic.Lib.ValueIdx
import Idealize.ShloMosaic.Lib.IdealHost
import Idealize.ShloMosaic.Lib.Pipeline.Value
import Idealize.ShloMosaic.Lib.Affine
import Idealize.ShloMosaic.PureOps.Reduce

noncomputable section

namespace Cert.RefSide

open Cert.ReferenceIdeal Idealize.ShloMosaic Idealize.ShloMosaic.ValueIdx Idealize.ShloMosaic.TcCoe Idealize.SL.Sem
open Cert.ReferenceIdeal.Facts₀

variable {F : FTy → Type} [FloatOps F]

/-! ## Words -/

/-- A word below 1000000 read unsigned is not negative read signed: it is its unsigned reading. -/
theorem toInt_of_lt {w : BitVec 32} (h : w.toNat < 1000000) : w.toInt = (w.toNat : Int) := by
  rw [BitVec.toInt_eq_toNat_cond]
  simp only [Nat.reducePow]
  omega

theorem not_slt_zero {w : BitVec 32} (h : w.toNat < 1000000) : ¬ IntOp.cmpi .slt w 0#32 = 1#1 := by
  have c0 : (0#32 : BitVec 32).toInt = 0 := by decide
  rw [IntOp.cmpi_slt, toInt_of_lt h, c0]
  omega

theorem sge_zero {w : BitVec 32} (h : w.toNat < 1000000) : IntOp.cmpi .sge w 0#32 = 1#1 := by
  have c0 : (0#32 : BitVec 32).toInt = 0 := by decide
  rw [IntOp.cmpi_sge, toInt_of_lt h, c0]
  omega

theorem sle_last {w : BitVec 32} (h : w.toNat < 1000000) : IntOp.cmpi .sle w 999999#32 = 1#1 := by
  have c1 : (999999#32 : BitVec 32).toInt = 999999 := by decide
  rw [IntOp.cmpi_sle, toInt_of_lt h, c1]
  omega

/-- A left fold by `and` from 1 over words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-! ## The first result -/

/-- An index that names a row is not moved. -/
theorem wrapped_apply (ids : IVec S4x8192 32) (j : S4x8192.Idx) (h : (ids j).toNat < 1000000) : wrapped ids j = ids j := by
  show Scalar.select (IntOp.cmpi .slt (ids j) 0#32) _ (ids j) = ids j
  rw [eq_zero_of_ne_one (not_slt_zero h)]
  exact select_zero _ _

/-- The start indices read at (b, s, 0): the moved index at (b, s). -/
theorem starts_apply (ids : IVec S4x8192 32) (j : S4x8192x1.Idx) : starts ids j = wrapped ids (ix2 (j 0) (j 1)) :=
  broadcastInDim_apply _ bcast_S4x8192_S4x8192x1_0_1 _ j (ix2 (j 0) (j 1))
    (fun a => match a with | ⟨0, _⟩ => rfl | ⟨1, _⟩ => rfl)

/-- Every index passes the range test. -/
theorem inRange_apply (ids : IVec S4x8192 32) (hok : ∀ j, (ids j).toNat < 1000000) (j : S4x8192.Idx) : inRange ids j = 1#1 := by
  unfold inRange
  rw [Host.reduce_eq_foldl]
  refine foldl_andi_one _ (fun i => ?_) _
  have hv : (starts ids i).toNat < 1000000 := by
    rw [starts_apply, wrapped_apply _ _ (hok _)]; exact hok _
  show IntOp.andi (IntOp.cmpi .sge (starts ids i) 0#32) (IntOp.cmpi .sle (starts ids i) 999999#32) = 1#1
  rw [sge_zero hv, sle_last hv]
  rfl

/-! ### The gather read at an index

Operand [1000000, 128], start indices [4, 8192, 1], result [4, 8192, 128]; the start index names the operand's row
axis, which is collapsed, and the result's last axis is the offset along the operand's column axis. So result entry
(b, s, e) reads the operand at row `start[b, s, 0]` (read signed, clamped into [0, 999999]) and column `e`. -/

/-- The reference's gather dimension numbers. -/
abbrev G := gather_S1000000x128_S4x8192x1_S4x8192x128_2_0_n_n_0_2_1128

/-- The row the gather reads: the start index read signed and clamped to the last row. -/
theorem operandIdx_row (idx : IVec S4x8192x1 32) (j : S4x8192x128.Idx) :
    (G.operandIdx j idx (0 : Fin 2)).val = min (idx (ix3 (j 0) (j 1) 0)).toInt.toNat 999999 := by
  show G.start j idx 0 + G.batchCoord j 0 + G.offCoord j 0 = _
  rw [GatherDims.batchCoord_eq_zero _ _ _ (show (0 : Fin 2) ∉ G.operandBatchingDims from List.not_mem_nil),
    GatherDims.offCoord_eq_zero _ _ _ (fun h => ((GatherDims.mem_sKept _ _).mp h).1 (List.mem_singleton.mpr rfl))]
  simp only [Nat.add_zero]
  unfold GatherDims.start
  rw [dif_pos (show (0 : Fin 2) ∈ G.startIndexMap from List.mem_singleton.mpr rfl)]
  have hsi : G.siIdx j ⟨List.idxOf (0 : Fin 2) G.startIndexMap,
      List.idxOf_lt_length_iff.2 (List.mem_singleton.mpr rfl)⟩ = ix3 (j 0) (j 1) 0 := by
    funext b; refine Fin.ext ?_
    match b with
    | ⟨0, _⟩ => rfl
    | ⟨1, _⟩ => rfl
    | ⟨2, _⟩ => rfl
  rw [hsi]
  rfl

/-- The column the gather reads: the result's last coordinate. -/
theorem operandIdx_col (idx : IVec S4x8192x1 32) (j : S4x8192x128.Idx) :
    (G.operandIdx j idx (1 : Fin 2)).val = (j 2).val := by
  show G.start j idx 1 + G.batchCoord j 1 + G.offCoord j 1 = _
  rw [GatherDims.batchCoord_eq_zero _ _ _ (show (1 : Fin 2) ∉ G.operandBatchingDims from List.not_mem_nil)]
  have hs : G.start j idx (1 : Fin 2) = 0 := by
    unfold GatherDims.start
    rw [dif_neg (by decide)]
  have ho : G.offCoord j (1 : Fin 2) = (j 2).val := by
    unfold GatherDims.offCoord
    rw [dif_pos (by decide)]
    rfl
  rw [hs, ho]
  simp only [Nat.add_zero, Nat.zero_add]

/-- The gather read at (b, s, e). -/
theorem gather_apply {α : Type} (tab : S1000000x128.Idx → α) (idx : IVec S4x8192x1 32) (j : S4x8192x128.Idx) :
    Host.gather G tab idx j
      = tab (ix2 (⟨min (idx (ix3 (j 0) (j 1) 0)).toInt.toNat 999999, by omega⟩ : Fin 1000000) (j 2)) := by
  unfold Host.gather
  congr 1
  funext a
  refine Fin.ext ?_
  match a with
  | ⟨0, _⟩ => exact operandIdx_row idx j
  | ⟨1, _⟩ => exact operandIdx_col idx j

/-- The first result read at (b, s, e), where every index names a row: the table at the specification's row. -/
theorem taken_apply (tab : FVec F S1000000x128 .f32) (ids : IVec S4x8192 32) (hok : ∀ j, (ids j).toNat < 1000000)
    (j : S4x8192x128.Idx) :
    taken tab ids j = tab (ix2 (Cert.Lookup.rowOf (ids (ix2 (j 0) (j 1)))) (j 2)) := by
  have hmask : broadcastInDim S4x8192x128 ![0, 1] bcast_S4x8192_S4x8192x128_0_1 (inRange ids) j = 1#1 := by
    rw [broadcastInDim_apply _ bcast_S4x8192_S4x8192x128_0_1 _ j (ix2 (j 0) (j 1))
      (fun a => match a with | ⟨0, _⟩ => rfl | ⟨1, _⟩ => rfl)]
    exact inRange_apply ids hok _
  unfold taken
  rw [select_apply, hmask, select_one, gather_apply]
  have hs : starts ids (ix3 (j 0) (j 1) (0 : Fin 1)) = ids (ix2 (j 0) (j 1)) :=
    (starts_apply ids _).trans (wrapped_apply ids (ix2 (j 0) (j 1)) (hok _))
  refine congrArg tab ?_
  funext a
  refine Fin.ext ?_
  match a with
  | ⟨0, _⟩ =>
    show min (starts ids (ix3 (j 0) (j 1) (0 : Fin 1))).toInt.toNat 999999 = min (ids (ix2 (j 0) (j 1))).toNat 999999
    rw [hs, toInt_of_lt (hok _), Int.toNat_natCast]
  | ⟨1, _⟩ => rfl

/-- The first result is the specification's lookup. -/
theorem taken_eq_rows (tab : FVec F S1000000x128 .f32) (ids : IVec S4x8192 32) (hok : Cert.Lookup.IdsOK ids) :
    taken tab ids = Cert.Lookup.rows ids tab :=
  funext fun j => taken_apply tab ids hok j

/-! ## The second result -/

/-- The second result is the specification's positions. -/
theorem positionsTerm_eq : positionsTerm = Cert.Lookup.positions := by
  funext j
  unfold positionsTerm
  rw [broadcastInDim_apply _ bcast_S1x8192_S4x8192_0_1 _ j (ix2 (0 : Fin 1) (j 1))
      (fun a => match a with | ⟨0, _⟩ => rfl | ⟨1, _⟩ => rfl),
    broadcastInDim_apply _ bcast_S8192_S1x8192_1 _ (ix2 (0 : Fin 1) (j 1)) (ix1 (j 1))
      (fun a => match a with | ⟨0, _⟩ => rfl)]
  rfl

/-! ## The run with the values -/

/-- Where every index names a row of the table: every weakly fair execution of the reference terminates with the
    first result the specification's lookup, the second the positions, and the arguments unchanged. -/
theorem ref_run (m : (ℓ : Loc Cert.ReferenceIdeal.nD Cert.ReferenceIdeal.τ Cert.ReferenceIdeal.sig) → Buf (Elt F) ℓ)
    (ρ : Dev Cert.ReferenceIdeal.nD → PrngReg)
    (hok : ∀ c : Dev Cert.ReferenceIdeal.nD, Cert.Lookup.IdsOK
      (m ((c.tc : Thread Cert.ReferenceIdeal.nD Cert.ReferenceIdeal.τ).loc Cert.ReferenceIdeal.main_arg0))) :
    θ_run (Cert.ReferenceIdeal.defs (F := F)) (onTc (τ := Cert.ReferenceIdeal.τ) (Cert.ReferenceIdeal.main (F := F))) ⟨m, fun _ => 0, ρ⟩ fun r => ∀ c : Dev Cert.ReferenceIdeal.nD,
      r.2.mem ((c.tc : Thread Cert.ReferenceIdeal.nD Cert.ReferenceIdeal.τ).loc Cert.ReferenceIdeal.main_v0)
          = Cert.Lookup.rows (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v3) = Cert.Lookup.positions
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  (θ_run Cert.ReferenceIdeal.defs _ _).mono
    (fun _ h c => ⟨(h c).1.trans (taken_eq_rows _ _ (hok c)), (h c).2.1.trans positionsTerm_eq, (h c).2.2.1, (h c).2.2.2⟩)
    (run (F := F) m ρ)

end Cert.RefSide

end
-- ==== Proof.RefPre.lean ====
/-
  What the input-domain precondition says of the index array: every index names a row of the table.

  The precondition is the conjunction of two whole-array tests, each an `and`-reduction to a single bit; the claim
  states that the bit is 1. The second test says of every index word v that 0 ≤ v and v ≤ 999999 as signed words,
  hence that v read as a natural number is below 1000000. The first test (the table's entries are finite) is not used.
-/
import proofs.«206247_g21887153341054_retrytranche2_883_16_alg».proof.Pre_input_domain
import proofs.«206247_g21887153341054_retrytranche2_883_16_alg».proof.Proof.Gen.Pre_input_domain
import proofs.«206247_g21887153341054_retrytranche2_883_16_alg».proof.Proof.Spec
import Idealize.ShloMosaic.Lib.ReduceAll

noncomputable section

namespace Cert.RefSide

open Idealize.ShloMosaic Idealize.ShloMosaic.ValueIdx

/-- The result of a reduction over every axis has one index. -/
instance : Subsingleton Cert.Pre_input_domain.S_.Idx := ⟨fun a b => funext fun d => d.elim0⟩

/-- A 32-bit word that is at least 0 and at most 999999, compared signed, is below 1000000 read unsigned. -/
theorem toNat_lt_of_signed_bounds (v : BitVec 32)
    (h : IntOp.andi (IntOp.cmpi .sge v 0#32) (IntOp.cmpi .sle v 999999#32) = 1#1) : v.toNat < 1000000 := by
  obtain ⟨h0, h1⟩ := IntOp.andi_eq_one.1 h
  rw [IntOp.cmpi_sge] at h0
  rw [IntOp.cmpi_sle] at h1
  have c0 : (0#32 : BitVec 32).toInt = 0 := by decide
  have c1 : (999999#32 : BitVec 32).toInt = 999999 := by decide
  rw [c0] at h0
  rw [c1] at h1
  rw [BitVec.toInt_eq_toNat_cond] at h0 h1
  simp only [Nat.reducePow] at h0 h1
  omega

/-- The precondition gives the bound on every index. -/
theorem idsOK_of_pre {F : FTy → Type} [FloatOps F] (ids : IVec Cert.Lookup.SIds 32) (tab : FVec F Cert.Lookup.STab .f32)
    (h : Cert.Pre_input_domain.fn (F := F) ids tab = (fun _ => 1#1)) : Cert.Lookup.IdsOK ids := by
  intro j
  have e := congrFun h ix0
  dsimp only [Cert.Pre_input_domain.fn] at e
  have e2 := (IntOp.andi_eq_one.1 e).2
  have e3 := Host.reduce_andi_all _ _ _ _ _ e2 j
  exact toNat_lt_of_signed_bounds _ e3

end Cert.RefSide

end
-- ==== Proof.lean ====
/-
  The certificate of the table lookup: the kernel run on the device's thirty-two vector subcores against the host's
  take-and-arange, as extended reals.

  Both programs compute, from an index array ids : [4, 8192] and a table : [1000000, 128], the rows of the table at the
  indices (first result, [4, 8192, 128]) and the positions 0 … 8191 along each sequence (second result). The precondition
  keeps every index inside the table, so no clamping, wrapping or fill value of either program is ever exercised.
  Proof/Spec.lean states the two results once. The kernel side (Proof/Ideal*.lean for the idealized program,
  Proof/Bits*.lean the same text over the word-level program) shows that every weakly fair execution of the whole family
  of threads ends with the two results at that specification and the arguments unchanged; the reference side
  (Proof/Ref*.lean) shows the same of the host program. The three frames are these runs with the values dropped; the
  idealization rewrote nothing, so what it must preserve is trivial; and the algebraic claim is the two runs side by
  side at the one specification, the reference's arguments rewritten to the kernel's by their agreement.
-/
import proofs.«206247_g21887153341054_retrytranche2_883_16_alg».proof.Defs
import proofs.«206247_g21887153341054_retrytranche2_883_16_alg».proof.Proof.Gen.Kernel
import proofs.«206247_g21887153341054_retrytranche2_883_16_alg».proof.Proof.Gen.Kernel.Skeleton
import proofs.«206247_g21887153341054_retrytranche2_883_16_alg».proof.Proof.Gen.KernelIdeal
import proofs.«206247_g21887153341054_retrytranche2_883_16_alg».proof.Proof.Gen.KernelIdeal.Skeleton
import proofs.«206247_g21887153341054_retrytranche2_883_16_alg».proof.Proof.Gen.ReferenceIdeal
import proofs.«206247_g21887153341054_retrytranche2_883_16_alg».proof.Proof.Gen.Pre_input_domain
import proofs.«206247_g21887153341054_retrytranche2_883_16_alg».proof.Proof.IdealLaunch
import proofs.«206247_g21887153341054_retrytranche2_883_16_alg».proof.Proof.BitsLaunch
import proofs.«206247_g21887153341054_retrytranche2_883_16_alg».proof.Proof.RefValue
import proofs.«206247_g21887153341054_retrytranche2_883_16_alg».proof.Proof.RefPre
import Idealize.ShloMosaic.Adequacy
import Idealize.ShloMosaic.Init

noncomputable section

namespace Cert.Proof

open Idealize.ShloMosaic Idealize.SL.Sem

/-- Under the precondition every index of the word-level program's index array names a row of the table. -/
theorem ok_bits (m : (ℓ : Loc Cert.Kernel.nD Cert.Kernel.τ Cert.Kernel.sig) → Buf (Elt Bits) ℓ) (h : Cert.Pre_Kernel m) :
    Cert.LookupBits.PreOK m := fun d => Cert.RefSide.idsOK_of_pre _ _ (h d)

/-- The same for the idealized program. -/
theorem ok_ideal (m : (ℓ : Loc Cert.KernelIdeal.nD Cert.KernelIdeal.τ Cert.KernelIdeal.sig) → Buf (Elt Ideal) ℓ) (h : Cert.Pre_KernelIdeal m) :
    Cert.LookupIdeal.PreOK m := fun d => Cert.RefSide.idsOK_of_pre _ _ (h d)

theorem frame_k : Cert.frame_Kernel := fun m g hpre =>
  (θ_run Cert.Kernel.defs _ _).mono (fun _ h c => ⟨(h c).1, (h c).2.1⟩) (Cert.LookupBits.run_main (F := Bits) m g (ok_bits m hpre))

theorem frame_ki : Cert.frame_KernelIdeal := fun m g hpre =>
  (θ_run Cert.KernelIdeal.defs _ _).mono (fun _ h c => ⟨(h c).1, (h c).2.1⟩) (Cert.LookupIdeal.run_main (F := Ideal) m g (ok_ideal m hpre))

theorem frame_ri : Cert.frame_ReferenceIdeal := fun m g hpre =>
  (θ_run Cert.ReferenceIdeal.defs _ _).mono (fun _ h c => ⟨(h c).2.2.1, (h c).2.2.2⟩)
    (Cert.RefSide.ref_run (F := Ideal) m g (fun c => Cert.RefSide.idsOK_of_pre _ _ (hpre c)))

/-- Both programs end at the specification of the kernel's own arguments: the kernel by its run, the reference by its
    run from arguments that agree with the kernel's. -/
theorem algebraic : Cert.algebraic_KernelIdeal_ReferenceIdeal := by
  intro m g m' g' hpre hagree
  refine ⟨fun c => Cert.LookupIdeal.rowsAt m c, fun c => Cert.LookupIdeal.posAt (F := Ideal) c, ?_, ?_⟩
  · exact (θ_run Cert.KernelIdeal.defs _ _).mono (fun _ h c => ⟨(h c).2.2.1, (h c).2.2.2, (h c).1, (h c).2.1⟩)
      (Cert.LookupIdeal.run_main (F := Ideal) m g (ok_ideal m hpre))
  · have hok' : ∀ c : Dev Cert.ReferenceIdeal.nD, Cert.Lookup.IdsOK (m' ((c.tc : Thread Cert.ReferenceIdeal.nD Cert.ReferenceIdeal.τ).loc Cert.ReferenceIdeal.main_arg0)) := by
      intro c; rw [(hagree c).1]; exact ok_ideal m hpre c
    refine (θ_run Cert.ReferenceIdeal.defs _ _).mono (fun _ h c => ⟨?_, ?_, (h c).2.2.1, (h c).2.2.2⟩)
      (Cert.RefSide.ref_run (F := Ideal) m' g' hok')
    · rw [(h c).1, (hagree c).1, (hagree c).2]; rfl
    · rw [(h c).2.1]; rfl

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
